-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S2x160000 : S_.BroadcastsInDim S2x160000 (![] : Fin 0 → Fin S2x160000.rank)
  reducesTo_S2x160000_S_d0_1 : S2x160000.ReducesTo [0, 1] S_

variable [Facts]

def fn_part1 {F : FTy → Type} [FloatOps F] (main_arg1 : IVec S2x160000 32) (main_arg5 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S2x160000 32 := broadcastInDim S2x160000 ![] bcast_S_S2x160000 main_c_8
  let main_v25 : IVec S2x160000 1 := cmpi .sge main_arg1 main_v24
  let main_c_9 : IVec S_ 32 := constantI S_ 32 10000#32
  let main_v26 : IVec S2x160000 32 := broadcastInDim S2x160000 ![] bcast_S_S2x160000 main_c_9
  let main_v27 : IVec S2x160000 1 := cmpi .slt main_arg1 main_v26
  let main_v28 : IVec S2x160000 1 := andi main_v25 main_v27
  let main_c_10 : IVec S_ 1 := constantI S_ 1 1#1
  let main_v29 : IVec S_ 1 := (fun x v => Host.reduce IntOp.andi x v reducesTo_S2x160000_S_d0_1 h_S_) main_v28 main_c_10
  let main_v30 : IVec S_ 1 := andi main_v23 main_v29
  main_v30

def fn {F : FTy → Type} [FloatOps F] (main_arg0 : FVec F S10000x512 .f32) (main_arg1 : IVec S2x160000 32) (main_arg2 : FVec F S512x512 .f32) (main_arg3 : FVec F S512 .f32) (main_arg4 : FVec F S512x256 .f32) (main_arg5 : FVec F S256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg1 main_arg5 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S10240x10240 : Shape := ⟨2, ![10240, 10240]⟩
abbrev S170000x2 : Shape := ⟨2, ![170000, 2]⟩
abbrev S10240x512 : Shape := ⟨2, ![10240, 512]⟩
abbrev S1x512 : Shape := ⟨2, ![1, 512]⟩
abbrev S1x256 : Shape := ⟨2, ![1, 256]⟩
abbrev S640x512 : Shape := ⟨2, ![640, 512]⟩
abbrev S640x10240 : Shape := ⟨2, ![640, 10240]⟩
abbrev S10240x256 : Shape := ⟨2, ![10240, 256]⟩
abbrev S640x256 : Shape := ⟨2, ![640, 256]⟩
abbrev S10000x256 : Shape := ⟨2, ![10000, 256]⟩

abbrev nBuf : Space → Nat
  | .hbm => 84
  | .vmem => 24
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S1x160000, .i32⟩
  | .hbm, ⟨7, _⟩ => ⟨S160000, .i32⟩
  | .hbm, ⟨8, _⟩ => ⟨S1x160000, .i32⟩
  | .hbm, ⟨9, _⟩ => ⟨S160000, .i32⟩
  | .hbm, ⟨10, _⟩ => ⟨S10000, .i32⟩
  | .hbm, ⟨11, _⟩ => ⟨S170000, .i32⟩
  | .hbm, ⟨12, _⟩ => ⟨S170000, .i32⟩
  | .hbm, ⟨13, _⟩ => ⟨S_, .f32⟩
  | .hbm, ⟨14, _⟩ => ⟨S170000, .f32⟩
  | .hbm, ⟨15, _⟩ => ⟨S_, .f32⟩
  | .hbm, ⟨16, _⟩ => ⟨S10000, .f32⟩
  | .hbm, ⟨17, _⟩ => ⟨S170000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S170000, .i32⟩
  | .hbm, ⟨29, _⟩ => ⟨S170000, .i1⟩
  | .hbm, ⟨30, _⟩ => ⟨S_, .i32⟩
  | .hbm, ⟨31, _⟩ => ⟨S170000, .i32⟩
  | .hbm, ⟨32, _⟩ => ⟨S170000, .i32⟩
  | .hbm, ⟨33, _⟩ => ⟨S170000, .i32⟩
  | .hbm, ⟨34, _⟩ => ⟨S170000x1, .i32⟩
  | .hbm, ⟨35, _⟩ => ⟨S170000, .f32⟩
  | .hbm, ⟨36, _⟩ => ⟨S_, .i32⟩
  | .hbm, ⟨37, _⟩ => ⟨S170000, .i32⟩
  | .hbm, ⟨38, _⟩ => ⟨S170000, .i1⟩
  | .hbm, ⟨39, _⟩ => ⟨S_, .i32⟩
  | .hbm, ⟨40, _⟩ => ⟨S170000, .i32⟩
  | .hbm, ⟨41, _⟩ => ⟨S170000, .i32⟩
  | .hbm, ⟨42, _⟩ => ⟨S170000, .i32⟩
  | .hbm, ⟨43, _⟩ => ⟨S170000x1, .i32⟩
  | .hbm, ⟨44, _⟩ => ⟨S170000, .f32⟩
  | .hbm, ⟨45, _⟩ => ⟨S170000, .f32⟩
  | .hbm, ⟨46, _⟩ => ⟨S_, .f32⟩
  | .hbm, ⟨47, _⟩ => ⟨S10240x10240, .f32⟩
  | .hbm, ⟨48, _⟩ => ⟨S_, .i32⟩
  | .hbm, ⟨49, _⟩ => ⟨S170000, .i32⟩
  | .hbm, ⟨50, _⟩ => ⟨S170000, .i1⟩
  | .hbm, ⟨51, _⟩ => ⟨S_, .i32⟩
  | .hbm, ⟨52, _⟩ => ⟨S170000, .i32⟩
  | .hbm, ⟨53, _⟩ => ⟨S170000, .i32⟩
  | .hbm, ⟨54, _⟩ => ⟨S170000, .i32⟩
  | .hbm, ⟨55, _⟩ => ⟨S_, .i32⟩
  | .hbm, ⟨56, _⟩ => ⟨S170000, .i32⟩
  | .hbm, ⟨57, _⟩ => ⟨S170000, .i1⟩
  | .hbm, ⟨58, _⟩ => ⟨S_, .i32⟩
  | .hbm, ⟨59, _⟩ => ⟨S170000, .i32⟩
  | .hbm, ⟨60, _⟩ => ⟨S170000, .i32⟩
  | .hbm, ⟨61, _⟩ => ⟨S170000, .i32⟩
  | .hbm, ⟨62, _⟩ => ⟨S170000x1, .i32⟩
  | .hbm, ⟨63, _⟩ => ⟨S170000x1, .i32⟩
  | .hbm, ⟨64, _⟩ => ⟨S170000x2, .i32⟩
  | .hbm, ⟨65, _⟩ => ⟨S10240x10240, .f32⟩
  | .hbm, ⟨66, _⟩ => ⟨S10240x10240, .bf16⟩
  | .hbm, ⟨67, _⟩ => ⟨S_, .i32⟩
  | .hbm, ⟨68, _⟩ => ⟨S_, .f32⟩
  | .hbm, ⟨69, _⟩ => ⟨S10240x512, .f32⟩
  | .hbm, ⟨70, _⟩ => ⟨S10240x512, .bf16⟩
  | .hbm, ⟨71, _⟩ => ⟨S512x512, .bf16⟩
  | .hbm, ⟨72, _⟩ => ⟨S512x256, .bf16⟩
  | .hbm, ⟨73, _⟩ => ⟨S_, .f32⟩
  | .hbm, ⟨74, _⟩ => ⟨S1x512, .f32⟩
  | .hbm, ⟨75, _⟩ => ⟨S_, .f32⟩
  | .hbm, ⟨76, _⟩ => ⟨S1x256, .f32⟩
  | .hbm, ⟨77, _⟩ => ⟨S1x512, .f32⟩
  | .hbm, ⟨78, _⟩ => ⟨S1x256, .f32⟩
  | .hbm, ⟨79, _⟩ => ⟨S10240x512, .bf16⟩
  | .hbm, ⟨80, _⟩ => ⟨S10240x512, .bf16⟩
  | .hbm, ⟨81, _⟩ => ⟨S10240x256, .bf16⟩
  | .hbm, ⟨82, _⟩ => ⟨S10240x256, .f32⟩
  | .hbm, ⟨83, _⟩ => ⟨S10000x256, .f32⟩
  | .local _ .vmem, ⟨0, _⟩ => ⟨S640x512, .bf16⟩
  | .local _ .vmem, ⟨1, _⟩ => ⟨S640x512, .bf16⟩
  | .local _ .vmem, ⟨2, _⟩ => ⟨S512x512, .bf16⟩
  | .local _ .vmem, ⟨3, _⟩ => ⟨S1x512, .f32⟩
  | .local _ .vmem, ⟨4, _⟩ => ⟨S640x512, .bf16⟩
  | .local _ .vmem, ⟨5, _⟩ => ⟨S640x512, .bf16⟩
  | .local _ .vmem, ⟨6, _⟩ => ⟨S640x10240, .bf16⟩
  | .local _ .vmem, ⟨7, _⟩ => ⟨S640x10240, .bf16⟩
  | .local _ .vmem, ⟨8, _⟩ => ⟨S10240x512, .bf16⟩
  | .local _ .vmem, ⟨9, _⟩ => ⟨S1x512, .f32⟩
  | .local _ .vmem, ⟨10, _⟩ => ⟨S640x512, .bf16⟩
  | .local _ .vmem, ⟨11, _⟩ => ⟨S640x512, .bf16⟩
  | .local _ .vmem, ⟨12, _⟩ => ⟨S640x512, .bf16⟩
  | .local _ .vmem, ⟨13, _⟩ => ⟨S640x512, .bf16⟩
  | .local _ .vmem, ⟨14, _⟩ => ⟨S512x256, .bf16⟩
  | .local _ .vmem, ⟨15, _⟩ => ⟨S1x256, .f32⟩
  | .local _ .vmem, ⟨16, _⟩ => ⟨S640x256, .bf16⟩
  | .local _ .vmem, ⟨17, _⟩ => ⟨S640x256, .bf16⟩
  | .local _ .vmem, ⟨18, _⟩ => ⟨S640x10240, .bf16⟩
  | .local _ .vmem, ⟨19, _⟩ => ⟨S640x10240, .bf16⟩
  | .local _ .vmem, ⟨20, _⟩ => ⟨S10240x256, .bf16⟩
  | .local _ .vmem, ⟨21, _⟩ => ⟨S1x256, .f32⟩
  | .local _ .vmem, ⟨22, _⟩ => ⟨S640x256, .f32⟩
  | .local _ .vmem, ⟨23, _⟩ => ⟨S640x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_cst_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S640x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S640x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S640x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S640x10240 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10240x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S640x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S_S10240x10240 : S_.BroadcastsInDim S10240x10240 (![] : Fin 0 → Fin S10240x10240.rank)
  concatenates_S170000x1_S170000x1_S170000x2_d1 : Shape.Concatenates [S170000x1, S170000x1] S170000x2 1
  bitsLt_bf16_f32 : FTy.bits .bf16 < FTy.bits .f32
  pads_S10000x512_S10240x512_02400_000 : S10000x512.Pads (![0, 0] : Fin 2 → Nat) ![240, 0] ![0, 0] S10240x512
  h_S_ : 0 < S_.numel
  bcast_S_S1x512 : S_.BroadcastsInDim S1x512 (![] : Fin 0 → Fin S1x512.rank)
  bcast_S_S1x256 : S_.BroadcastsInDim S1x256 (![] : Fin 0 → Fin S1x256.rank)
  shapeCasts_S512_S1x512 : S512.ShapeCasts S1x512
  shapeCasts_S256_S1x256 : S256.ShapeCasts S1x256
  inb_S640x512_S640x512_0_0 : ∀ a, (![0, 0] : Fin 2 → Nat) a + S640x512.size a ≤ S640x512.size a
  h_S640x512 : 0 < S640x512.numel
  shapeCasts_S640x512_S640x512 : S640x512.ShapeCasts S640x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S640x512 : S1x512.Broadcasts S640x512
  packedbf16_S640x512_S640x512_0_0 : (Rect.unit (s := S640x512) ![0, 0] S640x512.size inb_S640x512_S640x512_0_0).PackedRows (EltTy.packing .bf16)
  inb_S640x10240_S640x10240_0_0 : ∀ a, (![0, 0] : Fin 2 → Nat) a + S640x10240.size a ≤ S640x10240.size a
  h_S640x10240 : 0 < S640x10240.numel
  shapeCasts_S640x10240_S640x10240 : S640x10240.ShapeCasts S640x10240
  inb_S10240x512_S10240x512_0_0 : ∀ a, (![0, 0] : Fin 2 → Nat) a + S10240x512.size a ≤ S10240x512.size a
  h_S10240x512 : 0 < S10240x512.numel
  shapeCasts_S10240x512_S10240x512 : S10240x512.ShapeCasts S10240x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S640x256 : S1x256.Broadcasts S640x256
  inb_S640x256_S640x256_0_0 : ∀ a, (![0, 0] : Fin 2 → Nat) a + S640x256.size a ≤ S640x256.size a
  h_S640x256 : 0 < S640x256.numel
  packedbf16_S640x256_S640x256_0_0 : (Rect.unit (s := S640x256) ![0, 0] S640x256.size inb_S640x256_S640x256_0_0).PackedRows (EltTy.packing .bf16)
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  slices_S10240x256_S10000x256_0_0 : S10240x256.Slices ![0, 0] S10000x256
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10240x10240_S170000x2_S170000_n_01_01_1_wf : ScatterDims.WF S10240x10240 S170000x2 S170000 [] [0, 1] [0, 1] 1
  dot_S640x512_S512x512_S640x512_1_0_0_1_n_n_wf : DotDims.WF S640x512 S512x512 S640x512 [1] [0] [0] [1] [] []
  dot_S640x10240_S10240x512_S640x512_1_0_0_1_n_n_wf : DotDims.WF S640x10240 S10240x512 S640x512 [1] [0] [0] [1] [] []
  dot_S640x512_S512x256_S640x256_1_0_0_1_n_n_wf : DotDims.WF S640x512 S512x256 S640x256 [1] [0] [0] [1] [] []
  dot_S640x10240_S10240x256_S640x256_1_0_0_1_n_n_wf : DotDims.WF S640x10240 S10240x256 S640x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x512.size a ≤ S10240x512.size a
  hwx0_0 : ∀ i : grid0.Coords, EltTy.bits .bf16 = 32 ∨ (Rect.block (s := S10240x512) S640x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S640x512.size a ≤ S10240x512.size a
  hwx0_3 : ∀ i : grid0.Coords, EltTy.bits .bf16 = 32 ∨ (Rect.block (s := S10240x512) S640x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640x10240.size a ≤ S10240x10240.size a
  hwx1_0 : ∀ i : grid1.Coords, EltTy.bits .bf16 = 32 ∨ (Rect.block (s := S10240x10240) S640x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x512.size a ≤ S10240x512.size a
  hwx1_1 : ∀ i : grid1.Coords, EltTy.bits .bf16 = 32 ∨ (Rect.block (s := S10240x512) S10240x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S640x512.size a ≤ S10240x512.size a
  hwx1_3 : ∀ i : grid1.Coords, EltTy.bits .bf16 = 32 ∨ (Rect.block (s := S10240x512) S640x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S640x512.size a ≤ S10240x512.size a
  hwx2_0 : ∀ i : grid2.Coords, EltTy.bits .bf16 = 32 ∨ (Rect.block (s := S10240x512) S640x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .bf16 = 32 ∨ (Rect.block (s := S512x256) S512x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S640x256.size a ≤ S10240x256.size a
  hwx2_3 : ∀ i : grid2.Coords, EltTy.bits .bf16 = 32 ∨ (Rect.block (s := S10240x256) S640x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S640x10240.size a ≤ S10240x10240.size a
  hwx3_0 : ∀ i : grid3.Coords, EltTy.bits .bf16 = 32 ∨ (Rect.block (s := S10240x10240) S640x10240.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x256.size a ≤ S10240x256.size a
  hwx3_1 : ∀ i : grid3.Coords, EltTy.bits .bf16 = 32 ∨ (Rect.block (s := S10240x256) S10240x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S640x256.size a ≤ S10240x256.size a
  hwx3_3 : ∀ i : grid3.Coords, EltTy.bits .f32 = 32 ∨ (Rect.block (s := S10240x256) S640x256.size (cc3_transform_3 i) (hinb3_3 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def dot_S640x512_S512x512_S640x512_1_0_0_1_n_n : DotDims S640x512 S512x512 S640x512 where
  lhsContracting := [1]
  rhsContracting := [0]
  lhsNonContracting := [0]
  rhsNonContracting := [1]
  lhsBatch := []
  rhsBatch := []
  wf := dot_S640x512_S512x512_S640x512_1_0_0_1_n_n_wf
def dot_S640x10240_S10240x512_S640x512_1_0_0_1_n_n : DotDims S640x10240 S10240x512 S640x512 where
  lhsContracting := [1]
  rhsContracting := [0]
  lhsNonContracting := [0]
  rhsNonContracting := [1]
  lhsBatch := []
  rhsBatch := []
  wf := dot_S640x10240_S10240x512_S640x512_1_0_0_1_n_n_wf
def dot_S640x512_S512x256_S640x256_1_0_0_1_n_n : DotDims S640x512 S512x256 S640x256 where
  lhsContracting := [1]
  rhsContracting := [0]
  lhsNonContracting := [0]
  rhsNonContracting := [1]
  lhsBatch := []
  rhsBatch := []
  wf := dot_S640x512_S512x256_S640x256_1_0_0_1_n_n_wf
def dot_S640x10240_S10240x256_S640x256_1_0_0_1_n_n : DotDims S640x10240 S10240x256 S640x256 where
  lhsContracting := [1]
  rhsContracting := [0]
  lhsNonContracting := [0]
  rhsNonContracting := [1]
  lhsBatch := []
  rhsBatch := []
  wf := dot_S640x10240_S10240x256_S640x256_1_0_0_1_n_n_wf

abbrev win0_0 : Pipeline.Window sig grid0 :=
  Pipeline.Window.ofSpec (Memref.whole main_v47) S640x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S640x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S640x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S10240x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S640x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S640x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S640x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S640x10240.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S10240x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S640x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S1x512 : Shape := ⟨2, ![1, 512]⟩
abbrev S10000x256 : Shape := ⟨2, ![10000, 256]⟩
abbrev S170000x256 : Shape := ⟨2, ![170000, 256]⟩
abbrev S1x256 : Shape := ⟨2, ![1, 256]⟩

abbrev nBuf : Space → Nat
  | .hbm => 125
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S1x160000, .i32⟩
  | .hbm, ⟨7, _⟩ => ⟨S160000, .i32⟩
  | .hbm, ⟨8, _⟩ => ⟨S1x160000, .i32⟩
  | .hbm, ⟨9, _⟩ => ⟨S160000, .i32⟩
  | .hbm, ⟨10, _⟩ => ⟨S10000x512, .f32⟩
  | .hbm, ⟨11, _⟩ => ⟨S10000, .i32⟩
  | .hbm, ⟨12, _⟩ => ⟨S170000, .i32⟩
  | .hbm, ⟨13, _⟩ => ⟨S170000, .i32⟩
  | .hbm, ⟨14, _⟩ => ⟨S_, .f32⟩
  | .hbm, ⟨15, _⟩ => ⟨S170000, .f32⟩
  | .hbm, ⟨16, _⟩ => ⟨S_, .f32⟩
  | .hbm, ⟨17, _⟩ => ⟨S10000, .f32⟩
  | .hbm, ⟨18, _⟩ => ⟨S170000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S170000, .i32⟩
  | .hbm, ⟨30, _⟩ => ⟨S170000, .i1⟩
  | .hbm, ⟨31, _⟩ => ⟨S_, .i32⟩
  | .hbm, ⟨32, _⟩ => ⟨S170000, .i32⟩
  | .hbm, ⟨33, _⟩ => ⟨S170000, .i32⟩
  | .hbm, ⟨34, _⟩ => ⟨S170000, .i32⟩
  | .hbm, ⟨35, _⟩ => ⟨S170000x1, .i32⟩
  | .hbm, ⟨36, _⟩ => ⟨S170000, .f32⟩
  | .hbm, ⟨37, _⟩ => ⟨S_, .i32⟩
  | .hbm, ⟨38, _⟩ => ⟨S170000, .i32⟩
  | .hbm, ⟨39, _⟩ => ⟨S170000, .i1⟩
  | .hbm, ⟨40, _⟩ => ⟨S_, .i32⟩
  | .hbm, ⟨41, _⟩ => ⟨S170000, .i32⟩
  | .hbm, ⟨42, _⟩ => ⟨S170000, .i32⟩
  | .hbm, ⟨43, _⟩ => ⟨S170000, .i32⟩
  | .hbm, ⟨44, _⟩ => ⟨S170000x1, .i32⟩
  | .hbm, ⟨45, _⟩ => ⟨S170000, .f32⟩
  | .hbm, ⟨46, _⟩ => ⟨S170000, .f32⟩
  | .hbm, ⟨47, _⟩ => ⟨S_, .i32⟩
  | .hbm, ⟨48, _⟩ => ⟨S170000, .i32⟩
  | .hbm, ⟨49, _⟩ => ⟨S170000, .i1⟩
  | .hbm, ⟨50, _⟩ => ⟨S_, .i32⟩
  | .hbm, ⟨51, _⟩ => ⟨S170000, .i32⟩
  | .hbm, ⟨52, _⟩ => ⟨S170000, .i32⟩
  | .hbm, ⟨53, _⟩ => ⟨S170000, .i32⟩
  | .hbm, ⟨54, _⟩ => ⟨S170000x1, .i32⟩
  | .hbm, ⟨55, _⟩ => ⟨S170000x512, .f32⟩
  | .hbm, ⟨56, _⟩ => ⟨S170000x1, .f32⟩
  | .hbm, ⟨57, _⟩ => ⟨S170000x512, .f32⟩
  | .hbm, ⟨58, _⟩ => ⟨S170000x512, .f32⟩
  | .hbm, ⟨59, _⟩ => ⟨S_, .f32⟩
  | .hbm, ⟨60, _⟩ => ⟨S10000x512, .f32⟩
  | .hbm, ⟨61, _⟩ => ⟨S170000x1, .i32⟩
  | .hbm, ⟨62, _⟩ => ⟨S10000x512, .f32⟩
  | .hbm, ⟨63, _⟩ => ⟨S1x512, .f32⟩
  | .hbm, ⟨64, _⟩ => ⟨S10000x512, .f32⟩
  | .hbm, ⟨65, _⟩ => ⟨S10000x512, .f32⟩
  | .hbm, ⟨66, _⟩ => ⟨S_, .f32⟩
  | .hbm, ⟨67, _⟩ => ⟨S10000x512, .f32⟩
  | .hbm, ⟨68, _⟩ => ⟨S10000x512, .f32⟩
  | .hbm, ⟨69, _⟩ => ⟨S10000x256, .f32⟩
  | .hbm, ⟨70, _⟩ => ⟨S10000, .i32⟩
  | .hbm, ⟨71, _⟩ => ⟨S170000, .i32⟩
  | .hbm, ⟨72, _⟩ => ⟨S170000, .i32⟩
  | .hbm, ⟨73, _⟩ => ⟨S_, .f32⟩
  | .hbm, ⟨74, _⟩ => ⟨S170000, .f32⟩
  | .hbm, ⟨75, _⟩ => ⟨S_, .f32⟩
  | .hbm, ⟨76, _⟩ => ⟨S10000, .f32⟩
  | .hbm, ⟨77, _⟩ => ⟨S170000x1, .i32⟩
  | .hbm, ⟨78, _⟩ => ⟨S10000, .f32⟩
  | .hbm, ⟨79, _⟩ => ⟨S_, .f32⟩
  | .hbm, ⟨80, _⟩ => ⟨S10000, .f32⟩
  | .hbm, ⟨81, _⟩ => ⟨S10000, .i1⟩
  | .hbm, ⟨82, _⟩ => ⟨S10000, .f32⟩
  | .hbm, ⟨83, _⟩ => ⟨S_, .f32⟩
  | .hbm, ⟨84, _⟩ => ⟨S_, .f32⟩
  | .hbm, ⟨85, _⟩ => ⟨S10000, .f32⟩
  | .hbm, ⟨86, _⟩ => ⟨S10000, .f32⟩
  | .hbm, ⟨87, _⟩ => ⟨S_, .i32⟩
  | .hbm, ⟨88, _⟩ => ⟨S170000, .i32⟩
  | .hbm, ⟨89, _⟩ => ⟨S170000, .i1⟩
  | .hbm, ⟨90, _⟩ => ⟨S_, .i32⟩
  | .hbm, ⟨91, _⟩ => ⟨S170000, .i32⟩
  | .hbm, ⟨92, _⟩ => ⟨S170000, .i32⟩
  | .hbm, ⟨93, _⟩ => ⟨S170000, .i32⟩
  | .hbm, ⟨94, _⟩ => ⟨S170000x1, .i32⟩
  | .hbm, ⟨95, _⟩ => ⟨S170000, .f32⟩
  | .hbm, ⟨96, _⟩ => ⟨S_, .i32⟩
  | .hbm, ⟨97, _⟩ => ⟨S170000, .i32⟩
  | .hbm, ⟨98, _⟩ => ⟨S170000, .i1⟩
  | .hbm, ⟨99, _⟩ => ⟨S_, .i32⟩
  | .hbm, ⟨100, _⟩ => ⟨S170000, .i32⟩
  | .hbm, ⟨101, _⟩ => ⟨S170000, .i32⟩
  | .hbm, ⟨102, _⟩ => ⟨S170000, .i32⟩
  | .hbm, ⟨103, _⟩ => ⟨S170000x1, .i32⟩
  | .hbm, ⟨104, _⟩ => ⟨S170000, .f32⟩
  | .hbm, ⟨105, _⟩ => ⟨S170000, .f32⟩
  | .hbm, ⟨106, _⟩ => ⟨S_, .i32⟩
  | .hbm, ⟨107, _⟩ => ⟨S170000, .i32⟩
  | .hbm, ⟨108, _⟩ => ⟨S170000, .i1⟩
  | .hbm, ⟨109, _⟩ => ⟨S_, .i32⟩
  | .hbm, ⟨110, _⟩ => ⟨S170000, .i32⟩
  | .hbm, ⟨111, _⟩ => ⟨S170000, .i32⟩
  | .hbm, ⟨112, _⟩ => ⟨S170000, .i32⟩
  | .hbm, ⟨113, _⟩ => ⟨S170000x1, .i32⟩
  | .hbm, ⟨114, _⟩ => ⟨S170000x256, .f32⟩
  | .hbm, ⟨115, _⟩ => ⟨S170000x1, .f32⟩
  | .hbm, ⟨116, _⟩ => ⟨S170000x256, .f32⟩
  | .hbm, ⟨117, _⟩ => ⟨S170000x256, .f32⟩
  | .hbm, ⟨118, _⟩ => ⟨S_, .f32⟩
  | .hbm, ⟨119, _⟩ => ⟨S10000x256, .f32⟩
  | .hbm, ⟨120, _⟩ => ⟨S170000x1, .i32⟩
  | .hbm, ⟨121, _⟩ => ⟨S10000x256, .f32⟩
  | .hbm, ⟨122, _⟩ => ⟨S1x256, .f32⟩
  | .hbm, ⟨123, _⟩ => ⟨S10000x256, .f32⟩
  | .hbm, ⟨124, _⟩ => ⟨S10000x256, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x512_S512x512_S10000x512_1_0_0_1_n_n_wf : DotDims.WF S10000x512 S512x512 S10000x512 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x256_S10000x256_1_0_0_1_n_n_wf : DotDims.WF S10000x512 S512x256 S10000x256 [1] [0] [0] [1] [] []
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf

class Facts : Prop extends Facts₀ where

variable [Facts]
-- ==== Proof.KernelRun.lean ====
/-
  The idealized kernel's run with its result named.

  The program is ten segments: five stretches of host operations, four kernel regions, one last host operation. The contents of
  every unscoped buffer at each segment boundary are a fold from the launch memory (`Gen.W0` … `Gen.W10`), and the launch over the
  segments ends in a state where every unscoped buffer holds `Gen.W10`'s contents. Reading that state at the argument arrays gives
  the frame; reading it at the result buffer as well gives the statement below: every weakly fair execution terminates, nothing
  faults, the result array holds `Gen.W10 m ρ c` at its buffer, and the arguments are unchanged.
-/
import proofs.«109809_j64716567216668_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v58) = W10 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v58 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.RunValue

end
-- ==== Proof.KCarry.lean ====
/-
  What each kernel region finds and leaves, along the fold of buffer contents.

  The four regions are chained through buffers: region 0 writes the projected features, region 1 reads them with the adjacency and
  the first bias and writes the hidden layer, region 2 reads that with the second weight matrix, region 3 reads its result with the
  adjacency again and the second bias. A region changes only its own output array; every other buffer — an input window's array
  included — leaves the region as it entered. So each region's output at its exit is what its sixteen write-backs leave, and each
  input a later region reads is still what the host operations computed before the first region.
-/
import proofs.«109809_j64716567216668_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ### Each region's output array at its exit -/
theorem out0 : W6 m ρ c (Proc.devRef .tc main_v54) = (dat0 (V5 m ρ) c).arrAt 3 cfg0.N := W6_arr m ρ c 3
theorem out1 : W7 m ρ c (Proc.devRef .tc main_v55) = (dat1 (V6 m ρ) c).arrAt 3 cfg1.N := W7_arr m ρ c 3
theorem out2 : W8 m ρ c (Proc.devRef .tc main_v56) = (dat2 (V7 m ρ) c).arrAt 3 cfg2.N := W8_arr m ρ c 3
theorem out3 : W9 m ρ c (Proc.devRef .tc main_v57) = (dat3 (V8 m ρ) c).arrAt 3 cfg3.N := W9_arr m ρ c 3

/-! ### The inputs of the later regions are as the host operations left them -/
/-- The adjacency when region 1 reads it. -/
theorem adj6 : W6 m ρ c (Proc.devRef .tc main_v45) = W5 m ρ c (Proc.devRef .tc main_v45) := W6_of_ne m ρ c main_v45 (by decide)
/-- The first bias when region 1 reads it. -/
theorem bias6 : W6 m ρ c (Proc.devRef .tc main_v52) = W5 m ρ c (Proc.devRef .tc main_v52) := W6_of_ne m ρ c main_v52 (by decide)
/-- The second weight matrix when region 2 reads it. -/
theorem wgt7 : W7 m ρ c (Proc.devRef .tc main_v49) = W5 m ρ c (Proc.devRef .tc main_v49) :=
  (W7_of_ne m ρ c main_v49 (by decide)).trans (W6_of_ne m ρ c main_v49 (by decide))
/-- The zero bias when region 2 reads it. -/
theorem zero7 : W7 m ρ c (Proc.devRef .tc main_v51) = W5 m ρ c (Proc.devRef .tc main_v51) :=
  (W7_of_ne m ρ c main_v51 (by decide)).trans (W6_of_ne m ρ c main_v51 (by decide))
/-- The adjacency after region 1, which read it through an input window. -/
theorem adj7 : W7 m ρ c (Proc.devRef .tc main_v45) = W5 m ρ c (Proc.devRef .tc main_v45) :=
  (W7_arr m ρ c 0).trans ((((dat1 (V6 m ρ) c).arrAt_in 0 rfl cfg1.N).trans (A_eq1 (V6 m ρ) c 0)).trans (adj6 m ρ c))
/-- The adjacency when region 3 reads it. -/
theorem adj8 : W8 m ρ c (Proc.devRef .tc main_v45) = W5 m ρ c (Proc.devRef .tc main_v45) :=
  (W8_of_ne m ρ c main_v45 (by decide)).trans (adj7 m ρ c)
/-- The second bias when region 3 reads it. -/
theorem bias8 : W8 m ρ c (Proc.devRef .tc main_v53) = W5 m ρ c (Proc.devRef .tc main_v53) :=
  (W8_of_ne m ρ c main_v53 (by decide)).trans ((W7_of_ne m ρ c main_v53 (by decide)).trans (W6_of_ne m ρ c main_v53 (by decide)))

end Cert.KernelIdeal.Carry

end
-- ==== Proof.KHostEntry.lean ====
/- The kernel's host operations before its first region, read as values at the extended reals.
   The five stretches of host operations are one fold over the launch memory. Read through that fold: the feature
   matrix padded with 240 zero rows, the two weight matrices unchanged (a change of float format is the identity
   here), two zero rows, and the two bias vectors laid out as one-row matrices. -/
import proofs.«109809_j64716567216668_1_alg».proof.Proof.Gen.KernelIdeal.Frame
import Idealize.ShloMosaic.Lib.Pipeline.Value
import Idealize.ShloMosaic.Lib.Pipeline.Frame
import Idealize.ShloMosaic.Lib.ValueIdx
import Idealize.ShloMosaic.Lib.IdealHost
import Idealize.ShloMosaic.Lib.KernelVsHost
import Idealize.ShloMosaic.Lib.StableHlo.Run
import Idealize.ShloMosaic.PureOps.Ideal.Laws

noncomputable section

namespace Cert.KernelIdeal.HostRead

open Idealize.ShloMosaic Idealize.ShloMosaic.TcCoe Idealize.ShloMosaic.StableHlo Idealize.ShloMosaic.ValueIdx
open Idealize.SL Idealize.SL.Sem
open Cert.KernelIdeal.Gen

/-- The join of two arrays along an axis, as a function of the two arrays. -/
def concat2 {α : Type} (t : Shape) (a : Fin t.rank) (s₁ s₂ : Shape)
    (h : Shape.Concatenates [s₁, s₂] t a) (x₁ : s₁.Idx → α) (x₂ : s₂.Idx → α) : t.Idx → α :=
  concatenate t a [⟨s₁, x₁⟩, ⟨s₂, x₂⟩] h

theorem concat2_intro {α : Type} (t : Shape) (a : Fin t.rank) (s₁ s₂ : Shape)
    (h : Shape.Concatenates [s₁, s₂] t a) (x₁ : s₁.Idx → α) (x₂ : s₂.Idx → α) :
    concatenate t a [⟨s₁, x₁⟩, ⟨s₂, x₂⟩] h = concat2 t a s₁ s₂ h x₁ x₂ := rfl

/-- All the host operations before the first region, in program order, from contents `X`. -/
abbrev entry (X : Valuation τ sig (Elt Ideal)) : Valuation τ sig (Elt Ideal) :=
  StableHlo.after Gen.hostOps0_4 (StableHlo.after Gen.hostOps0_3 (StableHlo.after Gen.hostOps0_2
    (StableHlo.after Gen.hostOps0_1 (StableHlo.after Gen.hostOps0 X))))

/-! ## The fold -/

section Fold
variable (m : (ℓ : Loc nD τ sig) → Buf (Elt Ideal) ℓ) (ρ : Dev nD → PrngReg) (c : Dev nD)

/-- The buffer contents at the first region's entry are ONE fold of all the host operations before it, in program
    order, over the launch memory. -/
theorem W5_eq_after :
    Gen.W5 m ρ c = StableHlo.after
      (Gen.hostOps0 ++ Gen.hostOps0_1 ++ Gen.hostOps0_2 ++ Gen.hostOps0_3 ++ Gen.hostOps0_4) (Gen.W0 m ρ c) := by
  rw [StableHlo.after_append, StableHlo.after_append, StableHlo.after_append, StableHlo.after_append]

/-- The same, stretch inside stretch. -/
theorem W5_eq_entry : Gen.W5 m ρ c = entry (Gen.W0 m ρ c) := rfl

end Fold

/-! ## Each buffer of the last two stretches as the operations' term of the contents the fold starts from -/

section Terms
variable (X : Valuation τ sig (Elt Ideal))

set_option maxHeartbeats 4000000 in
theorem entry_v47 : (entry X (Proc.devRef .tc main_v47) : S10240x512.Idx → EReal)
      = truncf .bf16 (pad S10240x512 ![0, 0] ![240, 0] ![0, 0]
          (X (Proc.devRef .tc main_arg0) : S10000x512.Idx → EReal)
          (sitofp (F := Ideal) .f32 (constantI S_ 32 0#32)) pads_S10000x512_S10240x512_02400_000 h_S_) bitsLt_bf16_f32 := by
  dsimp only [entry, Gen.hostOps0, Gen.hostOps0_1, Gen.hostOps0_2, Gen.hostOps0_3, Gen.hostOps0_4]
  simp (disch := decide) only [↓concat2_intro, after_cons, after_nil,
      nullary_result', unary_result', binary_result', ternary_result', quaternary_result', reshape_result',
      nullary_result_ne', unary_result_ne', binary_result_ne', ternary_result_ne', quaternary_result_ne', reshape_result_ne']
  rfl

set_option maxHeartbeats 4000000 in
theorem entry_v48 : (entry X (Proc.devRef .tc main_v48) : S512x512.Idx → EReal)
      = truncf (F := Ideal) .bf16 (X (Proc.devRef .tc main_arg2) : FVec Ideal S512x512 .f32) bitsLt_bf16_f32 := by
  dsimp only [entry, Gen.hostOps0, Gen.hostOps0_1, Gen.hostOps0_2, Gen.hostOps0_3, Gen.hostOps0_4]
  simp (disch := decide) only [↓concat2_intro, after_cons, after_nil,
      nullary_result', unary_result', binary_result', ternary_result', quaternary_result', reshape_result',
      nullary_result_ne', unary_result_ne', binary_result_ne', ternary_result_ne', quaternary_result_ne', reshape_result_ne']

set_option maxHeartbeats 4000000 in
theorem entry_v49 : (entry X (Proc.devRef .tc main_v49) : S512x256.Idx → EReal)
      = truncf (F := Ideal) .bf16 (X (Proc.devRef .tc main_arg4) : FVec Ideal S512x256 .f32) bitsLt_bf16_f32 := by
  dsimp only [entry, Gen.hostOps0, Gen.hostOps0_1, Gen.hostOps0_2, Gen.hostOps0_3, Gen.hostOps0_4]
  simp (disch := decide) only [↓concat2_intro, after_cons, after_nil,
      nullary_result', unary_result', binary_result', ternary_result', quaternary_result', reshape_result',
      nullary_result_ne', unary_result_ne', binary_result_ne', ternary_result_ne', quaternary_result_ne', reshape_result_ne']

set_option maxHeartbeats 4000000 in
theorem entry_v50 : (entry X (Proc.devRef .tc main_v50) : S1x512.Idx → EReal)
      = broadcastInDim S1x512 ![] bcast_S_S1x512 (constant (F := Ideal) S_ .f32 0x00000000#32) := by
  dsimp only [entry, Gen.hostOps0, Gen.hostOps0_1, Gen.hostOps0_2, Gen.hostOps0_3, Gen.hostOps0_4]
  simp (disch := decide) only [↓concat2_intro, after_cons, after_nil,
      nullary_result', unary_result', binary_result', ternary_result', quaternary_result', reshape_result',
      nullary_result_ne', unary_result_ne', binary_result_ne', ternary_result_ne', quaternary_result_ne', reshape_result_ne']

set_option maxHeartbeats 4000000 in
theorem entry_v51 : (entry X (Proc.devRef .tc main_v51) : S1x256.Idx → EReal)
      = broadcastInDim S1x256 ![] bcast_S_S1x256 (constant (F := Ideal) S_ .f32 0x00000000#32) := by
  dsimp only [entry, Gen.hostOps0, Gen.hostOps0_1, Gen.hostOps0_2, Gen.hostOps0_3, Gen.hostOps0_4]
  simp (disch := decide) only [↓concat2_intro, after_cons, after_nil,
      nullary_result', unary_result', binary_result', ternary_result', quaternary_result', reshape_result',
      nullary_result_ne', unary_result_ne', binary_result_ne', ternary_result_ne', quaternary_result_ne', reshape_result_ne']

set_option maxHeartbeats 4000000 in
theorem entry_v52 : (entry X (Proc.devRef .tc main_v52) : S1x512.Idx → EReal)
    = shapeCast S1x512 (X (Proc.devRef .tc main_arg3) : S512.Idx → EReal) shapeCasts_S512_S1x512 := by
  dsimp only [entry, Gen.hostOps0, Gen.hostOps0_1, Gen.hostOps0_2, Gen.hostOps0_3, Gen.hostOps0_4]
  simp (disch := decide) only [↓concat2_intro, after_cons, after_nil,
      nullary_result', unary_result', binary_result', ternary_result', quaternary_result', reshape_result',
      nullary_result_ne', unary_result_ne', binary_result_ne', ternary_result_ne', quaternary_result_ne', reshape_result_ne']
  rfl

set_option maxHeartbeats 4000000 in
theorem entry_v53 : (entry X (Proc.devRef .tc main_v53) : S1x256.Idx → EReal)
    = shapeCast S1x256 (X (Proc.devRef .tc main_arg5) : S256.Idx → EReal) shapeCasts_S256_S1x256 := by
  dsimp only [entry, Gen.hostOps0, Gen.hostOps0_1, Gen.hostOps0_2, Gen.hostOps0_3, Gen.hostOps0_4]
  simp (disch := decide) only [↓concat2_intro, after_cons, after_nil,
      nullary_result', unary_result', binary_result', ternary_result', quaternary_result', reshape_result',
      nullary_result_ne', unary_result_ne', binary_result_ne', ternary_result_ne', quaternary_result_ne', reshape_result_ne']
  rfl

end Terms

/-! ## The same buffers at the first region's entry, entry by entry -/

section AtEntry
variable (m : (ℓ : Loc nD τ sig) → Buf (Elt Ideal) ℓ) (ρ : Dev nD → PrngReg) (c : Dev nD)

/-- Rows below 10000 of the padded feature matrix are the feature matrix's rows; the 240 rows after them are zero. -/
theorem xpad_apply (j : Fin 10240) (k : Fin 512) :
    (Gen.V5 m ρ c main_v47 : S10240x512.Idx → EReal) (ix2 j k)
      = if h : j.val < 10000 then (m ((c : Thread nD τ).loc main_arg0) : S10000x512.Idx → EReal) (ix2 (⟨j.val, h⟩ : Fin 10000) k)
        else (0 : EReal) := by
  refine (congrFun (entry_v47 (Gen.W0 m ρ c)) (ix2 j k)).trans ?_
  rw [truncf_apply]
  by_cases h : j.val < 10000
  · rw [dif_pos h]
    exact pad_apply_of_inside (s := S10000x512) (t := S10240x512) ![0, 0] ![240, 0] ![0, 0] _ _
      pads_S10000x512_S10240x512_02400_000 h_S_ (ix2 j k) (ix2 (⟨j.val, h⟩ : Fin 10000) k) (fun a => match a with
        | ⟨0, _⟩ => by show j.val = 0 + j.val * (0 + 1); omega
        | ⟨1, _⟩ => by show k.val = 0 + k.val * (0 + 1); omega)
  · rw [dif_neg h]
    refine (pad_apply_of_not_inside (s := S10000x512) (t := S10240x512) ![0, 0] ![240, 0] ![0, 0] _ _
      pads_S10000x512_S10240x512_02400_000 h_S_ (ix2 j k) ⟨0, by decide⟩ ?_).trans ?_
    · show ¬(0 ≤ j.val ∧ (j.val - 0) % (0 + 1) = 0 ∧ (j.val - 0) / (0 + 1) < 10000)
      omega
    · show ((((0#32 : BitVec 32).toInt : ℝ)) : EReal) = 0
      simp

/-- The first layer's weight matrix is the argument's. -/
theorem w1_eq : (Gen.V5 m ρ c main_v48 : S512x512.Idx → EReal) = (m ((c : Thread nD τ).loc main_arg2) : S512x512.Idx → EReal) :=
  (entry_v48 (Gen.W0 m ρ c)).trans (funext fun i => truncf_apply _ _ i)

/-- The second layer's weight matrix is the argument's. -/
theorem w2_eq : (Gen.V5 m ρ c main_v49 : S512x256.Idx → EReal) = (m ((c : Thread nD τ).loc main_arg4) : S512x256.Idx → EReal) :=
  (entry_v49 (Gen.W0 m ρ c)).trans (funext fun i => truncf_apply _ _ i)

/-- The zero row of width 512. -/
theorem zrow512_apply (k : Fin 512) : (Gen.V5 m ρ c main_v50 : S1x512.Idx → EReal) (ix2 (0 : Fin 1) k) = (0 : EReal) := by
  refine (congrFun (entry_v50 (Gen.W0 m ρ c)) (ix2 (0 : Fin 1) k)).trans ?_
  rw [broadcastInDim_scalar_apply, constant_apply, Ideal.ofBits_zero_f32]

/-- The zero row of width 256. -/
theorem zrow256_apply (k : Fin 256) : (Gen.V5 m ρ c main_v51 : S1x256.Idx → EReal) (ix2 (0 : Fin 1) k) = (0 : EReal) := by
  refine (congrFun (entry_v51 (Gen.W0 m ρ c)) (ix2 (0 : Fin 1) k)).trans ?_
  rw [broadcastInDim_scalar_apply, constant_apply, Ideal.ofBits_zero_f32]

/-- The first layer's bias as a one-row matrix. -/
theorem b1row_apply (k : Fin 512) :
    (Gen.V5 m ρ c main_v52 : S1x512.Idx → EReal) (ix2 (0 : Fin 1) k) = (m ((c : Thread nD τ).loc main_arg3) : S512.Idx → EReal) (ix1 k) := by
  refine (congrFun (entry_v52 (Gen.W0 m ρ c)) (ix2 (0 : Fin 1) k)).trans ?_
  exact shapeCast_apply (s := S512) (t := S1x512) _ shapeCasts_S512_S1x512 (ix2 (0 : Fin 1) k) (ix1 k)
    (by rewrite [Shape.rowMajor_val_two, Shape.rowMajor_val_one]; show k.val = 0 * 512 + k.val; omega)

/-- The second layer's bias as a one-row matrix. -/
theorem b2row_apply (k : Fin 256) :
    (Gen.V5 m ρ c main_v53 : S1x256.Idx → EReal) (ix2 (0 : Fin 1) k) = (m ((c : Thread nD τ).loc main_arg5) : S256.Idx → EReal) (ix1 k) := by
  refine (congrFun (entry_v53 (Gen.W0 m ρ c)) (ix2 (0 : Fin 1) k)).trans ?_
  exact shapeCast_apply (s := S256) (t := S1x256) _ shapeCasts_S256_S1x256 (ix2 (0 : Fin 1) k) (ix1 k)
    (by rewrite [Shape.rowMajor_val_two, Shape.rowMajor_val_one]; show k.val = 0 * 256 + k.val; omega)

end AtEntry

end Cert.KernelIdeal.HostRead
-- ==== Proof.Region0.lean ====
import proofs.«109809_j64716567216668_1_alg».proof.Proof.Gen.KernelIdeal.Frame
import Idealize.ShloMosaic.Lib.Pipeline.Value
import Idealize.ShloMosaic.Lib.ValueIdx
import Idealize.ShloMosaic.PureOps.Ideal.Laws

/-! # The first matrix product of the idealized kernel, as a whole array

The region multiplies a 10240 × 512 array by a 512 × 512 array and adds a one-row array to every row, sixteen row
blocks of 640 rows at a time. Over the extended reals the narrowing of the result to a shorter float format is the
identity and the accumulation into a zero array is the plain sum, so each block the body stores is the block of ONE
function of the three input arrays: entry (p, q) is Σ_k a0[p, k] · a1[k, q] + a2[0, q]. The sixteen blocks tile the
output array (row p lies in block p / 640), hence the array after the region is that function.

The order: the contraction's operand indices; the body's result at an entry of a block (`pay0_apply`); the product as
a function of whole arrays (`mm0`); the block index maps over the grid (`idx0`); one block of the product
(`point0`); the input blocks as parts of their arrays; what a grid point writes back (`flushed0_eq`); the cover;
the array after the region (`final0`, `region0_out`). -/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The contraction's operand indices -/

/-- The contraction's left operand index on the row axis is the output's row. -/
theorem lhs0_0 (i : S640x512.Idx) (q : dot_S640x512_S512x512_S640x512_1_0_0_1_n_n.contr.Idx) :
    (dot_S640x512_S512x512_S640x512_1_0_0_1_n_n.lhsIdx i q 0).val = (i 0).val := by
  unfold DotDims.lhsIdx
  rw [dif_neg (show ¬(0 : Fin S640x512.rank) ∈ dot_S640x512_S512x512_S640x512_1_0_0_1_n_n.lhsBatch by decide), dif_pos (show (0 : Fin S640x512.rank) ∈ dot_S640x512_S512x512_S640x512_1_0_0_1_n_n.lhsNonContracting by decide)]
  rfl
/-- On its column axis it is the contraction coordinate. -/
theorem lhs0_1 (i : S640x512.Idx) (q : dot_S640x512_S512x512_S640x512_1_0_0_1_n_n.contr.Idx) :
    (dot_S640x512_S512x512_S640x512_1_0_0_1_n_n.lhsIdx i q 1).val = (q ⟨0, by decide⟩).val :=
  dot_S640x512_S512x512_S640x512_1_0_0_1_n_n.lhsIdx_val_of_single rfl i q
/-- The right operand index on the row axis is the contraction coordinate. -/
theorem rhs0_0 (i : S640x512.Idx) (q : dot_S640x512_S512x512_S640x512_1_0_0_1_n_n.contr.Idx) :
    (dot_S640x512_S512x512_S640x512_1_0_0_1_n_n.rhsIdx i q 0).val = (q ⟨0, by decide⟩).val :=
  dot_S640x512_S512x512_S640x512_1_0_0_1_n_n.rhsIdx_val_of_single rfl i q
/-- On its column axis it is the output's column. -/
theorem rhs0_1 (i : S640x512.Idx) (q : dot_S640x512_S512x512_S640x512_1_0_0_1_n_n.contr.Idx) :
    (dot_S640x512_S512x512_S640x512_1_0_0_1_n_n.rhsIdx i q 1).val = (i 1).val := by
  unfold DotDims.rhsIdx
  rw [dif_neg (show ¬(1 : Fin S512x512.rank) ∈ dot_S640x512_S512x512_S640x512_1_0_0_1_n_n.rhsBatch by decide), dif_pos (show (1 : Fin S512x512.rank) ∈ dot_S640x512_S512x512_S640x512_1_0_0_1_n_n.rhsNonContracting by decide)]
  rfl

/-- The body's result at entry (r, q) of a block: the sum over k of the left block at (r, k) times the right block at
    (k, q), plus the one-row block at (0, q). -/
theorem pay0_apply (x0 : FVec Ideal S640x512 .bf16) (x1 : FVec Ideal S512x512 .bf16) (x2 : FVec Ideal S1x512 .f32)
    (r : Fin 640) (q : Fin 512) :
    k0_pay1 (F := Ideal) x0 x1 x2 (ix2 r q)
      = (∑ k : Fin 512, x0 (ix2 r k) * x1 (ix2 k q)) + x2 (ix2 0 q) := by
  unfold k0_pay1
  rw [shapeCast_self, shapeCast_self, shapeCast_self]
  refine (congrArg₂ (fun a b : EReal => a + b)
    (Ideal.matmul_constant_zero_apply (φ₁ := .bf16) (φ₂ := .bf16) dot_S640x512_S512x512_S640x512_1_0_0_1_n_n none x0 x1 (ix2 r q))
    (broadcastTo_apply x2 broadcasts_S1x512_S640x512 (ix2 r q) (ix2 0 q) (fun a => by
      match a with
      | ⟨0, _⟩ => rfl
      | ⟨1, _⟩ => rfl))).trans ?_
  rw [← Equiv.sum_comp (contrEquiv1 dot_S640x512_S512x512_S640x512_1_0_0_1_n_n 512 rfl rfl).symm]
  refine congrArg (· + x2 (ix2 0 q)) (Finset.sum_congr rfl fun k _ => ?_)
  have hk := contrEquiv1_symm_val dot_S640x512_S512x512_S640x512_1_0_0_1_n_n 512 rfl rfl k
  have el : dot_S640x512_S512x512_S640x512_1_0_0_1_n_n.lhsIdx (ix2 r q) ((contrEquiv1 dot_S640x512_S512x512_S640x512_1_0_0_1_n_n 512 rfl rfl).symm k) = ix2 r k := funext fun a => Fin.ext (by
    match a with
    | ⟨0, _⟩ => exact lhs0_0 _ _
    | ⟨1, _⟩ => exact (lhs0_1 _ _).trans hk)
  have er : dot_S640x512_S512x512_S640x512_1_0_0_1_n_n.rhsIdx (ix2 r q) ((contrEquiv1 dot_S640x512_S512x512_S640x512_1_0_0_1_n_n 512 rfl rfl).symm k) = ix2 k q := funext fun a => Fin.ext (by
    match a with
    | ⟨0, _⟩ => exact (rhs0_0 _ _).trans hk
    | ⟨1, _⟩ => exact rhs0_1 _ _)
  rw [el, er]

/-- The two-axis zero offset, as the constant function. -/
theorem hz0 : (![0, 0] : Fin 2 → Nat) = fun _ => 0 := funext fun a => by fin_cases a <;> rfl

/-- The product of the first array by the second plus the third's one row: entry (p, q) is
    Σ_k a0[p, k] · a1[k, q] + a2[0, q]. -/
def mm0 (a0 : FVec Ideal S10240x512 .bf16) (a1 : FVec Ideal S512x512 .bf16) (a2 : FVec Ideal S1x512 .f32) : S10240x512.Idx → EReal :=
  fun i => (∑ k : Fin 512, a0 (ix2 (i 0 : Fin 10240) k) * a1 (ix2 k (i 1 : Fin 512))) + a2 (ix2 0 (i 1 : Fin 512))

/-- The product at an index given by its coordinates. -/
theorem mm0_apply (a0 : FVec Ideal S10240x512 .bf16) (a1 : FVec Ideal S512x512 .bf16) (a2 : FVec Ideal S1x512 .f32)
    (p : Fin 10240) (q : Fin 512) :
    mm0 a0 a1 a2 (ix2 p q) = (∑ k : Fin 512, a0 (ix2 p k) * a1 (ix2 k q)) + a2 (ix2 0 q) := rfl

/-- The block indices, decided over the sixteen grid points: the left operand's and the output's row block is the
    point's number; every other block index is zero. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One block of the product: when the left block is rows 640·n … 640·n + 639 of a0 and the other two blocks are a1 and
    a2 whole, the body's result at (r, q) is the product's entry at (640·n + r, q). -/
theorem point0 (A0 : FVec Ideal S10240x512 .bf16) (A1 : FVec Ideal S512x512 .bf16) (A2 : FVec Ideal S1x512 .f32)
    (X0 : FVec Ideal S640x512 .bf16) (X1 : FVec Ideal S512x512 .bf16) (X2 : FVec Ideal S1x512 .f32) (n : Nat)
    (h0 : ∀ (y : S640x512.Idx) (i : S10240x512.Idx), (i 0).val = n * 640 + (y 0).val → (i 1).val = (y 1).val → X0 y = A0 i)
    (h1 : X1 = A1) (h2 : X2 = A2)
    (y : S640x512.Idx) (i : S10240x512.Idx) (hi0 : (i 0).val = n * 640 + (y 0).val) (hi1 : (i 1).val = (y 1).val) :
    k0_pay1 (F := Ideal) X0 X1 X2 y = mm0 A0 A1 A2 i := by
  subst h1 h2
  obtain ⟨r, q, rfl⟩ : ∃ (r : Fin 640) (q : Fin 512), y = ix2 r q := ⟨y 0, y 1, eq_ix2 y⟩
  obtain ⟨p, q', rfl⟩ : ∃ (p : Fin 10240) (q' : Fin 512), i = ix2 p q' := ⟨i 0, i 1, eq_ix2 i⟩
  obtain rfl : q' = q := Fin.ext hi1
  rw [pay0_apply, mm0_apply]
  refine congrArg (· + X2 (ix2 0 q')) (Finset.sum_congr rfl fun k _ => ?_)
  rw [h0 (ix2 r k) (ix2 p k) hi0 rfl]

section
variable (V : (c : Dev nD) → (b : Ref sig .tc) → Buf (Elt Ideal) ((c : Thread nD τ).loc b))

/-- The region's three input arrays as the region finds them: the left operand, the right operand, the one-row addend. -/
abbrev lhs0 (c : Dev nD) : FVec Ideal S10240x512 .bf16 := V c (Pipeline.arrRef spec0 0)
abbrev rhs0 (c : Dev nD) : FVec Ideal S512x512 .bf16 := V c (Pipeline.arrRef spec0 1)
abbrev bias0 (c : Dev nD) : FVec Ideal S1x512 .f32 := V c (Pipeline.arrRef spec0 2)

/-- The left operand's block at point t is rows 640·t … 640·t + 639 of its array. -/
theorem iblk0_0_apply (c : Dev nD) (t : Fin cfg0.N) (y : S640x512.Idx) (i : S10240x512.Idx)
    (h0 : (i 0).val = t.val * 640 + (y 0).val) (h1 : (i 1).val = (y 1).val) :
    (iblk0 V c 0 t : FVec Ideal S640x512 .bf16) y = lhs0 V c i := by
  obtain ⟨e00, e01, -⟩ := idx0 t
  unfold iblk0
  rw [View.read_apply]
  refine congrArg (V c (Pipeline.arrRef spec0 0)) (funext fun a => Fin.ext ?_)
  match a with
  | ⟨0, _⟩ => show win0_0.index t (0 : Fin 2) * 640 + 1 * (y 0).val = (i 0).val; omega
  | ⟨1, _⟩ => show win0_0.index t (1 : Fin 2) * 512 + 1 * (y 1).val = (i 1).val; omega

/-- The right operand's block at every point is its whole array. -/
theorem iblk0_1_eq (c : Dev nD) (t : Fin cfg0.N) :
    (iblk0 V c 1 t : FVec Ideal S512x512 .bf16) = rhs0 V c := by
  obtain ⟨-, -, e10, e11, -⟩ := idx0 t
  unfold iblk0
  funext y
  rw [View.read_apply]
  refine congrArg (V c (Pipeline.arrRef spec0 1)) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The one-row operand's block at every point is its whole array. -/
theorem iblk0_2_eq (c : Dev nD) (t : Fin cfg0.N) :
    (iblk0 V c 2 t : FVec Ideal S1x512 .f32) = bias0 V c := by
  obtain ⟨-, -, -, -, e20, e21, -⟩ := idx0 t
  unfold iblk0
  funext y
  rw [View.read_apply]
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- What grid point t writes back is block t of the product of the region's three input arrays as it finds them. -/
theorem flushed0_eq (c : Dev nD) (t : Fin cfg0.N) :
    (dat0 (F := Ideal) V c).flushed 3 t = ((cfg0.win 3).blk t).view.read (Elt Ideal)
      (mm0 (lhs0 V c) (rhs0 V c) (bias0 V c)) := by
  show (cfg0.win 3).cut (grid0.coords t) ((dat0 V c).after 3 t) = _
  rw [after0_3]
  unfold out0_3
  rw [View.canon_unit_zero hz0]
  simp only [View.ld_unit_zero (S := S640x512) hz0, View.ld_unit_zero (S := S512x512) hz0, View.ld_unit_zero (S := S1x512) hz0]
  obtain ⟨-, -, -, -, -, -, e30, e31⟩ := idx0 t
  funext j
  refine point0 (lhs0 V c) (rhs0 V c) (bias0 V c)
    (iblk0 V c 0 t) (iblk0 V c 1 t) (iblk0 V c 2 t) t.val
    (iblk0_0_apply V c t) (iblk0_1_eq V c t) (iblk0_2_eq V c t)
    ((cfg0.win 3).xinj (grid0.coords t) j) (((cfg0.win 3).blk t).view.emb j) ?_ ?_
  · show win0_3.index t (0 : Fin 2) * 640 + 1 * (j 0).val = t.val * 640 + (j 0).val; omega
  · show win0_3.index t (1 : Fin 2) * 512 + 1 * (j 1).val = (j 1).val; omega

/-- An index of the output array lies in point t's block iff each coordinate is in the block's range on its axis. -/
theorem mem_blk0 (t : Fin cfg0.N) (i : S10240x512.Idx) :
    i ∈ ((cfg0.win 3).blk t).view.set ↔ ∀ a : Fin 2, win0_3.index t a * S640x512.size a ≤ (i a).val ∧ (i a).val < win0_3.index t a * S640x512.size a + S640x512.size a := by
  show i ∈ ((View.whole main_v54).slice (win0_3.rect t)).set ↔ _
  rw [View.set_slice_whole, Rect.mem_set_unit]
  exact Iff.rfl

/-- Every index of the output array is in the block of the point numbered by its row divided by 640. -/
theorem cover0 (i : S10240x512.Idx) :
    ∃ t : Fin cfg0.N, (cfg0.win 3).flush t = true ∧ i ∈ ((cfg0.win 3).blk t).view.set := by
  have hi0 : (i 0).val < 10240 := (i 0).isLt
  have hi1 : (i 1).val < 512 := (i 1).isLt
  obtain ⟨t, ht⟩ : ∃ t : Fin cfg0.N, t.val = (i 0).val / 640 :=
    ⟨⟨(i 0).val / 640, by rw [show cfg0.N = 16 from N_0]; omega⟩, rfl⟩
  obtain ⟨-, -, -, -, -, -, e30, e31⟩ := idx0 t
  refine ⟨t, flush0_3 t, ?_⟩
  rw [mem_blk0]
  intro a
  match a with
  | ⟨0, _⟩ => show win0_3.index t (0 : Fin 2) * 640 ≤ (i 0).val ∧ (i 0).val < win0_3.index t (0 : Fin 2) * 640 + 640; omega
  | ⟨1, _⟩ => show win0_3.index t (1 : Fin 2) * 512 ≤ (i 1).val ∧ (i 1).val < win0_3.index t (1 : Fin 2) * 512 + 512; omega

/-- The output array after the region's sixteen write-backs is the product. -/
theorem final0 (c : Dev nD) :
    (dat0 (F := Ideal) V c).arrAt 3 cfg0.N
      = mm0 (lhs0 V c) (rhs0 V c) (bias0 V c) :=
  (dat0 (F := Ideal) V c).arrAt_eq_of_cover 3 _ (fun t _ => flushed0_eq V c t) cover0

/-- Entry (p, q) of the output array after the region. -/
theorem region0_out (c : Dev nD) (p : Fin 10240) (q : Fin 512) :
    ((dat0 (F := Ideal) V c).arrAt 3 cfg0.N : S10240x512.Idx → EReal) (ix2 p q)
      = (∑ k : Fin 512, lhs0 V c (ix2 p k) * rhs0 V c (ix2 k q)) + bias0 V c (ix2 0 q) := by
  rw [final0]
  rfl

/-- The same with the three input arrays named by the caller. -/
theorem region0_out_of (c : Dev nD) (A0 : FVec Ideal S10240x512 .bf16) (A1 : FVec Ideal S512x512 .bf16) (A2 : FVec Ideal S1x512 .f32)
    (h0 : lhs0 V c = A0) (h1 : rhs0 V c = A1) (h2 : bias0 V c = A2) (p : Fin 10240) (q : Fin 512) :
    ((dat0 (F := Ideal) V c).arrAt 3 cfg0.N : S10240x512.Idx → EReal) (ix2 p q)
      = (∑ k : Fin 512, A0 (ix2 p k) * A1 (ix2 k q)) + A2 (ix2 0 q) := by
  subst h0 h1 h2
  exact region0_out V c p q

end

end Cert.KernelIdeal.RegionValue

end
-- ==== Proof.Region1.lean ====
import proofs.«109809_j64716567216668_1_alg».proof.Proof.Gen.KernelIdeal.Frame
import Idealize.ShloMosaic.Lib.Pipeline.Value
import Idealize.ShloMosaic.Lib.ValueIdx
import Idealize.ShloMosaic.PureOps.Ideal.Laws

/-! # The second matrix product of the idealized kernel, as a whole array

The region multiplies a 10240 × 10240 array by a 10240 × 512 array, adds a one-row array to every row and then takes
the larger of each entry and zero, sixteen row blocks of 640 rows at a time. Over the extended reals the narrowing of
the result to a shorter float format is the identity and the accumulation into a zero array is the plain sum, so each
block the body stores is the block of ONE function of the three input arrays: entry (p, q) is
max (Σ_k a0[p, k] · a1[k, q] + a2[0, q]) 0, the zero written as the float word the body compares with
(`region1_out_zero` reads it as the extended real zero). The sixteen blocks tile the output array (row p lies in
block p / 640), hence the array after the region is that function.

The order: the contraction's operand indices; the body's result at an entry of a block (`pay1_apply`); the product as
a function of whole arrays (`mm1`); the block index maps over the grid (`idx1`); one block of the product
(`point1`); the input blocks as parts of their arrays; what a grid point writes back (`flushed1_eq`); the cover;
the array after the region (`final1`, `region1_out`). -/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The contraction's operand indices -/

/-- The contraction's left operand index on the row axis is the output's row. -/
theorem lhs1_0 (i : S640x512.Idx) (q : dot_S640x10240_S10240x512_S640x512_1_0_0_1_n_n.contr.Idx) :
    (dot_S640x10240_S10240x512_S640x512_1_0_0_1_n_n.lhsIdx i q 0).val = (i 0).val := by
  unfold DotDims.lhsIdx
  rw [dif_neg (show ¬(0 : Fin S640x10240.rank) ∈ dot_S640x10240_S10240x512_S640x512_1_0_0_1_n_n.lhsBatch by decide), dif_pos (show (0 : Fin S640x10240.rank) ∈ dot_S640x10240_S10240x512_S640x512_1_0_0_1_n_n.lhsNonContracting by decide)]
  rfl
/-- On its column axis it is the contraction coordinate. -/
theorem lhs1_1 (i : S640x512.Idx) (q : dot_S640x10240_S10240x512_S640x512_1_0_0_1_n_n.contr.Idx) :
    (dot_S640x10240_S10240x512_S640x512_1_0_0_1_n_n.lhsIdx i q 1).val = (q ⟨0, by decide⟩).val :=
  dot_S640x10240_S10240x512_S640x512_1_0_0_1_n_n.lhsIdx_val_of_single rfl i q
/-- The right operand index on the row axis is the contraction coordinate. -/
theorem rhs1_0 (i : S640x512.Idx) (q : dot_S640x10240_S10240x512_S640x512_1_0_0_1_n_n.contr.Idx) :
    (dot_S640x10240_S10240x512_S640x512_1_0_0_1_n_n.rhsIdx i q 0).val = (q ⟨0, by decide⟩).val :=
  dot_S640x10240_S10240x512_S640x512_1_0_0_1_n_n.rhsIdx_val_of_single rfl i q
/-- On its column axis it is the output's column. -/
theorem rhs1_1 (i : S640x512.Idx) (q : dot_S640x10240_S10240x512_S640x512_1_0_0_1_n_n.contr.Idx) :
    (dot_S640x10240_S10240x512_S640x512_1_0_0_1_n_n.rhsIdx i q 1).val = (i 1).val := by
  unfold DotDims.rhsIdx
  rw [dif_neg (show ¬(1 : Fin S10240x512.rank) ∈ dot_S640x10240_S10240x512_S640x512_1_0_0_1_n_n.rhsBatch by decide), dif_pos (show (1 : Fin S10240x512.rank) ∈ dot_S640x10240_S10240x512_S640x512_1_0_0_1_n_n.rhsNonContracting by decide)]
  rfl

/-- The body's result at entry (r, q) of a block: the sum over k of the left block at (r, k) times the right block at
    (k, q), plus the one-row block at (0, q), and the larger of that and zero. -/
theorem pay1_apply (x0 : FVec Ideal S640x10240 .bf16) (x1 : FVec Ideal S10240x512 .bf16) (x2 : FVec Ideal S1x512 .f32)
    (r : Fin 640) (q : Fin 512) :
    k1_pay1 (F := Ideal) x0 x1 x2 (ix2 r q)
      = max ((∑ k : Fin 10240, x0 (ix2 r k) * x1 (ix2 k q)) + x2 (ix2 0 q)) (FloatOps.ofBits (F := Ideal) .f32 0x00000000#32) := by
  unfold k1_pay1
  rw [shapeCast_self, shapeCast_self, shapeCast_self]
  refine (congrArg (fun s : EReal => max s (FloatOps.ofBits (F := Ideal) .f32 0x00000000#32)) (congrArg₂ (fun a b : EReal => a + b)
    (Ideal.matmul_constant_zero_apply (φ₁ := .bf16) (φ₂ := .bf16) dot_S640x10240_S10240x512_S640x512_1_0_0_1_n_n none x0 x1 (ix2 r q))
    (broadcastTo_apply x2 broadcasts_S1x512_S640x512 (ix2 r q) (ix2 0 q) (fun a => by
      match a with
      | ⟨0, _⟩ => rfl
      | ⟨1, _⟩ => rfl)))).trans ?_
  rw [← Equiv.sum_comp (contrEquiv1 dot_S640x10240_S10240x512_S640x512_1_0_0_1_n_n 10240 rfl rfl).symm]
  refine congrArg (fun s : EReal => max s (FloatOps.ofBits (F := Ideal) .f32 0x00000000#32)) (congrArg (· + x2 (ix2 0 q)) (Finset.sum_congr rfl fun k _ => ?_))
  have hk := contrEquiv1_symm_val dot_S640x10240_S10240x512_S640x512_1_0_0_1_n_n 10240 rfl rfl k
  have el : dot_S640x10240_S10240x512_S640x512_1_0_0_1_n_n.lhsIdx (ix2 r q) ((contrEquiv1 dot_S640x10240_S10240x512_S640x512_1_0_0_1_n_n 10240 rfl rfl).symm k) = ix2 r k := funext fun a => Fin.ext (by
    match a with
    | ⟨0, _⟩ => exact lhs1_0 _ _
    | ⟨1, _⟩ => exact (lhs1_1 _ _).trans hk)
  have er : dot_S640x10240_S10240x512_S640x512_1_0_0_1_n_n.rhsIdx (ix2 r q) ((contrEquiv1 dot_S640x10240_S10240x512_S640x512_1_0_0_1_n_n 10240 rfl rfl).symm k) = ix2 k q := funext fun a => Fin.ext (by
    match a with
    | ⟨0, _⟩ => exact (rhs1_0 _ _).trans hk
    | ⟨1, _⟩ => exact rhs1_1 _ _)
  rw [el, er]

/-- The two-axis zero offset, as the constant function. -/
theorem hz1 : (![0, 0] : Fin 2 → Nat) = fun _ => 0 := funext fun a => by fin_cases a <;> rfl

/-- The product of the first array by the second plus the third's one row, clamped below at zero: entry (p, q) is
    max (Σ_k a0[p, k] · a1[k, q] + a2[0, q]) 0. -/
def mm1 (a0 : FVec Ideal S10240x10240 .bf16) (a1 : FVec Ideal S10240x512 .bf16) (a2 : FVec Ideal S1x512 .f32) : S10240x512.Idx → EReal :=
  fun i => max ((∑ k : Fin 10240, a0 (ix2 (i 0 : Fin 10240) k) * a1 (ix2 k (i 1 : Fin 512))) + a2 (ix2 0 (i 1 : Fin 512))) (FloatOps.ofBits (F := Ideal) .f32 0x00000000#32)

/-- The product at an index given by its coordinates. -/
theorem mm1_apply (a0 : FVec Ideal S10240x10240 .bf16) (a1 : FVec Ideal S10240x512 .bf16) (a2 : FVec Ideal S1x512 .f32)
    (p : Fin 10240) (q : Fin 512) :
    mm1 a0 a1 a2 (ix2 p q) = max ((∑ k : Fin 10240, a0 (ix2 p k) * a1 (ix2 k q)) + a2 (ix2 0 q)) (FloatOps.ofBits (F := Ideal) .f32 0x00000000#32) := rfl

/-- The block indices, decided over the sixteen grid points: the left operand's and the output's row block is the
    point's number; every other block index is zero. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One block of the product: when the left block is rows 640·n … 640·n + 639 of a0 and the other two blocks are a1 and
    a2 whole, the body's result at (r, q) is the product's entry at (640·n + r, q). -/
theorem point1 (A0 : FVec Ideal S10240x10240 .bf16) (A1 : FVec Ideal S10240x512 .bf16) (A2 : FVec Ideal S1x512 .f32)
    (X0 : FVec Ideal S640x10240 .bf16) (X1 : FVec Ideal S10240x512 .bf16) (X2 : FVec Ideal S1x512 .f32) (n : Nat)
    (h0 : ∀ (y : S640x10240.Idx) (i : S10240x10240.Idx), (i 0).val = n * 640 + (y 0).val → (i 1).val = (y 1).val → X0 y = A0 i)
    (h1 : X1 = A1) (h2 : X2 = A2)
    (y : S640x512.Idx) (i : S10240x512.Idx) (hi0 : (i 0).val = n * 640 + (y 0).val) (hi1 : (i 1).val = (y 1).val) :
    k1_pay1 (F := Ideal) X0 X1 X2 y = mm1 A0 A1 A2 i := by
  subst h1 h2
  obtain ⟨r, q, rfl⟩ : ∃ (r : Fin 640) (q : Fin 512), y = ix2 r q := ⟨y 0, y 1, eq_ix2 y⟩
  obtain ⟨p, q', rfl⟩ : ∃ (p : Fin 10240) (q' : Fin 512), i = ix2 p q' := ⟨i 0, i 1, eq_ix2 i⟩
  obtain rfl : q' = q := Fin.ext hi1
  rw [pay1_apply, mm1_apply]
  refine congrArg (fun s : EReal => max s _) (congrArg (· + X2 (ix2 0 q')) (Finset.sum_congr rfl fun k _ => ?_))
  rw [h0 (ix2 r k) (ix2 p k) hi0 rfl]

section
variable (V : (c : Dev nD) → (b : Ref sig .tc) → Buf (Elt Ideal) ((c : Thread nD τ).loc b))

/-- The region's three input arrays as the region finds them: the left operand, the right operand, the one-row addend. -/
abbrev lhs1 (c : Dev nD) : FVec Ideal S10240x10240 .bf16 := V c (Pipeline.arrRef spec1 0)
abbrev rhs1 (c : Dev nD) : FVec Ideal S10240x512 .bf16 := V c (Pipeline.arrRef spec1 1)
abbrev bias1 (c : Dev nD) : FVec Ideal S1x512 .f32 := V c (Pipeline.arrRef spec1 2)

/-- The left operand's block at point t is rows 640·t … 640·t + 639 of its array. -/
theorem iblk1_0_apply (c : Dev nD) (t : Fin cfg1.N) (y : S640x10240.Idx) (i : S10240x10240.Idx)
    (h0 : (i 0).val = t.val * 640 + (y 0).val) (h1 : (i 1).val = (y 1).val) :
    (iblk1 V c 0 t : FVec Ideal S640x10240 .bf16) y = lhs1 V c i := by
  obtain ⟨e00, e01, -⟩ := idx1 t
  unfold iblk1
  rw [View.read_apply]
  refine congrArg (V c (Pipeline.arrRef spec1 0)) (funext fun a => Fin.ext ?_)
  match a with
  | ⟨0, _⟩ => show win1_0.index t (0 : Fin 2) * 640 + 1 * (y 0).val = (i 0).val; omega
  | ⟨1, _⟩ => show win1_0.index t (1 : Fin 2) * 10240 + 1 * (y 1).val = (i 1).val; omega

/-- The right operand's block at every point is its whole array. -/
theorem iblk1_1_eq (c : Dev nD) (t : Fin cfg1.N) :
    (iblk1 V c 1 t : FVec Ideal S10240x512 .bf16) = rhs1 V c := by
  obtain ⟨-, -, e10, e11, -⟩ := idx1 t
  unfold iblk1
  funext y
  rw [View.read_apply]
  refine congrArg (V c (Pipeline.arrRef spec1 1)) (funext fun a => Fin.ext ?_)
  match a with
  | ⟨0, _⟩ => show win1_1.index t (0 : Fin 2) * 10240 + 1 * (y 0).val = (y 0).val; omega
  | ⟨1, _⟩ => show win1_1.index t (1 : Fin 2) * 512 + 1 * (y 1).val = (y 1).val; omega

/-- The one-row operand's block at every point is its whole array. -/
theorem iblk1_2_eq (c : Dev nD) (t : Fin cfg1.N) :
    (iblk1 V c 2 t : FVec Ideal S1x512 .f32) = bias1 V c := by
  obtain ⟨-, -, -, -, e20, e21, -⟩ := idx1 t
  unfold iblk1
  funext y
  rw [View.read_apply]
  refine congrArg (V c (Pipeline.arrRef spec1 2)) (funext fun a => Fin.ext ?_)
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- What grid point t writes back is block t of the product of the region's three input arrays as it finds them. -/
theorem flushed1_eq (c : Dev nD) (t : Fin cfg1.N) :
    (dat1 (F := Ideal) V c).flushed 3 t = ((cfg1.win 3).blk t).view.read (Elt Ideal)
      (mm1 (lhs1 V c) (rhs1 V c) (bias1 V c)) := by
  show (cfg1.win 3).cut (grid1.coords t) ((dat1 V c).after 3 t) = _
  rw [after1_3]
  unfold out1_3
  rw [View.canon_unit_zero hz1]
  simp only [View.ld_unit_zero (S := S640x10240) hz1, View.ld_unit_zero (S := S10240x512) hz1, View.ld_unit_zero (S := S1x512) hz1]
  obtain ⟨-, -, -, -, -, -, e30, e31⟩ := idx1 t
  funext j
  refine point1 (lhs1 V c) (rhs1 V c) (bias1 V c)
    (iblk1 V c 0 t) (iblk1 V c 1 t) (iblk1 V c 2 t) t.val
    (iblk1_0_apply V c t) (iblk1_1_eq V c t) (iblk1_2_eq V c t)
    ((cfg1.win 3).xinj (grid1.coords t) j) (((cfg1.win 3).blk t).view.emb j) ?_ ?_
  · show win1_3.index t (0 : Fin 2) * 640 + 1 * (j 0).val = t.val * 640 + (j 0).val; omega
  · show win1_3.index t (1 : Fin 2) * 512 + 1 * (j 1).val = (j 1).val; omega

/-- An index of the output array lies in point t's block iff each coordinate is in the block's range on its axis. -/
theorem mem_blk1 (t : Fin cfg1.N) (i : S10240x512.Idx) :
    i ∈ ((cfg1.win 3).blk t).view.set ↔ ∀ a : Fin 2, win1_3.index t a * S640x512.size a ≤ (i a).val ∧ (i a).val < win1_3.index t a * S640x512.size a + S640x512.size a := by
  show i ∈ ((View.whole main_v55).slice (win1_3.rect t)).set ↔ _
  rw [View.set_slice_whole, Rect.mem_set_unit]
  exact Iff.rfl

/-- Every index of the output array is in the block of the point numbered by its row divided by 640. -/
theorem cover1 (i : S10240x512.Idx) :
    ∃ t : Fin cfg1.N, (cfg1.win 3).flush t = true ∧ i ∈ ((cfg1.win 3).blk t).view.set := by
  have hi0 : (i 0).val < 10240 := (i 0).isLt
  have hi1 : (i 1).val < 512 := (i 1).isLt
  obtain ⟨t, ht⟩ : ∃ t : Fin cfg1.N, t.val = (i 0).val / 640 :=
    ⟨⟨(i 0).val / 640, by rw [show cfg1.N = 16 from N_1]; omega⟩, rfl⟩
  obtain ⟨-, -, -, -, -, -, e30, e31⟩ := idx1 t
  refine ⟨t, flush1_3 t, ?_⟩
  rw [mem_blk1]
  intro a
  match a with
  | ⟨0, _⟩ => show win1_3.index t (0 : Fin 2) * 640 ≤ (i 0).val ∧ (i 0).val < win1_3.index t (0 : Fin 2) * 640 + 640; omega
  | ⟨1, _⟩ => show win1_3.index t (1 : Fin 2) * 512 ≤ (i 1).val ∧ (i 1).val < win1_3.index t (1 : Fin 2) * 512 + 512; omega

/-- The output array after the region's sixteen write-backs is the product. -/
theorem final1 (c : Dev nD) :
    (dat1 (F := Ideal) V c).arrAt 3 cfg1.N
      = mm1 (lhs1 V c) (rhs1 V c) (bias1 V c) :=
  (dat1 (F := Ideal) V c).arrAt_eq_of_cover 3 _ (fun t _ => flushed1_eq V c t) cover1

/-- Entry (p, q) of the output array after the region. -/
theorem region1_out (c : Dev nD) (p : Fin 10240) (q : Fin 512) :
    ((dat1 (F := Ideal) V c).arrAt 3 cfg1.N : S10240x512.Idx → EReal) (ix2 p q)
      = max ((∑ k : Fin 10240, lhs1 V c (ix2 p k) * rhs1 V c (ix2 k q)) + bias1 V c (ix2 0 q)) (FloatOps.ofBits (F := Ideal) .f32 0x00000000#32) := by
  rw [final1]
  rfl

/-- The same with the three input arrays named by the caller. -/
theorem region1_out_of (c : Dev nD) (A0 : FVec Ideal S10240x10240 .bf16) (A1 : FVec Ideal S10240x512 .bf16) (A2 : FVec Ideal S1x512 .f32)
    (h0 : lhs1 V c = A0) (h1 : rhs1 V c = A1) (h2 : bias1 V c = A2) (p : Fin 10240) (q : Fin 512) :
    ((dat1 (F := Ideal) V c).arrAt 3 cfg1.N : S10240x512.Idx → EReal) (ix2 p q)
      = max ((∑ k : Fin 10240, A0 (ix2 p k) * A1 (ix2 k q)) + A2 (ix2 0 q)) (FloatOps.ofBits (F := Ideal) .f32 0x00000000#32) := by
  subst h0 h1 h2
  exact region1_out V c p q

/-- The same with the zero word read as the extended real zero. -/
theorem region1_out_zero (c : Dev nD) (p : Fin 10240) (q : Fin 512) :
    ((dat1 (F := Ideal) V c).arrAt 3 cfg1.N : S10240x512.Idx → EReal) (ix2 p q)
      = max ((∑ k : Fin 10240, lhs1 V c (ix2 p k) * rhs1 V c (ix2 k q)) + bias1 V c (ix2 0 q)) 0 := by
  rw [region1_out]
  exact congrArg (fun z : EReal => max ((∑ k : Fin 10240, lhs1 V c (ix2 p k) * rhs1 V c (ix2 k q)) + bias1 V c (ix2 0 q)) z)
    Ideal.ofBits_zero_f32

end

end Cert.KernelIdeal.RegionValue

end
-- ==== Proof.Region2.lean ====
import proofs.«109809_j64716567216668_1_alg».proof.Proof.Gen.KernelIdeal.Frame
import Idealize.ShloMosaic.Lib.Pipeline.Value
import Idealize.ShloMosaic.Lib.ValueIdx
import Idealize.ShloMosaic.PureOps.Ideal.Laws

/-! # The third matrix product of the idealized kernel, as a whole array

The region multiplies a 10240 × 512 array by a 512 × 256 array and adds a one-row array to every row, sixteen row
blocks of 640 rows at a time. Over the extended reals the narrowing of the result to a shorter float format is the
identity and the accumulation into a zero array is the plain sum, so each block the body stores is the block of ONE
function of the three input arrays: entry (p, q) is Σ_k a0[p, k] · a1[k, q] + a2[0, q]. The sixteen blocks tile the
output array (row p lies in block p / 640), hence the array after the region is that function.

The order: the contraction's operand indices; the body's result at an entry of a block (`pay2_apply`); the product as
a function of whole arrays (`mm2`); the block index maps over the grid (`idx2`); one block of the product
(`point2`); the input blocks as parts of their arrays; what a grid point writes back (`flushed2_eq`); the cover;
the array after the region (`final2`, `region2_out`). -/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The contraction's operand indices -/

/-- The contraction's left operand index on the row axis is the output's row. -/
theorem lhs2_0 (i : S640x256.Idx) (q : dot_S640x512_S512x256_S640x256_1_0_0_1_n_n.contr.Idx) :
    (dot_S640x512_S512x256_S640x256_1_0_0_1_n_n.lhsIdx i q 0).val = (i 0).val := by
  unfold DotDims.lhsIdx
  rw [dif_neg (show ¬(0 : Fin S640x512.rank) ∈ dot_S640x512_S512x256_S640x256_1_0_0_1_n_n.lhsBatch by decide), dif_pos (show (0 : Fin S640x512.rank) ∈ dot_S640x512_S512x256_S640x256_1_0_0_1_n_n.lhsNonContracting by decide)]
  rfl
/-- On its column axis it is the contraction coordinate. -/
theorem lhs2_1 (i : S640x256.Idx) (q : dot_S640x512_S512x256_S640x256_1_0_0_1_n_n.contr.Idx) :
    (dot_S640x512_S512x256_S640x256_1_0_0_1_n_n.lhsIdx i q 1).val = (q ⟨0, by decide⟩).val :=
  dot_S640x512_S512x256_S640x256_1_0_0_1_n_n.lhsIdx_val_of_single rfl i q
/-- The right operand index on the row axis is the contraction coordinate. -/
theorem rhs2_0 (i : S640x256.Idx) (q : dot_S640x512_S512x256_S640x256_1_0_0_1_n_n.contr.Idx) :
    (dot_S640x512_S512x256_S640x256_1_0_0_1_n_n.rhsIdx i q 0).val = (q ⟨0, by decide⟩).val :=
  dot_S640x512_S512x256_S640x256_1_0_0_1_n_n.rhsIdx_val_of_single rfl i q
/-- On its column axis it is the output's column. -/
theorem rhs2_1 (i : S640x256.Idx) (q : dot_S640x512_S512x256_S640x256_1_0_0_1_n_n.contr.Idx) :
    (dot_S640x512_S512x256_S640x256_1_0_0_1_n_n.rhsIdx i q 1).val = (i 1).val := by
  unfold DotDims.rhsIdx
  rw [dif_neg (show ¬(1 : Fin S512x256.rank) ∈ dot_S640x512_S512x256_S640x256_1_0_0_1_n_n.rhsBatch by decide), dif_pos (show (1 : Fin S512x256.rank) ∈ dot_S640x512_S512x256_S640x256_1_0_0_1_n_n.rhsNonContracting by decide)]
  rfl

/-- The body's result at entry (r, q) of a block: the sum over k of the left block at (r, k) times the right block at
    (k, q), plus the one-row block at (0, q). -/
theorem pay2_apply (x0 : FVec Ideal S640x512 .bf16) (x1 : FVec Ideal S512x256 .bf16) (x2 : FVec Ideal S1x256 .f32)
    (r : Fin 640) (q : Fin 256) :
    k2_pay1 (F := Ideal) x0 x1 x2 (ix2 r q)
      = (∑ k : Fin 512, x0 (ix2 r k) * x1 (ix2 k q)) + x2 (ix2 0 q) := by
  unfold k2_pay1
  rw [shapeCast_self, shapeCast_self, shapeCast_self]
  refine (congrArg₂ (fun a b : EReal => a + b)
    (Ideal.matmul_constant_zero_apply (φ₁ := .bf16) (φ₂ := .bf16) dot_S640x512_S512x256_S640x256_1_0_0_1_n_n none x0 x1 (ix2 r q))
    (broadcastTo_apply x2 broadcasts_S1x256_S640x256 (ix2 r q) (ix2 0 q) (fun a => by
      match a with
      | ⟨0, _⟩ => rfl
      | ⟨1, _⟩ => rfl))).trans ?_
  rw [← Equiv.sum_comp (contrEquiv1 dot_S640x512_S512x256_S640x256_1_0_0_1_n_n 512 rfl rfl).symm]
  refine congrArg (· + x2 (ix2 0 q)) (Finset.sum_congr rfl fun k _ => ?_)
  have hk := contrEquiv1_symm_val dot_S640x512_S512x256_S640x256_1_0_0_1_n_n 512 rfl rfl k
  have el : dot_S640x512_S512x256_S640x256_1_0_0_1_n_n.lhsIdx (ix2 r q) ((contrEquiv1 dot_S640x512_S512x256_S640x256_1_0_0_1_n_n 512 rfl rfl).symm k) = ix2 r k := funext fun a => Fin.ext (by
    match a with
    | ⟨0, _⟩ => exact lhs2_0 _ _
    | ⟨1, _⟩ => exact (lhs2_1 _ _).trans hk)
  have er : dot_S640x512_S512x256_S640x256_1_0_0_1_n_n.rhsIdx (ix2 r q) ((contrEquiv1 dot_S640x512_S512x256_S640x256_1_0_0_1_n_n 512 rfl rfl).symm k) = ix2 k q := funext fun a => Fin.ext (by
    match a with
    | ⟨0, _⟩ => exact (rhs2_0 _ _).trans hk
    | ⟨1, _⟩ => exact rhs2_1 _ _)
  rw [el, er]

/-- The two-axis zero offset, as the constant function. -/
theorem hz2 : (![0, 0] : Fin 2 → Nat) = fun _ => 0 := funext fun a => by fin_cases a <;> rfl

/-- The product of the first array by the second plus the third's one row: entry (p, q) is
    Σ_k a0[p, k] · a1[k, q] + a2[0, q]. -/
def mm2 (a0 : FVec Ideal S10240x512 .bf16) (a1 : FVec Ideal S512x256 .bf16) (a2 : FVec Ideal S1x256 .f32) : S10240x256.Idx → EReal :=
  fun i => (∑ k : Fin 512, a0 (ix2 (i 0 : Fin 10240) k) * a1 (ix2 k (i 1 : Fin 256))) + a2 (ix2 0 (i 1 : Fin 256))

/-- The product at an index given by its coordinates. -/
theorem mm2_apply (a0 : FVec Ideal S10240x512 .bf16) (a1 : FVec Ideal S512x256 .bf16) (a2 : FVec Ideal S1x256 .f32)
    (p : Fin 10240) (q : Fin 256) :
    mm2 a0 a1 a2 (ix2 p q) = (∑ k : Fin 512, a0 (ix2 p k) * a1 (ix2 k q)) + a2 (ix2 0 q) := rfl

/-- The block indices, decided over the sixteen grid points: the left operand's and the output's row block is the
    point's number; every other block index is zero. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One block of the product: when the left block is rows 640·n … 640·n + 639 of a0 and the other two blocks are a1 and
    a2 whole, the body's result at (r, q) is the product's entry at (640·n + r, q). -/
theorem point2 (A0 : FVec Ideal S10240x512 .bf16) (A1 : FVec Ideal S512x256 .bf16) (A2 : FVec Ideal S1x256 .f32)
    (X0 : FVec Ideal S640x512 .bf16) (X1 : FVec Ideal S512x256 .bf16) (X2 : FVec Ideal S1x256 .f32) (n : Nat)
    (h0 : ∀ (y : S640x512.Idx) (i : S10240x512.Idx), (i 0).val = n * 640 + (y 0).val → (i 1).val = (y 1).val → X0 y = A0 i)
    (h1 : X1 = A1) (h2 : X2 = A2)
    (y : S640x256.Idx) (i : S10240x256.Idx) (hi0 : (i 0).val = n * 640 + (y 0).val) (hi1 : (i 1).val = (y 1).val) :
    k2_pay1 (F := Ideal) X0 X1 X2 y = mm2 A0 A1 A2 i := by
  subst h1 h2
  obtain ⟨r, q, rfl⟩ : ∃ (r : Fin 640) (q : Fin 256), y = ix2 r q := ⟨y 0, y 1, eq_ix2 y⟩
  obtain ⟨p, q', rfl⟩ : ∃ (p : Fin 10240) (q' : Fin 256), i = ix2 p q' := ⟨i 0, i 1, eq_ix2 i⟩
  obtain rfl : q' = q := Fin.ext hi1
  rw [pay2_apply, mm2_apply]
  refine congrArg (· + X2 (ix2 0 q')) (Finset.sum_congr rfl fun k _ => ?_)
  rw [h0 (ix2 r k) (ix2 p k) hi0 rfl]

section
variable (V : (c : Dev nD) → (b : Ref sig .tc) → Buf (Elt Ideal) ((c : Thread nD τ).loc b))

/-- The region's three input arrays as the region finds them: the left operand, the right operand, the one-row addend. -/
abbrev lhs2 (c : Dev nD) : FVec Ideal S10240x512 .bf16 := V c (Pipeline.arrRef spec2 0)
abbrev rhs2 (c : Dev nD) : FVec Ideal S512x256 .bf16 := V c (Pipeline.arrRef spec2 1)
abbrev bias2 (c : Dev nD) : FVec Ideal S1x256 .f32 := V c (Pipeline.arrRef spec2 2)

/-- The left operand's block at point t is rows 640·t … 640·t + 639 of its array. -/
theorem iblk2_0_apply (c : Dev nD) (t : Fin cfg2.N) (y : S640x512.Idx) (i : S10240x512.Idx)
    (h0 : (i 0).val = t.val * 640 + (y 0).val) (h1 : (i 1).val = (y 1).val) :
    (iblk2 V c 0 t : FVec Ideal S640x512 .bf16) y = lhs2 V c i := by
  obtain ⟨e00, e01, -⟩ := idx2 t
  unfold iblk2
  rw [View.read_apply]
  refine congrArg (V c (Pipeline.arrRef spec2 0)) (funext fun a => Fin.ext ?_)
  match a with
  | ⟨0, _⟩ => show win2_0.index t (0 : Fin 2) * 640 + 1 * (y 0).val = (i 0).val; omega
  | ⟨1, _⟩ => show win2_0.index t (1 : Fin 2) * 512 + 1 * (y 1).val = (i 1).val; omega

/-- The right operand's block at every point is its whole array. -/
theorem iblk2_1_eq (c : Dev nD) (t : Fin cfg2.N) :
    (iblk2 V c 1 t : FVec Ideal S512x256 .bf16) = rhs2 V c := by
  obtain ⟨-, -, e10, e11, -⟩ := idx2 t
  unfold iblk2
  funext y
  rw [View.read_apply]
  refine congrArg (V c (Pipeline.arrRef spec2 1)) (funext fun a => Fin.ext ?_)
  match a with
  | ⟨0, _⟩ => show win2_1.index t (0 : Fin 2) * 512 + 1 * (y 0).val = (y 0).val; omega
  | ⟨1, _⟩ => show win2_1.index t (1 : Fin 2) * 256 + 1 * (y 1).val = (y 1).val; omega

/-- The one-row operand's block at every point is its whole array. -/
theorem iblk2_2_eq (c : Dev nD) (t : Fin cfg2.N) :
    (iblk2 V c 2 t : FVec Ideal S1x256 .f32) = bias2 V c := by
  obtain ⟨-, -, -, -, e20, e21, -⟩ := idx2 t
  unfold iblk2
  funext y
  rw [View.read_apply]
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- What grid point t writes back is block t of the product of the region's three input arrays as it finds them. -/
theorem flushed2_eq (c : Dev nD) (t : Fin cfg2.N) :
    (dat2 (F := Ideal) V c).flushed 3 t = ((cfg2.win 3).blk t).view.read (Elt Ideal)
      (mm2 (lhs2 V c) (rhs2 V c) (bias2 V c)) := by
  show (cfg2.win 3).cut (grid2.coords t) ((dat2 V c).after 3 t) = _
  rw [after2_3]
  unfold out2_3
  rw [View.canon_unit_zero hz2]
  simp only [View.ld_unit_zero (S := S640x512) hz2, View.ld_unit_zero (S := S512x256) hz2, View.ld_unit_zero (S := S1x256) hz2]
  obtain ⟨-, -, -, -, -, -, e30, e31⟩ := idx2 t
  funext j
  refine point2 (lhs2 V c) (rhs2 V c) (bias2 V c)
    (iblk2 V c 0 t) (iblk2 V c 1 t) (iblk2 V c 2 t) t.val
    (iblk2_0_apply V c t) (iblk2_1_eq V c t) (iblk2_2_eq V c t)
    ((cfg2.win 3).xinj (grid2.coords t) j) (((cfg2.win 3).blk t).view.emb j) ?_ ?_
  · show win2_3.index t (0 : Fin 2) * 640 + 1 * (j 0).val = t.val * 640 + (j 0).val; omega
  · show win2_3.index t (1 : Fin 2) * 256 + 1 * (j 1).val = (j 1).val; omega

/-- An index of the output array lies in point t's block iff each coordinate is in the block's range on its axis. -/
theorem mem_blk2 (t : Fin cfg2.N) (i : S10240x256.Idx) :
    i ∈ ((cfg2.win 3).blk t).view.set ↔ ∀ a : Fin 2, win2_3.index t a * S640x256.size a ≤ (i a).val ∧ (i a).val < win2_3.index t a * S640x256.size a + S640x256.size a := by
  show i ∈ ((View.whole main_v56).slice (win2_3.rect t)).set ↔ _
  rw [View.set_slice_whole, Rect.mem_set_unit]
  exact Iff.rfl

/-- Every index of the output array is in the block of the point numbered by its row divided by 640. -/
theorem cover2 (i : S10240x256.Idx) :
    ∃ t : Fin cfg2.N, (cfg2.win 3).flush t = true ∧ i ∈ ((cfg2.win 3).blk t).view.set := by
  have hi0 : (i 0).val < 10240 := (i 0).isLt
  have hi1 : (i 1).val < 256 := (i 1).isLt
  obtain ⟨t, ht⟩ : ∃ t : Fin cfg2.N, t.val = (i 0).val / 640 :=
    ⟨⟨(i 0).val / 640, by rw [show cfg2.N = 16 from N_2]; omega⟩, rfl⟩
  obtain ⟨-, -, -, -, -, -, e30, e31⟩ := idx2 t
  refine ⟨t, flush2_3 t, ?_⟩
  rw [mem_blk2]
  intro a
  match a with
  | ⟨0, _⟩ => show win2_3.index t (0 : Fin 2) * 640 ≤ (i 0).val ∧ (i 0).val < win2_3.index t (0 : Fin 2) * 640 + 640; omega
  | ⟨1, _⟩ => show win2_3.index t (1 : Fin 2) * 256 ≤ (i 1).val ∧ (i 1).val < win2_3.index t (1 : Fin 2) * 256 + 256; omega

/-- The output array after the region's sixteen write-backs is the product. -/
theorem final2 (c : Dev nD) :
    (dat2 (F := Ideal) V c).arrAt 3 cfg2.N
      = mm2 (lhs2 V c) (rhs2 V c) (bias2 V c) :=
  (dat2 (F := Ideal) V c).arrAt_eq_of_cover 3 _ (fun t _ => flushed2_eq V c t) cover2

/-- Entry (p, q) of the output array after the region. -/
theorem region2_out (c : Dev nD) (p : Fin 10240) (q : Fin 256) :
    ((dat2 (F := Ideal) V c).arrAt 3 cfg2.N : S10240x256.Idx → EReal) (ix2 p q)
      = (∑ k : Fin 512, lhs2 V c (ix2 p k) * rhs2 V c (ix2 k q)) + bias2 V c (ix2 0 q) := by
  rw [final2]
  rfl

/-- The same with the three input arrays named by the caller. -/
theorem region2_out_of (c : Dev nD) (A0 : FVec Ideal S10240x512 .bf16) (A1 : FVec Ideal S512x256 .bf16) (A2 : FVec Ideal S1x256 .f32)
    (h0 : lhs2 V c = A0) (h1 : rhs2 V c = A1) (h2 : bias2 V c = A2) (p : Fin 10240) (q : Fin 256) :
    ((dat2 (F := Ideal) V c).arrAt 3 cfg2.N : S10240x256.Idx → EReal) (ix2 p q)
      = (∑ k : Fin 512, A0 (ix2 p k) * A1 (ix2 k q)) + A2 (ix2 0 q) := by
  subst h0 h1 h2
  exact region2_out V c p q

end

end Cert.KernelIdeal.RegionValue

end
-- ==== Proof.Region3.lean ====
import proofs.«109809_j64716567216668_1_alg».proof.Proof.Gen.KernelIdeal.Frame
import Idealize.ShloMosaic.Lib.Pipeline.Value
import Idealize.ShloMosaic.Lib.ValueIdx
import Idealize.ShloMosaic.PureOps.Ideal.Laws

/-! # The fourth matrix product of the idealized kernel, as a whole array

The region multiplies a 10240 × 10240 array by a 10240 × 256 array and adds a one-row array to every row, sixteen row
blocks of 640 rows at a time; the result is stored at full width. Over the extended reals the accumulation into a zero
array is the plain sum, so each block the body stores is the block of ONE function of the three input arrays: entry
(p, q) is Σ_k a0[p, k] · a1[k, q] + a2[0, q]. The sixteen blocks tile the output array (row p lies in block p / 640),
hence the array after the region is that function.

The order: the contraction's operand indices; the body's result at an entry of a block (`pay3_apply`); the product as
a function of whole arrays (`mm3`); the block index maps over the grid (`idx3`); one block of the product
(`point3`); the input blocks as parts of their arrays; what a grid point writes back (`flushed3_eq`); the cover;
the array after the region (`final3`, `region3_out`). -/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The contraction's operand indices -/

/-- The contraction's left operand index on the row axis is the output's row. -/
theorem lhs3_0 (i : S640x256.Idx) (q : dot_S640x10240_S10240x256_S640x256_1_0_0_1_n_n.contr.Idx) :
    (dot_S640x10240_S10240x256_S640x256_1_0_0_1_n_n.lhsIdx i q 0).val = (i 0).val := by
  unfold DotDims.lhsIdx
  rw [dif_neg (show ¬(0 : Fin S640x10240.rank) ∈ dot_S640x10240_S10240x256_S640x256_1_0_0_1_n_n.lhsBatch by decide), dif_pos (show (0 : Fin S640x10240.rank) ∈ dot_S640x10240_S10240x256_S640x256_1_0_0_1_n_n.lhsNonContracting by decide)]
  rfl
/-- On its column axis it is the contraction coordinate. -/
theorem lhs3_1 (i : S640x256.Idx) (q : dot_S640x10240_S10240x256_S640x256_1_0_0_1_n_n.contr.Idx) :
    (dot_S640x10240_S10240x256_S640x256_1_0_0_1_n_n.lhsIdx i q 1).val = (q ⟨0, by decide⟩).val :=
  dot_S640x10240_S10240x256_S640x256_1_0_0_1_n_n.lhsIdx_val_of_single rfl i q
/-- The right operand index on the row axis is the contraction coordinate. -/
theorem rhs3_0 (i : S640x256.Idx) (q : dot_S640x10240_S10240x256_S640x256_1_0_0_1_n_n.contr.Idx) :
    (dot_S640x10240_S10240x256_S640x256_1_0_0_1_n_n.rhsIdx i q 0).val = (q ⟨0, by decide⟩).val :=
  dot_S640x10240_S10240x256_S640x256_1_0_0_1_n_n.rhsIdx_val_of_single rfl i q
/-- On its column axis it is the output's column. -/
theorem rhs3_1 (i : S640x256.Idx) (q : dot_S640x10240_S10240x256_S640x256_1_0_0_1_n_n.contr.Idx) :
    (dot_S640x10240_S10240x256_S640x256_1_0_0_1_n_n.rhsIdx i q 1).val = (i 1).val := by
  unfold DotDims.rhsIdx
  rw [dif_neg (show ¬(1 : Fin S10240x256.rank) ∈ dot_S640x10240_S10240x256_S640x256_1_0_0_1_n_n.rhsBatch by decide), dif_pos (show (1 : Fin S10240x256.rank) ∈ dot_S640x10240_S10240x256_S640x256_1_0_0_1_n_n.rhsNonContracting by decide)]
  rfl

/-- The body's result at entry (r, q) of a block: the sum over k of the left block at (r, k) times the right block at
    (k, q), plus the one-row block at (0, q). -/
theorem pay3_apply (x0 : FVec Ideal S640x10240 .bf16) (x1 : FVec Ideal S10240x256 .bf16) (x2 : FVec Ideal S1x256 .f32)
    (r : Fin 640) (q : Fin 256) :
    k3_pay1 (F := Ideal) x0 x1 x2 (ix2 r q)
      = (∑ k : Fin 10240, x0 (ix2 r k) * x1 (ix2 k q)) + x2 (ix2 0 q) := by
  unfold k3_pay1
  rw [shapeCast_self, shapeCast_self, shapeCast_self]
  refine (congrArg₂ (fun a b : EReal => a + b)
    (Ideal.matmul_constant_zero_apply (φ₁ := .bf16) (φ₂ := .bf16) dot_S640x10240_S10240x256_S640x256_1_0_0_1_n_n none x0 x1 (ix2 r q))
    (broadcastTo_apply x2 broadcasts_S1x256_S640x256 (ix2 r q) (ix2 0 q) (fun a => by
      match a with
      | ⟨0, _⟩ => rfl
      | ⟨1, _⟩ => rfl))).trans ?_
  rw [← Equiv.sum_comp (contrEquiv1 dot_S640x10240_S10240x256_S640x256_1_0_0_1_n_n 10240 rfl rfl).symm]
  refine congrArg (· + x2 (ix2 0 q)) (Finset.sum_congr rfl fun k _ => ?_)
  have hk := contrEquiv1_symm_val dot_S640x10240_S10240x256_S640x256_1_0_0_1_n_n 10240 rfl rfl k
  have el : dot_S640x10240_S10240x256_S640x256_1_0_0_1_n_n.lhsIdx (ix2 r q) ((contrEquiv1 dot_S640x10240_S10240x256_S640x256_1_0_0_1_n_n 10240 rfl rfl).symm k) = ix2 r k := funext fun a => Fin.ext (by
    match a with
    | ⟨0, _⟩ => exact lhs3_0 _ _
    | ⟨1, _⟩ => exact (lhs3_1 _ _).trans hk)
  have er : dot_S640x10240_S10240x256_S640x256_1_0_0_1_n_n.rhsIdx (ix2 r q) ((contrEquiv1 dot_S640x10240_S10240x256_S640x256_1_0_0_1_n_n 10240 rfl rfl).symm k) = ix2 k q := funext fun a => Fin.ext (by
    match a with
    | ⟨0, _⟩ => exact (rhs3_0 _ _).trans hk
    | ⟨1, _⟩ => exact rhs3_1 _ _)
  rw [el, er]

/-- The two-axis zero offset, as the constant function. -/
theorem hz3 : (![0, 0] : Fin 2 → Nat) = fun _ => 0 := funext fun a => by fin_cases a <;> rfl

/-- The product of the first array by the second plus the third's one row: entry (p, q) is
    Σ_k a0[p, k] · a1[k, q] + a2[0, q]. -/
def mm3 (a0 : FVec Ideal S10240x10240 .bf16) (a1 : FVec Ideal S10240x256 .bf16) (a2 : FVec Ideal S1x256 .f32) : S10240x256.Idx → EReal :=
  fun i => (∑ k : Fin 10240, a0 (ix2 (i 0 : Fin 10240) k) * a1 (ix2 k (i 1 : Fin 256))) + a2 (ix2 0 (i 1 : Fin 256))

/-- The product at an index given by its coordinates. -/
theorem mm3_apply (a0 : FVec Ideal S10240x10240 .bf16) (a1 : FVec Ideal S10240x256 .bf16) (a2 : FVec Ideal S1x256 .f32)
    (p : Fin 10240) (q : Fin 256) :
    mm3 a0 a1 a2 (ix2 p q) = (∑ k : Fin 10240, a0 (ix2 p k) * a1 (ix2 k q)) + a2 (ix2 0 q) := rfl

/-- The block indices, decided over the sixteen grid points: the left operand's and the output's row block is the
    point's number; every other block index is zero. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One block of the product: when the left block is rows 640·n … 640·n + 639 of a0 and the other two blocks are a1 and
    a2 whole, the body's result at (r, q) is the product's entry at (640·n + r, q). -/
theorem point3 (A0 : FVec Ideal S10240x10240 .bf16) (A1 : FVec Ideal S10240x256 .bf16) (A2 : FVec Ideal S1x256 .f32)
    (X0 : FVec Ideal S640x10240 .bf16) (X1 : FVec Ideal S10240x256 .bf16) (X2 : FVec Ideal S1x256 .f32) (n : Nat)
    (h0 : ∀ (y : S640x10240.Idx) (i : S10240x10240.Idx), (i 0).val = n * 640 + (y 0).val → (i 1).val = (y 1).val → X0 y = A0 i)
    (h1 : X1 = A1) (h2 : X2 = A2)
    (y : S640x256.Idx) (i : S10240x256.Idx) (hi0 : (i 0).val = n * 640 + (y 0).val) (hi1 : (i 1).val = (y 1).val) :
    k3_pay1 (F := Ideal) X0 X1 X2 y = mm3 A0 A1 A2 i := by
  subst h1 h2
  obtain ⟨r, q, rfl⟩ : ∃ (r : Fin 640) (q : Fin 256), y = ix2 r q := ⟨y 0, y 1, eq_ix2 y⟩
  obtain ⟨p, q', rfl⟩ : ∃ (p : Fin 10240) (q' : Fin 256), i = ix2 p q' := ⟨i 0, i 1, eq_ix2 i⟩
  obtain rfl : q' = q := Fin.ext hi1
  rw [pay3_apply, mm3_apply]
  refine congrArg (· + X2 (ix2 0 q')) (Finset.sum_congr rfl fun k _ => ?_)
  rw [h0 (ix2 r k) (ix2 p k) hi0 rfl]

section
variable (V : (c : Dev nD) → (b : Ref sig .tc) → Buf (Elt Ideal) ((c : Thread nD τ).loc b))

/-- The region's three input arrays as the region finds them: the left operand, the right operand, the one-row addend. -/
abbrev lhs3 (c : Dev nD) : FVec Ideal S10240x10240 .bf16 := V c (Pipeline.arrRef spec3 0)
abbrev rhs3 (c : Dev nD) : FVec Ideal S10240x256 .bf16 := V c (Pipeline.arrRef spec3 1)
abbrev bias3 (c : Dev nD) : FVec Ideal S1x256 .f32 := V c (Pipeline.arrRef spec3 2)

/-- The left operand's block at point t is rows 640·t … 640·t + 639 of its array. -/
theorem iblk3_0_apply (c : Dev nD) (t : Fin cfg3.N) (y : S640x10240.Idx) (i : S10240x10240.Idx)
    (h0 : (i 0).val = t.val * 640 + (y 0).val) (h1 : (i 1).val = (y 1).val) :
    (iblk3 V c 0 t : FVec Ideal S640x10240 .bf16) y = lhs3 V c i := by
  obtain ⟨e00, e01, -⟩ := idx3 t
  unfold iblk3
  rw [View.read_apply]
  refine congrArg (V c (Pipeline.arrRef spec3 0)) (funext fun a => Fin.ext ?_)
  match a with
  | ⟨0, _⟩ => show win3_0.index t (0 : Fin 2) * 640 + 1 * (y 0).val = (i 0).val; omega
  | ⟨1, _⟩ => show win3_0.index t (1 : Fin 2) * 10240 + 1 * (y 1).val = (i 1).val; omega

/-- The right operand's block at every point is its whole array. -/
theorem iblk3_1_eq (c : Dev nD) (t : Fin cfg3.N) :
    (iblk3 V c 1 t : FVec Ideal S10240x256 .bf16) = rhs3 V c := by
  obtain ⟨-, -, e10, e11, -⟩ := idx3 t
  unfold iblk3
  funext y
  rw [View.read_apply]
  refine congrArg (V c (Pipeline.arrRef spec3 1)) (funext fun a => Fin.ext ?_)
  match a with
  | ⟨0, _⟩ => show win3_1.index t (0 : Fin 2) * 10240 + 1 * (y 0).val = (y 0).val; omega
  | ⟨1, _⟩ => show win3_1.index t (1 : Fin 2) * 256 + 1 * (y 1).val = (y 1).val; omega

/-- The one-row operand's block at every point is its whole array. -/
theorem iblk3_2_eq (c : Dev nD) (t : Fin cfg3.N) :
    (iblk3 V c 2 t : FVec Ideal S1x256 .f32) = bias3 V c := by
  obtain ⟨-, -, -, -, e20, e21, -⟩ := idx3 t
  unfold iblk3
  funext y
  rw [View.read_apply]
  refine congrArg (V c (Pipeline.arrRef spec3 2)) (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- What grid point t writes back is block t of the product of the region's three input arrays as it finds them. -/
theorem flushed3_eq (c : Dev nD) (t : Fin cfg3.N) :
    (dat3 (F := Ideal) V c).flushed 3 t = ((cfg3.win 3).blk t).view.read (Elt Ideal)
      (mm3 (lhs3 V c) (rhs3 V c) (bias3 V c)) := by
  show (cfg3.win 3).cut (grid3.coords t) ((dat3 V c).after 3 t) = _
  rw [after3_3]
  unfold out3_3
  rw [View.canon_unit_zero hz3]
  simp only [View.ld_unit_zero (S := S640x10240) hz3, View.ld_unit_zero (S := S10240x256) hz3, View.ld_unit_zero (S := S1x256) hz3]
  obtain ⟨-, -, -, -, -, -, e30, e31⟩ := idx3 t
  funext j
  refine point3 (lhs3 V c) (rhs3 V c) (bias3 V c)
    (iblk3 V c 0 t) (iblk3 V c 1 t) (iblk3 V c 2 t) t.val
    (iblk3_0_apply V c t) (iblk3_1_eq V c t) (iblk3_2_eq V c t)
    ((cfg3.win 3).xinj (grid3.coords t) j) (((cfg3.win 3).blk t).view.emb j) ?_ ?_
  · show win3_3.index t (0 : Fin 2) * 640 + 1 * (j 0).val = t.val * 640 + (j 0).val; omega
  · show win3_3.index t (1 : Fin 2) * 256 + 1 * (j 1).val = (j 1).val; omega

/-- An index of the output array lies in point t's block iff each coordinate is in the block's range on its axis. -/
theorem mem_blk3 (t : Fin cfg3.N) (i : S10240x256.Idx) :
    i ∈ ((cfg3.win 3).blk t).view.set ↔ ∀ a : Fin 2, win3_3.index t a * S640x256.size a ≤ (i a).val ∧ (i a).val < win3_3.index t a * S640x256.size a + S640x256.size a := by
  show i ∈ ((View.whole main_v57).slice (win3_3.rect t)).set ↔ _
  rw [View.set_slice_whole, Rect.mem_set_unit]
  exact Iff.rfl

/-- Every index of the output array is in the block of the point numbered by its row divided by 640. -/
theorem cover3 (i : S10240x256.Idx) :
    ∃ t : Fin cfg3.N, (cfg3.win 3).flush t = true ∧ i ∈ ((cfg3.win 3).blk t).view.set := by
  have hi0 : (i 0).val < 10240 := (i 0).isLt
  have hi1 : (i 1).val < 256 := (i 1).isLt
  obtain ⟨t, ht⟩ : ∃ t : Fin cfg3.N, t.val = (i 0).val / 640 :=
    ⟨⟨(i 0).val / 640, by rw [show cfg3.N = 16 from N_3]; omega⟩, rfl⟩
  obtain ⟨-, -, -, -, -, -, e30, e31⟩ := idx3 t
  refine ⟨t, flush3_3 t, ?_⟩
  rw [mem_blk3]
  intro a
  match a with
  | ⟨0, _⟩ => show win3_3.index t (0 : Fin 2) * 640 ≤ (i 0).val ∧ (i 0).val < win3_3.index t (0 : Fin 2) * 640 + 640; omega
  | ⟨1, _⟩ => show win3_3.index t (1 : Fin 2) * 256 ≤ (i 1).val ∧ (i 1).val < win3_3.index t (1 : Fin 2) * 256 + 256; omega

/-- The output array after the region's sixteen write-backs is the product. -/
theorem final3 (c : Dev nD) :
    (dat3 (F := Ideal) V c).arrAt 3 cfg3.N
      = mm3 (lhs3 V c) (rhs3 V c) (bias3 V c) :=
  (dat3 (F := Ideal) V c).arrAt_eq_of_cover 3 _ (fun t _ => flushed3_eq V c t) cover3

/-- Entry (p, q) of the output array after the region. -/
theorem region3_out (c : Dev nD) (p : Fin 10240) (q : Fin 256) :
    ((dat3 (F := Ideal) V c).arrAt 3 cfg3.N : S10240x256.Idx → EReal) (ix2 p q)
      = (∑ k : Fin 10240, lhs3 V c (ix2 p k) * rhs3 V c (ix2 k q)) + bias3 V c (ix2 0 q) := by
  rw [final3]
  rfl

/-- The same with the three input arrays named by the caller. -/
theorem region3_out_of (c : Dev nD) (A0 : FVec Ideal S10240x10240 .bf16) (A1 : FVec Ideal S10240x256 .bf16) (A2 : FVec Ideal S1x256 .f32)
    (h0 : lhs3 V c = A0) (h1 : rhs3 V c = A1) (h2 : bias3 V c = A2) (p : Fin 10240) (q : Fin 256) :
    ((dat3 (F := Ideal) V c).arrAt 3 cfg3.N : S10240x256.Idx → EReal) (ix2 p q)
      = (∑ k : Fin 10240, A0 (ix2 p k) * A1 (ix2 k q)) + A2 (ix2 0 q) := by
  subst h0 h1 h2
  exact region3_out V c p q

end

end Cert.KernelIdeal.RegionValue

end
-- ==== Proof.Agg.lean ====
/-
  The mathematics shared by the two programs, with no program in sight.

  A graph layer aggregates rows of a feature matrix along edges. Each edge `e` has a source node `sN e`, a destination
  node `dN e` and a weight `n e`. One program scatters the weights into a dense matrix
  `A i j = ∑ {e | dN e = i ∧ sN e = j} n e` over nodes padded from 10000 to 10240 and multiplies, `∑ j, A i j * H j c`;
  the other gathers the source rows, scales them and adds them up at the destination, `∑ {e | dN e = i} H (sN e) c * n e`.
  The two agree by distributing the product over the inner sum and exchanging the two sums. On the extended reals the
  distributive law fails at the infinities, so it is stated for entries that are real numbers; the padded rows of `H`
  are never read by the second form and may hold anything real.
-/
import Idealize.ShloMosaic.PureOps.Ideal.Laws

noncomputable section

open Finset

namespace Cert.Agg

/-- An extended real that is a real number. -/
def IsR (x : EReal) : Prop := ∃ r : ℝ, x = (r : EReal)

theorem IsR.zero : IsR 0 := ⟨0, rfl⟩
theorem IsR.coe (r : ℝ) : IsR (r : EReal) := ⟨r, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.max {x y : EReal} (hx : IsR x) (hy : IsR y) : IsR (max x y) := by
  rcases max_choice x y with h | h <;> rw [h] <;> assumption

theorem IsR.sum {ι : Type*} (s : Finset ι) (f : ι → EReal) (h : ∀ i ∈ s, IsR (f i)) : IsR (∑ i ∈ s, f i) :=
  Finset.sum_induction f IsR (fun _ _ => IsR.add) IsR.zero h

/-- The coercion of a finite sum of reals is the sum of the coercions. -/
theorem coe_sum {ι : Type*} (s : Finset ι) (f : ι → ℝ) : ((∑ i ∈ s, f i : ℝ) : EReal) = ∑ i ∈ s, (f i : EReal) := by
  refine Finset.cons_induction ?_ ?_ s
  · simp
  · intro a s ha ih
    rw [Finset.sum_cons, Finset.sum_cons, EReal.coe_add, ih]

/-- Over the reals: multiplying by the scattered matrix is gathering, scaling and adding at the destination. -/
theorem agg_real {E J : Type*} [Fintype E] [Fintype J] [DecidableEq J] (n : E → ℝ) (H : J → ℝ)
    (P : E → Prop) [DecidablePred P] (sj : E → J) :
    ∑ j, (∑ e ∈ univ.filter (fun e => P e ∧ sj e = j), n e) * H j = ∑ e ∈ univ.filter P, H (sj e) * n e := by
  simp only [Finset.sum_mul, Finset.sum_filter]
  rw [Finset.sum_comm]
  refine Finset.sum_congr rfl fun e _ => ?_
  by_cases hP : P e
  · simp [hP, mul_comm]
  · simp [hP]

/-- The same on the extended reals, for real weights and real features. -/
theorem agg_law {E J : Type*} [Fintype E] [Fintype J] [DecidableEq J] (n : E → EReal) (H : J → EReal)
    (hn : ∀ e, IsR (n e)) (hH : ∀ j, IsR (H j)) (P : E → Prop) [DecidablePred P] (sj : E → J) :
    ∑ j, (∑ e ∈ univ.filter (fun e => P e ∧ sj e = j), n e) * H j = ∑ e ∈ univ.filter P, H (sj e) * n e := by
  choose nr hnr using hn
  choose Hr hHr using hH
  obtain rfl : n = fun e => (nr e : EReal) := funext hnr
  obtain rfl : H = fun j => (Hr j : EReal) := funext hHr
  simp only [← coe_sum, ← EReal.coe_mul]
  exact congrArg _ (agg_real nr Hr P sj)

end Cert.Agg

end
-- ==== Proof.Bridge.lean ====
/-
  The two-layer graph convolution, once as the padded dense computation and once as the edge-list computation, and their
  equality on the first 10000 rows.

  Nodes are `Fin 10000`; the dense form pads them to `Fin 10240`. Each of the 170000 edges `e` (the given edges and one
  self loop per node) has a source `sN e`, a destination `dN e` and a weight `n e`. The dense form builds the adjacency
  `adj i j = ∑ {e | dN e = i ∧ sN e = j} n e`, pads the features with zero rows, and computes
  `adj · (relu (adj · (x_pad · W1) + b1) · W2) + b2`. The edge-list form computes, per layer,
  `out i c = ∑ {e | dN e = i} (H (sN e) c) * n e + b c` with `H = x · W`. Row `i < 10000` of the dense result is the
  edge-list result: column `j ≥ 10000` of `adj` is zero (no edge has such a source), so the padded rows of the features —
  which are not zero after the first layer, they hold `relu b1 · W2` — never contribute; formally this is the
  aggregation law applied to the padded feature rows, which only asks that they be real numbers.
-/
import proofs.«109809_j64716567216668_1_alg».proof.Proof.Agg

noncomputable section

open Finset Cert.Agg

namespace Cert.Bridge

/-- A node among the padded nodes. -/
def up (i : Fin 10000) : Fin 10240 := ⟨i.val, by omega⟩

section
variable (x : Fin 10000 → Fin 512 → EReal) (W1 : Fin 512 → Fin 512 → EReal) (b1 : Fin 512 → EReal)
  (W2 : Fin 512 → Fin 256 → EReal) (b2 : Fin 256 → EReal)
  (n : Fin 170000 → EReal) (sN dN : Fin 170000 → Fin 10000)

/-- The dense adjacency over the padded nodes: the weights of the edges from `j` to `i`, added up. -/
def adj (i j : Fin 10240) : EReal :=
  ∑ e ∈ univ.filter (fun e => (dN e).val = i.val ∧ (sN e).val = j.val), n e

/-- The features padded with zero rows. -/
def xpad (j : Fin 10240) (k : Fin 512) : EReal := if h : j.val < 10000 then x ⟨j.val, h⟩ k else 0

/-! ### The dense form -/
def kH1 (j : Fin 10240) (c : Fin 512) : EReal := ∑ k, xpad x j k * W1 k c
def kG1 (i : Fin 10240) (c : Fin 512) : EReal := max ((∑ j, adj n sN dN i j * kH1 x W1 j c) + b1 c) 0
def kH2 (j : Fin 10240) (c : Fin 256) : EReal := ∑ k, kG1 x W1 b1 n sN dN j k * W2 k c
def kZ (i : Fin 10240) (c : Fin 256) : EReal := (∑ j, adj n sN dN i j * kH2 x W1 b1 W2 n sN dN j c) + b2 c

/-! ### The edge-list form -/
def rH1 (j : Fin 10000) (c : Fin 512) : EReal := ∑ k, x j k * W1 k c
/-- One aggregation: the source rows scaled by the edge weights, added up at the destination. -/
def rAgg (H : Fin 10000 → EReal) (i : Fin 10000) : EReal := ∑ e ∈ univ.filter (fun e => dN e = i), H (sN e) * n e
def rG1 (i : Fin 10000) (c : Fin 512) : EReal := max (rAgg n sN dN (fun j => rH1 x W1 j c) i + b1 c) 0
def rH2 (j : Fin 10000) (c : Fin 256) : EReal := ∑ k, rG1 x W1 b1 n sN dN j k * W2 k c
def rZ (i : Fin 10000) (c : Fin 256) : EReal := rAgg n sN dN (fun j => rH2 x W1 b1 W2 n sN dN j c) i + b2 c

/-- One layer: row `i < 10000` of the dense product with the adjacency is the edge-list aggregation of the unpadded rows. -/
theorem layer (H : Fin 10240 → EReal) (hn : ∀ e, IsR (n e)) (hH : ∀ j, IsR (H j)) (i : Fin 10000) :
    ∑ j, adj n sN dN (up i) j * H j = rAgg n sN dN (fun j => H (up j)) i := by
  unfold rAgg
  rw [← agg_law n H hn hH (fun e => dN e = i) (fun e => up (sN e))]
  refine Finset.sum_congr rfl fun j _ => ?_
  unfold adj
  have hf : univ.filter (fun e => (dN e).val = (up i).val ∧ (sN e).val = j.val)
      = univ.filter (fun e => dN e = i ∧ up (sN e) = j) :=
    Finset.filter_congr fun e _ => by simp [up, Fin.ext_iff]
  rw [hf]

theorem adj_real (hn : ∀ e, IsR (n e)) (i j : Fin 10240) : IsR (adj n sN dN i j) :=
  IsR.sum _ _ fun e _ => hn e

theorem xpad_real (hx : ∀ j k, IsR (x j k)) (j : Fin 10240) (k : Fin 512) : IsR (xpad x j k) := by
  unfold xpad; split
  · exact hx _ _
  · exact IsR.zero

theorem xpad_up (j : Fin 10000) (k : Fin 512) : xpad x (up j) k = x j k := by
  unfold xpad; rw [dif_pos (show (up j).val < 10000 from j.isLt)]; rfl

theorem kH1_up (j : Fin 10000) (c : Fin 512) : kH1 x W1 (up j) c = rH1 x W1 j c := by
  unfold kH1 rH1; exact Finset.sum_congr rfl fun k _ => by rw [xpad_up]

theorem kH1_real (hx : ∀ j k, IsR (x j k)) (hW1 : ∀ k c, IsR (W1 k c)) (j : Fin 10240) (c : Fin 512) : IsR (kH1 x W1 j c) :=
  IsR.sum _ _ fun k _ => (xpad_real x hx j k).mul (hW1 k c)

theorem kG1_up (hx : ∀ j k, IsR (x j k)) (hW1 : ∀ k c, IsR (W1 k c)) (hn : ∀ e, IsR (n e)) (i : Fin 10000) (c : Fin 512) :
    kG1 x W1 b1 n sN dN (up i) c = rG1 x W1 b1 n sN dN i c := by
  unfold kG1 rG1
  rw [layer n sN dN (fun j => kH1 x W1 j c) hn (fun j => kH1_real x W1 hx hW1 j c) i]
  simp only [kH1_up]

theorem kG1_real (hx : ∀ j k, IsR (x j k)) (hW1 : ∀ k c, IsR (W1 k c)) (hb1 : ∀ c, IsR (b1 c)) (hn : ∀ e, IsR (n e))
    (i : Fin 10240) (c : Fin 512) : IsR (kG1 x W1 b1 n sN dN i c) :=
  IsR.max ((IsR.sum _ _ fun j _ => (adj_real n sN dN hn i j).mul (kH1_real x W1 hx hW1 j c)).add (hb1 c)) IsR.zero

theorem kH2_up (hx : ∀ j k, IsR (x j k)) (hW1 : ∀ k c, IsR (W1 k c)) (hn : ∀ e, IsR (n e)) (j : Fin 10000) (c : Fin 256) :
    kH2 x W1 b1 W2 n sN dN (up j) c = rH2 x W1 b1 W2 n sN dN j c := by
  unfold kH2 rH2; exact Finset.sum_congr rfl fun k _ => by rw [kG1_up x W1 b1 n sN dN hx hW1 hn]

theorem kH2_real (hx : ∀ j k, IsR (x j k)) (hW1 : ∀ k c, IsR (W1 k c)) (hb1 : ∀ c, IsR (b1 c)) (hW2 : ∀ k c, IsR (W2 k c))
    (hn : ∀ e, IsR (n e)) (j : Fin 10240) (c : Fin 256) : IsR (kH2 x W1 b1 W2 n sN dN j c) :=
  IsR.sum _ _ fun k _ => (kG1_real x W1 b1 n sN dN hx hW1 hb1 hn j k).mul (hW2 k c)

/-- Row `i < 10000` of the dense two-layer result is the edge-list two-layer result, for real inputs and real edge weights. -/
theorem bridge (hx : ∀ j k, IsR (x j k)) (hW1 : ∀ k c, IsR (W1 k c)) (hb1 : ∀ c, IsR (b1 c)) (hW2 : ∀ k c, IsR (W2 k c))
    (hn : ∀ e, IsR (n e)) (i : Fin 10000) (c : Fin 256) :
    kZ x W1 b1 W2 b2 n sN dN (up i) c = rZ x W1 b1 W2 b2 n sN dN i c := by
  unfold kZ rZ
  rw [layer n sN dN (fun j => kH2 x W1 b1 W2 n sN dN j c) hn (fun j => kH2_real x W1 b1 W2 n sN dN hx hW1 hb1 hW2 hn j c) i]
  simp only [kH2_up x W1 b1 W2 n sN dN hx hW1 hn]

end

end Cert.Bridge

end
-- ==== Proof.KGlue.lean ====
/-
  The kernel's four regions compute the dense form of the two-layer convolution.

  With the buffers the host operations prepared — the padded features, the two weight matrices, a zero bias row for the two
  projection calls and the two real bias rows for the two aggregation calls — and the adjacency `adjK` in its buffer, the four
  regions' output arrays are, in order: `kH1 = x_pad · W1`, `kG1 = relu (adj · kH1 + b1)`, `kH2 = kG1 · W2` and
  `kZ = adj · kH2 + b2`, each over all 10240 padded rows. Each step is the region's matrix product read at an entry, with the
  operands replaced by what the earlier steps showed them to be.
-/
import proofs.«109809_j64716567216668_1_alg».proof.Proof.KCarry
import proofs.«109809_j64716567216668_1_alg».proof.Proof.KHostEntry
import proofs.«109809_j64716567216668_1_alg».proof.Proof.Region0
import proofs.«109809_j64716567216668_1_alg».proof.Proof.Region1
import proofs.«109809_j64716567216668_1_alg».proof.Proof.Region2
import proofs.«109809_j64716567216668_1_alg».proof.Proof.Region3
import proofs.«109809_j64716567216668_1_alg».proof.Proof.Bridge

set_option maxRecDepth 16384

noncomputable section

namespace Cert.KernelIdeal.KGlue

open Cert.KernelIdeal Cert.KernelIdeal.Gen Idealize.ShloMosaic Idealize.ShloMosaic.TcCoe Idealize.SL.Sem
open Idealize.ShloMosaic.ValueIdx Cert.Bridge Finset

variable (m : (ℓ : Loc nD τ sig) → Buf (Elt Ideal) ℓ) (ρ : Dev nD → PrngReg) (c : Dev nD)

/-- The argument arrays' entries. -/
def xa (j : Fin 10000) (k : Fin 512) : EReal := (m ((c : Thread nD τ).loc main_arg0) : S10000x512.Idx → EReal) (ix2 j k)
def w1 (k : Fin 512) (q : Fin 512) : EReal := (m ((c : Thread nD τ).loc main_arg2) : S512x512.Idx → EReal) (ix2 k q)
def bb1 (q : Fin 512) : EReal := (m ((c : Thread nD τ).loc main_arg3) : S512.Idx → EReal) (ix1 q)
def w2 (k : Fin 512) (q : Fin 256) : EReal := (m ((c : Thread nD τ).loc main_arg4) : S512x256.Idx → EReal) (ix2 k q)
def bb2 (q : Fin 256) : EReal := (m ((c : Thread nD τ).loc main_arg5) : S256.Idx → EReal) (ix1 q)

/-! ### The buffers, typed -/
abbrev xpK : S10240x512.Idx → EReal := W5 m ρ c (Proc.devRef .tc main_v47)
abbrev w1K : S512x512.Idx → EReal := W5 m ρ c (Proc.devRef .tc main_v48)
abbrev z512K : S1x512.Idx → EReal := W5 m ρ c (Proc.devRef .tc main_v50)
abbrev adjK : S10240x10240.Idx → EReal := W5 m ρ c (Proc.devRef .tc main_v45)
abbrev b1K : S1x512.Idx → EReal := W5 m ρ c (Proc.devRef .tc main_v52)
abbrev w2K : S512x256.Idx → EReal := W5 m ρ c (Proc.devRef .tc main_v49)
abbrev z256K : S1x256.Idx → EReal := W5 m ρ c (Proc.devRef .tc main_v51)
abbrev b2K : S1x256.Idx → EReal := W5 m ρ c (Proc.devRef .tc main_v53)
abbrev h1K : S10240x512.Idx → EReal := W6 m ρ c (Proc.devRef .tc main_v54)
abbrev g1K : S10240x512.Idx → EReal := W7 m ρ c (Proc.devRef .tc main_v55)
abbrev h2K : S10240x256.Idx → EReal := W8 m ρ c (Proc.devRef .tc main_v56)
abbrev zK : S10240x256.Idx → EReal := W9 m ρ c (Proc.devRef .tc main_v57)

/-- Region 0: the projected features. -/
theorem lvl1 (p : Fin 10240) (q : Fin 512) : h1K m ρ c (ix2 p q) = kH1 (xa m c) (w1 m c) p q := by
  have e0 : h1K m ρ c (ix2 p q) = ((dat0 (F := Ideal) (V5 m ρ) c).arrAt 3 cfg0.N : S10240x512.Idx → EReal) (ix2 p q) :=
    congrFun (Carry.out0 m ρ c) (ix2 p q)
  have e1 := RegionValue.region0_out_of (V5 m ρ) c (xpK m ρ c) (w1K m ρ c) (z512K m ρ c) rfl rfl rfl p q
  have hz : z512K m ρ c (ix2 (0 : Fin 1) q) = 0 := HostRead.zrow512_apply m ρ c q
  have hs : (∑ k : Fin 512, xpK m ρ c (ix2 p k) * w1K m ρ c (ix2 k q)) = kH1 (xa m c) (w1 m c) p q := by
    unfold kH1
    refine Finset.sum_congr rfl fun k _ => ?_
    have hx : xpK m ρ c (ix2 p k) = xpad (xa m c) p k := HostRead.xpad_apply m ρ c p k
    have hw : w1K m ρ c (ix2 k q) = w1 m c k q := congrFun (HostRead.w1_eq m ρ c) (ix2 k q)
    rw [hx, hw]
  rw [e0, e1, hz, add_zero, hs]

section
variable (n : Fin 170000 → EReal) (sN dN : Fin 170000 → Fin 10000)
  (hadj : ∀ i j : Fin 10240, adjK m ρ c (ix2 i j) = adj n sN dN i j)
include hadj

/-- Region 1: the hidden layer. -/
theorem lvl2 (p : Fin 10240) (q : Fin 512) : g1K m ρ c (ix2 p q) = kG1 (xa m c) (w1 m c) (bb1 m c) n sN dN p q := by
  have e0 : g1K m ρ c (ix2 p q) = ((dat1 (F := Ideal) (V6 m ρ) c).arrAt 3 cfg1.N : S10240x512.Idx → EReal) (ix2 p q) :=
    congrFun (Carry.out1 m ρ c) (ix2 p q)
  have e1 := RegionValue.region1_out_of (V6 m ρ) c (adjK m ρ c) (h1K m ρ c) (b1K m ρ c) (Carry.adj6 m ρ c) rfl (Carry.bias6 m ρ c) p q
  have hb : b1K m ρ c (ix2 (0 : Fin 1) q) = bb1 m c q := HostRead.b1row_apply m ρ c q
  have hs : (∑ k : Fin 10240, adjK m ρ c (ix2 p k) * h1K m ρ c (ix2 k q)) = ∑ j, adj n sN dN p j * kH1 (xa m c) (w1 m c) j q :=
    Finset.sum_congr rfl fun j _ => by rw [hadj p j, lvl1 m ρ c j q]
  have hz : FloatOps.ofBits (F := Ideal) .f32 0x00000000#32 = (0 : EReal) := Ideal.ofBits_zero_f32
  rw [e0, e1, hs, hb, hz]
  rfl

/-- Region 2: the hidden layer projected. -/
theorem lvl3 (p : Fin 10240) (q : Fin 256) : h2K m ρ c (ix2 p q) = kH2 (xa m c) (w1 m c) (bb1 m c) (w2 m c) n sN dN p q := by
  have e0 : h2K m ρ c (ix2 p q) = ((dat2 (F := Ideal) (V7 m ρ) c).arrAt 3 cfg2.N : S10240x256.Idx → EReal) (ix2 p q) :=
    congrFun (Carry.out2 m ρ c) (ix2 p q)
  have e1 := RegionValue.region2_out_of (V7 m ρ) c (g1K m ρ c) (w2K m ρ c) (z256K m ρ c) rfl (Carry.wgt7 m ρ c) (Carry.zero7 m ρ c) p q
  have hz : z256K m ρ c (ix2 (0 : Fin 1) q) = 0 := HostRead.zrow256_apply m ρ c q
  have hs : (∑ k : Fin 512, g1K m ρ c (ix2 p k) * w2K m ρ c (ix2 k q)) = kH2 (xa m c) (w1 m c) (bb1 m c) (w2 m c) n sN dN p q := by
    unfold kH2
    refine Finset.sum_congr rfl fun k _ => ?_
    have hw : w2K m ρ c (ix2 k q) = w2 m c k q := congrFun (HostRead.w2_eq m ρ c) (ix2 k q)
    rw [lvl2 m ρ c n sN dN hadj p k, hw]
  rw [e0, e1, hz, add_zero, hs]

/-- Region 3: the result over the padded rows. -/
theorem lvl4 (p : Fin 10240) (q : Fin 256) :
    zK m ρ c (ix2 p q) = kZ (xa m c) (w1 m c) (bb1 m c) (w2 m c) (bb2 m c) n sN dN p q := by
  have e0 : zK m ρ c (ix2 p q) = ((dat3 (F := Ideal) (V8 m ρ) c).arrAt 3 cfg3.N : S10240x256.Idx → EReal) (ix2 p q) :=
    congrFun (Carry.out3 m ρ c) (ix2 p q)
  have e1 := RegionValue.region3_out_of (V8 m ρ) c (adjK m ρ c) (h2K m ρ c) (b2K m ρ c) (Carry.adj8 m ρ c) rfl (Carry.bias8 m ρ c) p q
  have hb : b2K m ρ c (ix2 (0 : Fin 1) q) = bb2 m c q := HostRead.b2row_apply m ρ c q
  have hs : (∑ k : Fin 10240, adjK m ρ c (ix2 p k) * h2K m ρ c (ix2 k q))
      = ∑ j, adj n sN dN p j * kH2 (xa m c) (w1 m c) (bb1 m c) (w2 m c) n sN dN j q :=
    Finset.sum_congr rfl fun j _ => by rw [hadj p j, lvl3 m ρ c n sN dN hadj j q]
  rw [e0, e1, hs, hb]
  rfl
end

end Cert.KernelIdeal.KGlue

end
-- ==== Proof.KHostTail.lean ====
/- The kernel's last host operation: the returned array is the leading 10000 rows of the last region's
   10240-row output. -/
import proofs.«109809_j64716567216668_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostRead

open Idealize.ShloMosaic Idealize.ShloMosaic.TcCoe Idealize.ShloMosaic.StableHlo Idealize.ShloMosaic.ValueIdx
open Idealize.SL Idealize.SL.Sem
open Cert.KernelIdeal.Gen

variable (m : (ℓ : Loc nD τ sig) → Buf (Elt Ideal) ℓ) (ρ : Dev nD → PrngReg) (c : Dev nD)

/-- The result array is the slice [0:10000, 0:256] of the last region's output array. -/
theorem result_eq_slice :
    (Gen.W10 m ρ c (Proc.devRef .tc main_v58) : S10000x256.Idx → EReal)
      = extractStridedSlice S10000x256 ![0, 0] (Gen.W9 m ρ c (Proc.devRef .tc main_v57) : S10240x256.Idx → EReal)
          slices_S10240x256_S10000x256_0_0 := by
  show StableHlo.after Gen.hostOps4 (Gen.W9 m ρ c) (Proc.devRef .tc main_v58) = _
  dsimp only [Gen.hostOps4]
  after_results

/-- Entry (i, q) of the result is entry (i, q) of the last region's output, for i < 10000. -/
theorem result_apply (i : Fin 10000) (q : Fin 256) :
    (Gen.W10 m ρ c (Proc.devRef .tc main_v58) : S10000x256.Idx → EReal) (ix2 i q)
      = (Gen.W9 m ρ c (Proc.devRef .tc main_v57) : S10240x256.Idx → EReal)
          (ix2 (⟨i.val, by have := i.isLt; omega⟩ : Fin 10240) q) := by
  rw [result_eq_slice]
  exact extractStridedSlice_apply (s := S10240x256) (t := S10000x256) ![0, 0]
    (Gen.W9 m ρ c (Proc.devRef .tc main_v57) : S10240x256.Idx → EReal) slices_S10240x256_S10000x256_0_0 (ix2 i q)
    (ix2 (⟨i.val, by have := i.isLt; omega⟩ : Fin 10240) q) (fun a => match a with
    | ⟨0, _⟩ => by show i.val = 0 + i.val; omega
    | ⟨1, _⟩ => by show q.val = 0 + q.val; omega)

end Cert.KernelIdeal.HostRead
-- ==== Proof.LibHostIdx.lean ====
/-
  Host shape operations READ AT AN INDEX, for the dimension numbers of row gathers, row scatters, scatters at index pairs,
  two-piece concatenations and a vector's iota.

  `gather_rows_apply`: a gather of whole rows of an `[N, C]` operand at a column `[E, 1]` of start indices reads, at
  `(e, c)`, the operand at row `idx[e, 0]` (signed, clamped into `[0, N − 1]`) and column `c`.
  `scatterAdd_rows_apply`: at the ideal instance an accumulating scatter of the rows of `[E, C]` updates into an `[N, C]`
  operand reads, at `(i, c)`, the operand's element plus the sum of `upd (e, c)` over the rows `e` whose index word, read
  signed, is `i` (an index outside `[0, N)` meets no `i`: the update is dropped).
  `scatterAdd_pair_apply`: the same for single elements scattered at (row, column) pairs `[E, 2]`.
  `concat1_apply_left` / `_right`, `concatCols_apply0` / `_apply1`: two vectors end to end, two columns side by side.
  `iota1_apply`, `iota1_toInt`: a vector's iota is the position, as a word and read signed.
  `gather_vec_apply`, `scatterAdd_vec_apply`: the same gather and accumulating scatter for single entries of a vector `[N]`.
-/
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.HostIdx

open Idealize.ShloMosaic Idealize.ShloMosaic.ValueIdx

/-- An axis of a rank-2 shape is axis 0 or axis 1. -/
theorem fin2_cases (a : Fin 2) : a = 0 ∨ a = 1 := by
  rcases a with ⟨v, hv⟩
  interval_cases v
  · exact Or.inl rfl
  · exact Or.inr rfl

/-! ## Gather of rows: operand [N, C] at a column [E, 1] of start indices -/

section GatherRows
variable {α : Type}

/-- The dimension numbers of a gather of whole rows: operand `[N, C]`, start indices `[E, 1]`, result `[E, C]`;
    the result's axis 1 is the offset axis, the operand's axis 0 is collapsed and is the one the start index names. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, c)` of a gather of rows is the operand at row `idx[e, 0]` (read signed, clamped into
    `[0, N - 1]`) and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c)
      = x (ix2 ⟨min (idx (ix2 e (0 : Fin 1))).toInt.toNat (N - 1), by omega⟩ c) := by
  unfold Host.gather
  congr 1
  funext a
  refine Fin.ext ?_
  show (rowsDims N E C wf).start (ix2 e c) idx a + (rowsDims N E C wf).batchCoord (ix2 e c) a
    + (rowsDims N E C wf).offCoord (ix2 e c) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      rcases fin2_cases b with rfl | rfl
      · rfl
      · rfl
    rw [hsi]
    rfl
  · have hs : (rowsDims N E C wf).start (ix2 e c) idx (1 : Fin 2) = 0 := by
      unfold GatherDims.start
      rw [dif_neg (show (1 : Fin 2) ∉ ([0] : List (Fin 2)) by decide)]
    have ho : (rowsDims N E C wf).offCoord (ix2 e c) (1 : Fin 2) = c.val := by
      unfold GatherDims.offCoord
      rw [dif_pos ((GatherDims.mem_sKept _ _).mpr
        ⟨(show (1 : Fin 2) ∉ ([0] : List (Fin 2)) by decide), List.not_mem_nil⟩)]
      rfl
    rw [hs, ho]
    show 0 + 0 + c.val = c.val
    omega

/-- The same with the index word known to be a row number: no clamp. -/
theorem gather_rows_apply_of_lt {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C)
    (h0 : 0 ≤ (idx (ix2 e (0 : Fin 1))).toInt) (hlt : (idx (ix2 e (0 : Fin 1))).toInt < (N : Int)) :
    Host.gather (rowsDims N E C wf) x idx (ix2 e c)
      = x (ix2 ⟨(idx (ix2 e (0 : Fin 1))).toInt.toNat, by omega⟩ c) := by
  rw [gather_rows_apply (by omega) wf x idx e c]
  congr 2
  refine Fin.ext ?_
  show min (idx (ix2 e (0 : Fin 1))).toInt.toNat (N - 1) = (idx (ix2 e (0 : Fin 1))).toInt.toNat
  omega

end GatherRows

/-! ## Accumulating scatter of rows at the ideal instance: operand [N, C], a column [E, 1] of indices, updates [E, C] -/

section ScatterRows

/-- The dimension numbers of a scatter of whole rows: operand `[N, C]`, scatter indices `[E, 1]`, updates `[E, C]`;
    the updates' axis 1 is the window axis, the operand's axis 0 is inserted and is the one the index names. -/
abbrev scatterRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis the window starts at the index word, read signed. -/
theorem scatterRows_start0 (e : Fin E) (c : Fin C) :
    (scatterRowsDims N E C wf).start (ix2 e c) idx (0 : Fin 2) = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e c)
      ⟨List.idxOf (0 : Fin 2) (scatterRowsDims N E C wf).scatterDimsToOperandDims,
        List.idxOf_lt_length_iff.2 (List.mem_singleton.mpr rfl)⟩ = ix2 e (0 : Fin 1) := by
    funext b; refine Fin.ext ?_
    rcases fin2_cases b with rfl | rfl
    · rfl
    · rfl
  rw [hsi]

/-- On the column axis the window starts at 0. -/
theorem scatterRows_start1 (e : Fin E) (c : Fin C) :
    (scatterRowsDims N E C wf).start (ix2 e c) idx (1 : Fin 2) = 0 := by
  unfold ScatterDims.start
  rw [dif_neg (show (1 : Fin 2) ∉ ([0] : List (Fin 2)) by decide)]

/-- The row axis is inserted: its window coordinate is 0. -/
theorem scatterRows_window0 (e : Fin E) (c : Fin C) :
    (scatterRowsDims N E C wf).window (ix2 e c) (0 : Fin 2) = 0 := by
  unfold ScatterDims.window
  rw [dif_neg (show (0 : Fin 2) ∉ (Shape.kept ⟨2, ![N, C]⟩ ([0] : List (Fin 2))) by
    simp [Shape.kept, List.mem_filter])]

/-- The column axis carries the update's column. -/
theorem scatterRows_window1 (e : Fin E) (c : Fin C) :
    (scatterRowsDims N E C wf).window (ix2 e c) (1 : Fin 2) = c.val := by
  unfold ScatterDims.window
  rw [dif_pos (show (1 : Fin 2) ∈ (Shape.kept ⟨2, ![N, C]⟩ ([0] : List (Fin 2))) by
    simp [Shape.kept, List.mem_filter, List.mem_finRange])]
  rfl

/-- Update `(e, c')` lands on operand element `(i, c)` exactly when the index word of row `e` is `i` and the columns agree. -/
theorem scatterRows_resultIdx_iff (e : Fin E) (c' : Fin C) (i : Fin N) (c : Fin C) :
    (scatterRowsDims N E C wf).resultIdx? (ix2 e c') idx = some (ix2 i c)
      ↔ (idx (ix2 e (0 : Fin 1))).toInt = (i.val : Int) ∧ c' = c := by
  have h0s := scatterRows_start0 wf idx e c'
  have h1s := scatterRows_start1 wf idx e c'
  have h0w := scatterRows_window0 (N := N) wf e c'
  have h1w := scatterRows_window1 (N := N) wf e c'
  unfold ScatterDims.resultIdx?
  constructor
  · intro h
    split at h
    · next hall =>
      have hf := Option.some.inj h
      have e0 := congrArg Fin.val (congrFun hf (0 : Fin 2))
      have e1 := congrArg Fin.val (congrFun hf (1 : Fin 2))
      have b0 := hall (0 : Fin 2)
      have b1 := hall (1 : Fin 2)
      rw [h0s, h0w] at b0
      rw [h1s, h1w] at b1
      have e0' : ((scatterRowsDims N E C wf).start (ix2 e c') idx (0 : Fin 2)
          + ((scatterRowsDims N E C wf).window (ix2 e c') (0 : Fin 2) : Int)).toNat = i.val := e0
      have e1' : ((scatterRowsDims N E C wf).start (ix2 e c') idx (1 : Fin 2)
          + ((scatterRowsDims N E C wf).window (ix2 e c') (1 : Fin 2) : Int)).toNat = c.val := e1
      rw [h0s, h0w] at e0'
      rw [h1s, h1w] at e1'
      refine ⟨?_, Fin.ext ?_⟩
      · omega
      · omega
    · exact absurd h (by simp)
  · rintro ⟨hi, rfl⟩
    have hall : ∀ a, 0 ≤ (scatterRowsDims N E C wf).start (ix2 e c') idx a + (scatterRowsDims N E C wf).window (ix2 e c') a
        ∧ (scatterRowsDims N E C wf).start (ix2 e c') idx a + (scatterRowsDims N E C wf).window (ix2 e c') a
          < (⟨2, ![N, C]⟩ : Shape).size a := by
      intro a
      rcases fin2_cases a with rfl | rfl
      · rw [h0s, h0w, hi]
        show 0 ≤ (i.val : Int) + ((0 : Nat) : Int) ∧ (i.val : Int) + ((0 : Nat) : Int) < (N : Int)
        have := i.isLt
        omega
      · rw [h1s, h1w]
        show 0 ≤ (0 : Int) + (c'.val : Int) ∧ (0 : Int) + (c'.val : Int) < (C : Int)
        have := c'.isLt
        omega
    rw [dif_pos hall]
    congr 1
    funext a
    refine Fin.ext ?_
    rcases fin2_cases a with rfl | rfl
    · show ((scatterRowsDims N E C wf).start (ix2 e c') idx (0 : Fin 2)
        + (scatterRowsDims N E C wf).window (ix2 e c') (0 : Fin 2)).toNat = i.val
      rw [h0s, h0w, hi]
      omega
    · show ((scatterRowsDims N E C wf).start (ix2 e c') idx (1 : Fin 2)
        + (scatterRowsDims N E C wf).window (ix2 e c') (1 : Fin 2)).toNat = c'.val
      rw [h1s, h1w]
      omega

/-- THE ACCUMULATING SCATTER OF ROWS READ AT `(i, c)`: the operand's element plus the updates' column `c` summed over
    the rows `e` whose index word, read signed, is `i`. -/
theorem scatterAdd_rows_apply (x : (⟨2, ![N, C]⟩ : Shape).Idx → EReal) (upd : (⟨2, ![E, C]⟩ : Shape).Idx → EReal)
    (i : Fin N) (c : Fin C) :
    Ideal.hostScatterAdd (scatterRowsDims N E C wf) x idx upd (ix2 i c)
      = x (ix2 i c) + ∑ e ∈ Finset.univ.filter (fun e : Fin E => (idx (ix2 e (0 : Fin 1))).toInt = (i.val : Int)),
          upd (ix2 e c) := by
  unfold Ideal.hostScatterAdd
  congr 1
  have hset : Finset.univ.filter (fun j => (scatterRowsDims N E C wf).resultIdx? j idx = some (ix2 i c))
      = (Finset.univ.filter (fun e : Fin E => (idx (ix2 e (0 : Fin 1))).toInt = (i.val : Int))).image
          (fun e => (ix2 e c : (⟨2, ![E, C]⟩ : Shape).Idx)) := by
    ext j
    obtain ⟨e, c', rfl⟩ : ∃ e c', j = ix2 e c' := ⟨j 0, j 1, eq_ix2 j⟩
    simp only [Finset.mem_filter, Finset.mem_univ, true_and, Finset.mem_image]
    rw [scatterRows_resultIdx_iff]
    constructor
    · rintro ⟨h, rfl⟩
      exact ⟨e, h, rfl⟩
    · rintro ⟨e', h, heq⟩
      have h0 : e' = e := congrFun heq (0 : Fin 2)
      have h1 : c = c' := congrFun heq (1 : Fin 2)
      subst h0
      exact ⟨h, h1.symm⟩
  rw [hset, Finset.sum_image]
  intro a _ b _ hab
  exact congrFun hab (0 : Fin 2)

end ScatterRows

/-! ## Accumulating scatter at a pair of indices, at the ideal instance: operand [N, M], indices [E, 2], updates [E] -/

section ScatterPair

/-- The dimension numbers of a scatter of single elements at (row, column) pairs: operand `[N, M]`, scatter indices
    `[E, 2]`, updates `[E]`; no window axis, both operand axes inserted, index component `k` names operand axis `k`. -/
abbrev scatterPairDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)
  (idx : IVec ⟨2, ![E, 2]⟩ w)

/-- On the row axis the window starts at the first index word, read signed. -/
theorem scatterPair_start0 (e : Fin E) :
    (scatterPairDims N M E wf).start (ix1 e) idx (0 : Fin 2) = (idx (ix2 e (0 : Fin 2))).toInt := by
  unfold ScatterDims.start
  rw [dif_pos (show (0 : Fin 2) ∈ ([0, 1] : List (Fin 2)) by decide)]
  have hsi : (scatterPairDims N M E wf).siIdx (ix1 e)
      ⟨List.idxOf (0 : Fin 2) (scatterPairDims N M E wf).scatterDimsToOperandDims,
        List.idxOf_lt_length_iff.2 (show (0 : Fin 2) ∈ ([0, 1] : List (Fin 2)) by decide)⟩ = ix2 e (0 : Fin 2) := by
    funext b; refine Fin.ext ?_
    rcases fin2_cases b with rfl | rfl
    · rfl
    · rfl
  rw [hsi]

/-- On the column axis the window starts at the second index word, read signed. -/
theorem scatterPair_start1 (e : Fin E) :
    (scatterPairDims N M E wf).start (ix1 e) idx (1 : Fin 2) = (idx (ix2 e (1 : Fin 2))).toInt := by
  unfold ScatterDims.start
  rw [dif_pos (show (1 : Fin 2) ∈ ([0, 1] : List (Fin 2)) by decide)]
  have hsi : (scatterPairDims N M E wf).siIdx (ix1 e)
      ⟨List.idxOf (1 : Fin 2) (scatterPairDims N M E wf).scatterDimsToOperandDims,
        List.idxOf_lt_length_iff.2 (show (1 : Fin 2) ∈ ([0, 1] : List (Fin 2)) by decide)⟩ = ix2 e (1 : Fin 2) := by
    funext b; refine Fin.ext ?_
    rcases fin2_cases b with rfl | rfl
    · rfl
    · rfl
  rw [hsi]

/-- Both operand axes are inserted: every window coordinate is 0. -/
theorem scatterPair_window (e : Fin E) (a : Fin 2) :
    (scatterPairDims N M E wf).window (ix1 e) a = 0 := by
  unfold ScatterDims.window
  rw [dif_neg (show a ∉ (Shape.kept ⟨2, ![N, M]⟩ ([0, 1] : List (Fin 2))) by
    rcases fin2_cases a with rfl | rfl <;> simp [Shape.kept, List.mem_filter])]

/-- Update `e` lands on operand element `(i, j)` exactly when its two index words are `i` and `j`. -/
theorem scatterPair_resultIdx_iff (e : Fin E) (i : Fin N) (j : Fin M) :
    (scatterPairDims N M E wf).resultIdx? (ix1 e) idx = some (ix2 i j)
      ↔ (idx (ix2 e (0 : Fin 2))).toInt = (i.val : Int) ∧ (idx (ix2 e (1 : Fin 2))).toInt = (j.val : Int) := by
  have h0s := scatterPair_start0 wf idx e
  have h1s := scatterPair_start1 wf idx e
  have h0w := scatterPair_window (N := N) (M := M) wf e (0 : Fin 2)
  have h1w := scatterPair_window (N := N) (M := M) wf e (1 : Fin 2)
  unfold ScatterDims.resultIdx?
  constructor
  · intro h
    split at h
    · next hall =>
      have hf := Option.some.inj h
      have e0 := congrArg Fin.val (congrFun hf (0 : Fin 2))
      have e1 := congrArg Fin.val (congrFun hf (1 : Fin 2))
      have b0 := hall (0 : Fin 2)
      have b1 := hall (1 : Fin 2)
      rw [h0s, h0w] at b0
      rw [h1s, h1w] at b1
      have e0' : ((scatterPairDims N M E wf).start (ix1 e) idx (0 : Fin 2)
          + ((scatterPairDims N M E wf).window (ix1 e) (0 : Fin 2) : Int)).toNat = i.val := e0
      have e1' : ((scatterPairDims N M E wf).start (ix1 e) idx (1 : Fin 2)
          + ((scatterPairDims N M E wf).window (ix1 e) (1 : Fin 2) : Int)).toNat = j.val := e1
      rw [h0s, h0w] at e0'
      rw [h1s, h1w] at e1'
      refine ⟨?_, ?_⟩
      · omega
      · omega
    · exact absurd h (by simp)
  · rintro ⟨hi, hj⟩
    have hall : ∀ a, 0 ≤ (scatterPairDims N M E wf).start (ix1 e) idx a + (scatterPairDims N M E wf).window (ix1 e) a
        ∧ (scatterPairDims N M E wf).start (ix1 e) idx a + (scatterPairDims N M E wf).window (ix1 e) a
          < (⟨2, ![N, M]⟩ : Shape).size a := by
      intro a
      rcases fin2_cases a with rfl | rfl
      · rw [h0s, h0w, hi]
        show 0 ≤ (i.val : Int) + ((0 : Nat) : Int) ∧ (i.val : Int) + ((0 : Nat) : Int) < (N : Int)
        have := i.isLt
        omega
      · rw [h1s, h1w, hj]
        show 0 ≤ (j.val : Int) + ((0 : Nat) : Int) ∧ (j.val : Int) + ((0 : Nat) : Int) < (M : Int)
        have := j.isLt
        omega
    rw [dif_pos hall]
    congr 1
    funext a
    refine Fin.ext ?_
    rcases fin2_cases a with rfl | rfl
    · show ((scatterPairDims N M E wf).start (ix1 e) idx (0 : Fin 2)
        + (scatterPairDims N M E wf).window (ix1 e) (0 : Fin 2)).toNat = i.val
      rw [h0s, h0w, hi]
      omega
    · show ((scatterPairDims N M E wf).start (ix1 e) idx (1 : Fin 2)
        + (scatterPairDims N M E wf).window (ix1 e) (1 : Fin 2)).toNat = j.val
      rw [h1s, h1w, hj]
      omega

/-- THE ACCUMULATING SCATTER AT PAIRS READ AT `(i, j)`: the operand's element plus the updates summed over the
    entries `e` whose two index words, read signed, are `i` and `j`. -/
theorem scatterAdd_pair_apply (x : (⟨2, ![N, M]⟩ : Shape).Idx → EReal) (upd : (⟨1, ![E]⟩ : Shape).Idx → EReal)
    (i : Fin N) (j : Fin M) :
    Ideal.hostScatterAdd (scatterPairDims N M E wf) x idx upd (ix2 i j)
      = x (ix2 i j) + ∑ e ∈ Finset.univ.filter (fun e : Fin E =>
          (idx (ix2 e (0 : Fin 2))).toInt = (i.val : Int) ∧ (idx (ix2 e (1 : Fin 2))).toInt = (j.val : Int)),
          upd (ix1 e) := by
  unfold Ideal.hostScatterAdd
  congr 1
  have hset : Finset.univ.filter (fun u => (scatterPairDims N M E wf).resultIdx? u idx = some (ix2 i j))
      = (Finset.univ.filter (fun e : Fin E =>
          (idx (ix2 e (0 : Fin 2))).toInt = (i.val : Int) ∧ (idx (ix2 e (1 : Fin 2))).toInt = (j.val : Int))).image
          (fun e => (ix1 e : (⟨1, ![E]⟩ : Shape).Idx)) := by
    ext u
    obtain ⟨e, rfl⟩ : ∃ e, u = ix1 e := ⟨u 0, eq_ix1 u⟩
    simp only [Finset.mem_filter, Finset.mem_univ, true_and, Finset.mem_image]
    rw [scatterPair_resultIdx_iff]
    constructor
    · intro h
      exact ⟨e, h, rfl⟩
    · rintro ⟨e', h, heq⟩
      have h0 : e' = e := congrFun heq (0 : Fin 1)
      subst h0
      exact h
  rw [hset, Finset.sum_image]
  intro a _ b _ hab
  exact congrFun hab (0 : Fin 1)

end ScatterPair

/-! ## Concatenations and an iota read at an index -/

section Concat
variable {α : Type}

/-- Two rank-1 pieces laid end to end, read in the first piece. -/
theorem concat1_apply_left {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (e : Fin n) (he : e.val < n₁) :
    concatenate ⟨1, ![n]⟩ 0 [⟨⟨1, ![n₁]⟩, x₁⟩, ⟨⟨1, ![n₂]⟩, x₂⟩] h (ix1 e) = x₁ (ix1 ⟨e.val, he⟩) :=
  concatenate_pair_apply_left (t := ⟨1, ![n]⟩) (s₁ := ⟨1, ![n₁]⟩) (s₂ := ⟨1, ![n₂]⟩) (0 : Fin 1) x₁ x₂ h _ rfl _
    (fun b => by
      obtain rfl : b = (0 : Fin 1) := Subsingleton.elim _ _
      rfl)

/-- Two rank-1 pieces laid end to end, read in the second piece. -/
theorem concat1_apply_right {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (e : Fin n) (he : n₁ ≤ e.val)
    (he₂ : e.val - n₁ < n₂) :
    concatenate ⟨1, ![n]⟩ 0 [⟨⟨1, ![n₁]⟩, x₁⟩, ⟨⟨1, ![n₂]⟩, x₂⟩] h (ix1 e) = x₂ (ix1 ⟨e.val - n₁, he₂⟩) :=
  concatenate_pair_apply_right (t := ⟨1, ![n]⟩) (s₁ := ⟨1, ![n₁]⟩) (s₂ := ⟨1, ![n₂]⟩) (0 : Fin 1) x₁ x₂ h _ rfl rfl _
    (fun b hb => by
      obtain rfl : b = (0 : Fin 1) := Subsingleton.elim _ _
      exact absurd rfl hb)
    (by show e.val - n₁ + n₁ = e.val; omega)

/-- Two `[E, 1]` columns side by side: column 0 of the result is the first. -/
theorem concatCols_apply0 {E : Nat} (x₁ x₂ : (⟨2, ![E, 1]⟩ : Shape).Idx → α)
    (h : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, x₁⟩, ⟨⟨2, ![E, 1]⟩, x₂⟩] h (ix2 e (0 : Fin 2)) = x₁ (ix2 e (0 : Fin 1)) :=
  concatenate_pair_apply_left (t := ⟨2, ![E, 2]⟩) (s₁ := ⟨2, ![E, 1]⟩) (s₂ := ⟨2, ![E, 1]⟩) (1 : Fin 2) x₁ x₂ h _ rfl _
    (fun b => by
      rcases fin2_cases b with rfl | rfl
      · rfl
      · rfl)

/-- Two `[E, 1]` columns side by side: column 1 of the result is the second. -/
theorem concatCols_apply1 {E : Nat} (x₁ x₂ : (⟨2, ![E, 1]⟩ : Shape).Idx → α)
    (h : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, x₁⟩, ⟨⟨2, ![E, 1]⟩, x₂⟩] h (ix2 e (1 : Fin 2)) = x₂ (ix2 e (0 : Fin 1)) :=
  concatenate_pair_apply_right (t := ⟨2, ![E, 2]⟩) (s₁ := ⟨2, ![E, 1]⟩) (s₂ := ⟨2, ![E, 1]⟩) (1 : Fin 2) x₁ x₂ h _ rfl rfl _
    (fun b hb => by
      rcases fin2_cases b with rfl | rfl
      · rfl
      · exact absurd rfl hb)
    rfl

end Concat

section Iota

/-- The iota along the one axis of a vector reads the position as a 32-bit word. -/
theorem iota1_apply {n : Nat} (i : Fin n) :
    iotaInDim (⟨1, ![n]⟩ : Shape) 32 (0 : Fin 1) (ix1 i) = BitVec.ofNat 32 i.val := rfl

/-- Read signed, that word is the position (positions below 2³¹). -/
theorem iota1_toInt {n : Nat} (hn : n ≤ 2147483648) (i : Fin n) :
    (iotaInDim (⟨1, ![n]⟩ : Shape) 32 (0 : Fin 1) (ix1 i)).toInt = (i.val : Int) := by
  rw [iota1_apply]
  have hi := i.isLt
  rw [BitVec.toInt_eq_toNat_cond, BitVec.toNat_ofNat]
  have hmod : i.val % 2 ^ 32 = i.val := Nat.mod_eq_of_lt (by omega)
  rw [hmod]
  rw [if_pos (by omega)]

end Iota

/-! ## Gather of a vector's entries and accumulating scatter into a vector, at a column [E, 1] of indices -/

section GatherVec
variable {α : Type}

/-- The dimension numbers of a gather of single entries: operand `[N]`, start indices `[E, 1]`, result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` is the operand at `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 ⟨min (idx (ix2 e (0 : Fin 1))).toInt.toNat (N - 1), by omega⟩) := by
  unfold Host.gather
  congr 1
  funext a
  obtain rfl : a = (0 : Fin 1) := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    rcases fin2_cases b with rfl | rfl
    · rfl
    · rfl
  rw [hsi]
  rfl

end GatherVec

section ScatterVec

/-- The dimension numbers of a scatter of single entries into a vector: operand `[N]`, indices `[E, 1]`, updates `[E]`. -/
abbrev scatterVecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

/-- The window starts at the index word, read signed. -/
theorem scatterVec_start (e : Fin E) :
    (scatterVecDims N E wf).start (ix1 e) idx (0 : Fin 1) = (idx (ix2 e (0 : Fin 1))).toInt := by
  unfold ScatterDims.start
  rw [dif_pos (show (0 : Fin 1) ∈ (scatterVecDims N E wf).scatterDimsToOperandDims from List.mem_singleton.mpr rfl)]
  have hsi : (scatterVecDims N E wf).siIdx (ix1 e)
      ⟨List.idxOf (0 : Fin 1) (scatterVecDims N E wf).scatterDimsToOperandDims,
        List.idxOf_lt_length_iff.2 (List.mem_singleton.mpr rfl)⟩ = ix2 e (0 : Fin 1) := by
    funext b; refine Fin.ext ?_
    rcases fin2_cases b with rfl | rfl
    · rfl
    · rfl
  rw [hsi]

/-- The one operand axis is inserted: its window coordinate is 0. -/
theorem scatterVec_window (e : Fin E) :
    (scatterVecDims N E wf).window (ix1 e) (0 : Fin 1) = 0 := by
  unfold ScatterDims.window
  rw [dif_neg (show (0 : Fin 1) ∉ (Shape.kept ⟨1, ![N]⟩ ([0] : List (Fin 1))) by
    simp [Shape.kept, List.mem_filter])]

/-- Update `e` lands on operand entry `i` exactly when its index word is `i`. -/
theorem scatterVec_resultIdx_iff (e : Fin E) (i : Fin N) :
    (scatterVecDims N E wf).resultIdx? (ix1 e) idx = some (ix1 i)
      ↔ (idx (ix2 e (0 : Fin 1))).toInt = (i.val : Int) := by
  have h0s := scatterVec_start wf idx e
  have h0w := scatterVec_window (N := N) wf e
  unfold ScatterDims.resultIdx?
  constructor
  · intro h
    split at h
    · next hall =>
      have hf := Option.some.inj h
      have e0 := congrArg Fin.val (congrFun hf (0 : Fin 1))
      have b0 := hall (0 : Fin 1)
      rw [h0s, h0w] at b0
      have e0' : ((scatterVecDims N E wf).start (ix1 e) idx (0 : Fin 1)
          + ((scatterVecDims N E wf).window (ix1 e) (0 : Fin 1) : Int)).toNat = i.val := e0
      rw [h0s, h0w] at e0'
      omega
    · exact absurd h (by simp)
  · intro hi
    have hall : ∀ a, 0 ≤ (scatterVecDims N E wf).start (ix1 e) idx a + (scatterVecDims N E wf).window (ix1 e) a
        ∧ (scatterVecDims N E wf).start (ix1 e) idx a + (scatterVecDims N E wf).window (ix1 e) a
          < (⟨1, ![N]⟩ : Shape).size a := by
      intro a
      obtain rfl : a = (0 : Fin 1) := Subsingleton.elim _ _
      rw [h0s, h0w, hi]
      show 0 ≤ (i.val : Int) + ((0 : Nat) : Int) ∧ (i.val : Int) + ((0 : Nat) : Int) < (N : Int)
      have := i.isLt
      omega
    rw [dif_pos hall]
    congr 1
    funext a
    obtain rfl : a = (0 : Fin 1) := Subsingleton.elim _ _
    refine Fin.ext ?_
    show ((scatterVecDims N E wf).start (ix1 e) idx (0 : Fin 1)
      + (scatterVecDims N E wf).window (ix1 e) (0 : Fin 1)).toNat = i.val
    rw [h0s, h0w, hi]
    omega

/-- THE ACCUMULATING SCATTER INTO A VECTOR READ AT `i`: the operand's entry plus the updates summed over the entries `e`
    whose index word, read signed, is `i`. -/
theorem scatterAdd_vec_apply (x : (⟨1, ![N]⟩ : Shape).Idx → EReal) (upd : (⟨1, ![E]⟩ : Shape).Idx → EReal) (i : Fin N) :
    Ideal.hostScatterAdd (scatterVecDims N E wf) x idx upd (ix1 i)
      = x (ix1 i) + ∑ e ∈ Finset.univ.filter (fun e : Fin E => (idx (ix2 e (0 : Fin 1))).toInt = (i.val : Int)),
          upd (ix1 e) := by
  unfold Ideal.hostScatterAdd
  congr 1
  have hset : Finset.univ.filter (fun u => (scatterVecDims N E wf).resultIdx? u idx = some (ix1 i))
      = (Finset.univ.filter (fun e : Fin E => (idx (ix2 e (0 : Fin 1))).toInt = (i.val : Int))).image
          (fun e => (ix1 e : (⟨1, ![E]⟩ : Shape).Idx)) := by
    ext u
    obtain ⟨e, rfl⟩ : ∃ e, u = ix1 e := ⟨u 0, eq_ix1 u⟩
    simp only [Finset.mem_filter, Finset.mem_univ, true_and, Finset.mem_image]
    rw [scatterVec_resultIdx_iff]
    constructor
    · intro h
      exact ⟨e, h, rfl⟩
    · rintro ⟨e', h, heq⟩
      have h0 : e' = e := congrFun heq (0 : Fin 1)
      subst h0
      exact h
  rw [hset, Finset.sum_image]
  intro a _ b _ hab
  exact congrFun hab (0 : Fin 1)

end ScatterVec

end Cert.HostIdx

end
-- ==== Proof.RefRead.lean ====
/-
  The reference's two graph-convolution layers READ AT AN INDEX.

  Each layer is `out[i, c] = (0 + ∑ over the edges e whose destination word is i of (∑ k, h[src e, k] · W[k, c]) · nrm e) + b[c]`:
  the rows of `h · W` gathered at the source words, scaled by the edge weight, accumulated at the destination words, plus
  the bias. `v46_read` is layer 1 (`h` the input features), `v47_read` the activation (maximum with zero), `v90_read` /
  `v90_read'` layer 2 (`h` the activated layer 1). The edge weight `nrm e` and the words are kept as the reference's own
  functions of the edge array; the hypothesis says every source word is a row number, under which the index wrap
  (`select (w < 0) (w + 10000) w`) and the gather's clamp are the identity. A destination word outside `[0, 10000)` meets no
  row `i`, so it needs no hypothesis. Layer 2 recomputes the words and weights by the same operations (`v50_eq`, `v51_eq`, `v74_eq`).
-/
import proofs.«109809_j64716567216668_1_alg».proof.Proof.RefReadP
import proofs.«109809_j64716567216668_1_alg».proof.Proof.LibHostIdx
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Cert.ReferenceIdeal.ReadP Idealize.ShloMosaic Idealize.ShloMosaic.ValueIdx
open Cert.HostIdx

/-- A non-negative 32-bit word is not below zero: the index wrap `select (w < 0) (w + n) w` leaves it alone. -/
theorem wrap_of_nonneg (w c : BitVec 32) (h0 : 0 ≤ w.toInt) :
    Scalar.select (IntOp.cmpi .slt w 0#32) (IntOp.addi w c) w = w := by
  have hslt : w.slt 0#32 = false := by
    unfold BitVec.slt
    have hz : (0#32 : BitVec 32).toInt = 0 := by decide
    rw [hz]
    exact decide_eq_false (by omega)
  unfold Scalar.select IntOp.cmpi
  simp only [hslt]
  rw [if_neg (by decide)]

section Layer1

variable (x0 : (⟨S10000x512, .f32⟩ : BufTy).Contents (Elt Ideal)) (x1 : (⟨S2x160000, .i32⟩ : BufTy).Contents (Elt Ideal))
  (x2 : (⟨S512x512, .f32⟩ : BufTy).Contents (Elt Ideal)) (x3 : (⟨S512, .f32⟩ : BufTy).Contents (Elt Ideal))

/-- The wrapped source word of edge `e` is the source word when that is non-negative. -/
theorem v36_read (e : Fin 170000) (h0 : 0 ≤ (val_main_v6 (F := Ideal) x1 (ix1 e)).toInt) :
    val_main_v36 (F := Ideal) x1 (ix2 e (0 : Fin 1)) = val_main_v6 (F := Ideal) x1 (ix1 e) := by
  rw [val_main_v36_apply]
  have hi : idx_main_v36 (ix2 e (0 : Fin 1)) = ix1 e := by
    funext a; obtain rfl : a = (0 : Fin 1) := Subsingleton.elim _ _; rfl
  rw [hi, val_main_v35_apply, val_main_v32_apply, val_main_v34_apply, val_main_v31_apply]
  exact wrap_of_nonneg _ _ h0

/-- The scatter's index word of edge `e` is the destination word. -/
theorem v42_read (e : Fin 170000) :
    val_main_v42 (F := Ideal) x1 (ix2 e (0 : Fin 1)) = val_main_v7 (F := Ideal) x1 (ix1 e) := by
  rw [val_main_v42_apply]
  have hi : idx_main_v42 (ix2 e (0 : Fin 1)) = ix1 e := by
    funext a; obtain rfl : a = (0 : Fin 1) := Subsingleton.elim _ _; rfl
  rw [hi]

/-- The broadcast edge weight at `(e, c)` is the weight of edge `e`. -/
theorem v39_read (e : Fin 170000) (c : Fin 512) :
    val_main_v39 (F := Ideal) x1 (ix2 e c) = val_main_v30 (F := Ideal) x1 (ix1 e) := by
  rw [val_main_v39_apply, val_main_v38_apply]
  have hi : idx_main_v38 (idx_main_v39 (ix2 e c)) = ix1 e := by
    funext a; obtain rfl : a = (0 : Fin 1) := Subsingleton.elim _ _; rfl
  rw [hi]

/-- The product `x · W` at `(r, c)`. -/
theorem v4_read (r : Fin 10000) (c : Fin 512) :
    val_main_v4 (F := Ideal) x0 x2 (ix2 r c) = ∑ k : Fin 512, x0 (ix2 r k) * x2 (ix2 k c) := by
  rw [val_main_v4_apply]
  refine Finset.sum_congr rfl fun k _ => ?_
  have hl : lidx_main_v4 (ix2 r c) k = ix2 r k := by
    funext a; rcases fin2_cases a with rfl | rfl <;> rfl
  have hr : ridx_main_v4 (ix2 r c) k = ix2 k c := by
    funext a; rcases fin2_cases a with rfl | rfl <;> rfl
  rw [hl, hr]

/-- The gathered row of edge `e`: row `src e` of `x · W`, when the source word is a row number. -/
theorem v37_read (e : Fin 170000) (c : Fin 512)
    (h0 : 0 ≤ (val_main_v6 (F := Ideal) x1 (ix1 e)).toInt) (hlt : (val_main_v6 (F := Ideal) x1 (ix1 e)).toInt < 10000) :
    val_main_v37 (F := Ideal) x0 x1 x2 (ix2 e c)
      = ∑ k : Fin 512, x0 (ix2 ⟨(val_main_v6 (F := Ideal) x1 (ix1 e)).toInt.toNat, by omega⟩ k) * x2 (ix2 k c) := by
  have h36 := v36_read x1 e h0
  have hg := gather_rows_apply_of_lt (N := 10000) (E := 170000) (C := 512)
    gather_S10000x512_S170000x1_S170000x512_1_0_n_n_0_1_1512_wf (val_main_v4 (F := Ideal) x0 x2) (val_main_v36 (F := Ideal) x1) e c
    (by rw [h36]; exact h0) (by rw [h36]; exact_mod_cast hlt)
  have hidx : (ix2 (⟨(val_main_v36 (F := Ideal) x1 (ix2 e (0 : Fin 1))).toInt.toNat, by rw [h36]; omega⟩ : Fin 10000) c
      : (⟨2, ![10000, 512]⟩ : Shape).Idx)
      = ix2 ⟨(val_main_v6 (F := Ideal) x1 (ix1 e)).toInt.toNat, by omega⟩ c := by
    funext a
    rcases fin2_cases a with rfl | rfl
    · refine Fin.ext ?_
      show (val_main_v36 (F := Ideal) x1 (ix2 e (0 : Fin 1))).toInt.toNat = (val_main_v6 (F := Ideal) x1 (ix1 e)).toInt.toNat
      rw [h36]
    · rfl
  rw [← v4_read x0 x2, ← hidx]
  exact hg

/-- LAYER 1 READ AT `(i, c)`. -/
theorem v46_read (hs : ∀ e : Fin 170000, 0 ≤ (val_main_v6 (F := Ideal) x1 (ix1 e)).toInt ∧ (val_main_v6 (F := Ideal) x1 (ix1 e)).toInt < 10000)
    (i : Fin 10000) (c : Fin 512) :
    val_main_v46 (F := Ideal) x0 x1 x2 x3 (ix2 i c)
      = (Ideal.ofBits .f32 0x00000000#32
          + ∑ e ∈ Finset.univ.filter (fun e : Fin 170000 => (val_main_v7 (F := Ideal) x1 (ix1 e)).toInt = (i.val : Int)),
              (∑ k : Fin 512, x0 (ix2 ⟨(val_main_v6 (F := Ideal) x1 (ix1 e)).toInt.toNat, by have := hs e; omega⟩ k) * x2 (ix2 k c))
                * val_main_v30 (F := Ideal) x1 (ix1 e))
        + x3 (ix1 c) := by
  have h45 : val_main_v45 (F := Ideal) x3 (ix2 i c) = x3 (ix1 c) := by
    rw [val_main_v45_apply, val_main_v44_apply]
    have hi : idx_main_v44 (idx_main_v45 (ix2 i c)) = ix1 c := by
      funext a; obtain rfl : a = (0 : Fin 1) := Subsingleton.elim _ _; rfl
    rw [hi]
  have h41 : val_main_v41 (F := Ideal) (ix2 i c) = Ideal.ofBits .f32 0x00000000#32 := by
    rw [val_main_v41_apply]; rfl
  have hfilt : Finset.univ.filter (fun e : Fin 170000 => (val_main_v42 (F := Ideal) x1 (ix2 e (0 : Fin 1))).toInt = (i.val : Int))
      = Finset.univ.filter (fun e : Fin 170000 => (val_main_v7 (F := Ideal) x1 (ix1 e)).toInt = (i.val : Int)) := by
    refine Finset.filter_congr fun e _ => ?_
    rw [v42_read]
  have hterm : ∀ e : Fin 170000, val_main_v40 (F := Ideal) x0 x1 x2 (ix2 e c)
      = (∑ k : Fin 512, x0 (ix2 ⟨(val_main_v6 (F := Ideal) x1 (ix1 e)).toInt.toNat, by have := hs e; omega⟩ k) * x2 (ix2 k c))
          * val_main_v30 (F := Ideal) x1 (ix1 e) := by
    intro e
    rw [val_main_v40_apply]
    show val_main_v37 (F := Ideal) x0 x1 x2 (ix2 e c) * val_main_v39 (F := Ideal) x1 (ix2 e c) = _
    rw [v39_read, v37_read x0 x1 x2 e c (hs e).1 (hs e).2]
  have hsc := scatterAdd_rows_apply (N := 10000) (E := 170000) (C := 512)
    scatter_S10000x512_S170000x1_S170000x512_1_0_0_1_wf (val_main_v42 (F := Ideal) x1)
    (val_main_v41 (F := Ideal)) (val_main_v40 (F := Ideal) x0 x1 x2) i c
  have h43 : val_main_v43 (F := Ideal) x0 x1 x2 (ix2 i c)
      = val_main_v41 (F := Ideal) (ix2 i c)
        + ∑ e ∈ Finset.univ.filter (fun e : Fin 170000 => (val_main_v42 (F := Ideal) x1 (ix2 e (0 : Fin 1))).toInt = (i.val : Int)),
            val_main_v40 (F := Ideal) x0 x1 x2 (ix2 e c) := hsc
  rw [val_main_v46_apply]
  show val_main_v43 (F := Ideal) x0 x1 x2 (ix2 i c) + val_main_v45 (F := Ideal) x3 (ix2 i c) = _
  rw [h45, h43, h41, hfilt, Finset.sum_congr rfl (fun e _ => hterm e)]

end Layer1

section Layer2

variable (x0 : (⟨S10000x512, .f32⟩ : BufTy).Contents (Elt Ideal)) (x1 : (⟨S2x160000, .i32⟩ : BufTy).Contents (Elt Ideal))
  (x2 : (⟨S512x512, .f32⟩ : BufTy).Contents (Elt Ideal)) (x3 : (⟨S512, .f32⟩ : BufTy).Contents (Elt Ideal))
  (x4 : (⟨S512x256, .f32⟩ : BufTy).Contents (Elt Ideal)) (x5 : (⟨S256, .f32⟩ : BufTy).Contents (Elt Ideal))

/-- Layer 2 recomputes the source words: the same composition of operations. -/
theorem v50_eq : val_main_v50 (F := Ideal) x1 = val_main_v6 (F := Ideal) x1 := rfl
/-- Layer 2 recomputes the destination words. -/
theorem v51_eq : val_main_v51 (F := Ideal) x1 = val_main_v7 (F := Ideal) x1 := rfl
/-- Layer 2 recomputes the edge weights. -/
theorem v74_eq : val_main_v74 (F := Ideal) x1 = val_main_v30 (F := Ideal) x1 := rfl

/-- The activation between the layers: the maximum with zero. -/
theorem v47_read (i : Fin 10000) (c : Fin 512) :
    val_main_v47 (F := Ideal) x0 x1 x2 x3 (ix2 i c)
      = max (val_main_v46 (F := Ideal) x0 x1 x2 x3 (ix2 i c)) (Ideal.ofBits .f32 0x00000000#32) := by
  rw [val_main_v47_apply, val_main_call1_v0_apply]
  rfl

/-- The wrapped source word of edge `e` in layer 2. -/
theorem v80_read (e : Fin 170000) (h0 : 0 ≤ (val_main_v50 (F := Ideal) x1 (ix1 e)).toInt) :
    val_main_v80 (F := Ideal) x1 (ix2 e (0 : Fin 1)) = val_main_v50 (F := Ideal) x1 (ix1 e) := by
  rw [val_main_v80_apply]
  have hi : idx_main_v80 (ix2 e (0 : Fin 1)) = ix1 e := by
    funext a; obtain rfl : a = (0 : Fin 1) := Subsingleton.elim _ _; rfl
  rw [hi, val_main_v79_apply, val_main_v76_apply, val_main_v78_apply, val_main_v75_apply]
  exact wrap_of_nonneg _ _ h0

/-- The scatter's index word of edge `e` in layer 2. -/
theorem v86_read (e : Fin 170000) :
    val_main_v86 (F := Ideal) x1 (ix2 e (0 : Fin 1)) = val_main_v51 (F := Ideal) x1 (ix1 e) := by
  rw [val_main_v86_apply]
  have hi : idx_main_v86 (ix2 e (0 : Fin 1)) = ix1 e := by
    funext a; obtain rfl : a = (0 : Fin 1) := Subsingleton.elim _ _; rfl
  rw [hi]

/-- The broadcast edge weight at `(e, c)` in layer 2. -/
theorem v83_read (e : Fin 170000) (c : Fin 256) :
    val_main_v83 (F := Ideal) x1 (ix2 e c) = val_main_v74 (F := Ideal) x1 (ix1 e) := by
  rw [val_main_v83_apply, val_main_v82_apply]
  have hi : idx_main_v82 (idx_main_v83 (ix2 e c)) = ix1 e := by
    funext a; obtain rfl : a = (0 : Fin 1) := Subsingleton.elim _ _; rfl
  rw [hi]

/-- The product `h · W₂` at `(r, c)`, `h` the activated first layer. -/
theorem v48_read (r : Fin 10000) (c : Fin 256) :
    val_main_v48 (F := Ideal) x0 x1 x2 x3 x4 (ix2 r c)
      = ∑ k : Fin 512, val_main_v47 (F := Ideal) x0 x1 x2 x3 (ix2 r k) * x4 (ix2 k c) := by
  rw [val_main_v48_apply]
  refine Finset.sum_congr rfl fun k _ => ?_
  have hl : lidx_main_v48 (ix2 r c) k = ix2 r k := by
    funext a; rcases fin2_cases a with rfl | rfl <;> rfl
  have hr : ridx_main_v48 (ix2 r c) k = ix2 k c := by
    funext a; rcases fin2_cases a with rfl | rfl <;> rfl
  rw [hl, hr]

/-- The gathered row of edge `e` in layer 2. -/
theorem v81_read (e : Fin 170000) (c : Fin 256)
    (h0 : 0 ≤ (val_main_v50 (F := Ideal) x1 (ix1 e)).toInt) (hlt : (val_main_v50 (F := Ideal) x1 (ix1 e)).toInt < 10000) :
    val_main_v81 (F := Ideal) x0 x1 x2 x3 x4 (ix2 e c)
      = ∑ k : Fin 512, val_main_v47 (F := Ideal) x0 x1 x2 x3 (ix2 ⟨(val_main_v50 (F := Ideal) x1 (ix1 e)).toInt.toNat, by omega⟩ k)
          * x4 (ix2 k c) := by
  have h80 := v80_read x1 e h0
  have hg := gather_rows_apply_of_lt (N := 10000) (E := 170000) (C := 256)
    gather_S10000x256_S170000x1_S170000x256_1_0_n_n_0_1_1256_wf (val_main_v48 (F := Ideal) x0 x1 x2 x3 x4) (val_main_v80 (F := Ideal) x1) e c
    (by rw [h80]; exact h0) (by rw [h80]; exact_mod_cast hlt)
  have hidx : (ix2 (⟨(val_main_v80 (F := Ideal) x1 (ix2 e (0 : Fin 1))).toInt.toNat, by rw [h80]; omega⟩ : Fin 10000) c
      : (⟨2, ![10000, 256]⟩ : Shape).Idx)
      = ix2 ⟨(val_main_v50 (F := Ideal) x1 (ix1 e)).toInt.toNat, by omega⟩ c := by
    funext a
    rcases fin2_cases a with rfl | rfl
    · refine Fin.ext ?_
      show (val_main_v80 (F := Ideal) x1 (ix2 e (0 : Fin 1))).toInt.toNat = (val_main_v50 (F := Ideal) x1 (ix1 e)).toInt.toNat
      rw [h80]
    · rfl
  rw [← v48_read x0 x1 x2 x3 x4, ← hidx]
  exact hg

/-- LAYER 2 (THE RESULT) READ AT `(i, c)`, over layer 2's own copies of the words and weights. -/
theorem v90_read (hs : ∀ e : Fin 170000, 0 ≤ (val_main_v50 (F := Ideal) x1 (ix1 e)).toInt ∧ (val_main_v50 (F := Ideal) x1 (ix1 e)).toInt < 10000)
    (i : Fin 10000) (c : Fin 256) :
    val_main_v90 (F := Ideal) x0 x1 x2 x3 x4 x5 (ix2 i c)
      = (Ideal.ofBits .f32 0x00000000#32
          + ∑ e ∈ Finset.univ.filter (fun e : Fin 170000 => (val_main_v51 (F := Ideal) x1 (ix1 e)).toInt = (i.val : Int)),
              (∑ k : Fin 512, val_main_v47 (F := Ideal) x0 x1 x2 x3 (ix2 ⟨(val_main_v50 (F := Ideal) x1 (ix1 e)).toInt.toNat, by have := hs e; omega⟩ k)
                  * x4 (ix2 k c))
                * val_main_v74 (F := Ideal) x1 (ix1 e))
        + x5 (ix1 c) := by
  have h89 : val_main_v89 (F := Ideal) x5 (ix2 i c) = x5 (ix1 c) := by
    rw [val_main_v89_apply, val_main_v88_apply]
    have hi : idx_main_v88 (idx_main_v89 (ix2 i c)) = ix1 c := by
      funext a; obtain rfl : a = (0 : Fin 1) := Subsingleton.elim _ _; rfl
    rw [hi]
  have h85 : val_main_v85 (F := Ideal) (ix2 i c) = Ideal.ofBits .f32 0x00000000#32 := by
    rw [val_main_v85_apply]; rfl
  have hfilt : Finset.univ.filter (fun e : Fin 170000 => (val_main_v86 (F := Ideal) x1 (ix2 e (0 : Fin 1))).toInt = (i.val : Int))
      = Finset.univ.filter (fun e : Fin 170000 => (val_main_v51 (F := Ideal) x1 (ix1 e)).toInt = (i.val : Int)) := by
    refine Finset.filter_congr fun e _ => ?_
    rw [v86_read]
  have hterm : ∀ e : Fin 170000, val_main_v84 (F := Ideal) x0 x1 x2 x3 x4 (ix2 e c)
      = (∑ k : Fin 512, val_main_v47 (F := Ideal) x0 x1 x2 x3 (ix2 ⟨(val_main_v50 (F := Ideal) x1 (ix1 e)).toInt.toNat, by have := hs e; omega⟩ k)
            * x4 (ix2 k c))
          * val_main_v74 (F := Ideal) x1 (ix1 e) := by
    intro e
    rw [val_main_v84_apply]
    show val_main_v81 (F := Ideal) x0 x1 x2 x3 x4 (ix2 e c) * val_main_v83 (F := Ideal) x1 (ix2 e c) = _
    rw [v83_read, v81_read x0 x1 x2 x3 x4 e c (hs e).1 (hs e).2]
  have hsc := scatterAdd_rows_apply (N := 10000) (E := 170000) (C := 256)
    scatter_S10000x256_S170000x1_S170000x256_1_0_0_1_wf (val_main_v86 (F := Ideal) x1)
    (val_main_v85 (F := Ideal)) (val_main_v84 (F := Ideal) x0 x1 x2 x3 x4) i c
  have h87 : val_main_v87 (F := Ideal) x0 x1 x2 x3 x4 (ix2 i c)
      = val_main_v85 (F := Ideal) (ix2 i c)
        + ∑ e ∈ Finset.univ.filter (fun e : Fin 170000 => (val_main_v86 (F := Ideal) x1 (ix2 e (0 : Fin 1))).toInt = (i.val : Int)),
            val_main_v84 (F := Ideal) x0 x1 x2 x3 x4 (ix2 e c) := hsc
  rw [val_main_v90_apply]
  show val_main_v87 (F := Ideal) x0 x1 x2 x3 x4 (ix2 i c) + val_main_v89 (F := Ideal) x5 (ix2 i c) = _
  rw [h89, h87, h85, hfilt, Finset.sum_congr rfl (fun e _ => hterm e)]

/-- THE RESULT READ AT `(i, c)` over the first layer's words and weights (layer 2's copies are the same functions). -/
theorem v90_read' (hs : ∀ e : Fin 170000, 0 ≤ (val_main_v6 (F := Ideal) x1 (ix1 e)).toInt ∧ (val_main_v6 (F := Ideal) x1 (ix1 e)).toInt < 10000)
    (i : Fin 10000) (c : Fin 256) :
    val_main_v90 (F := Ideal) x0 x1 x2 x3 x4 x5 (ix2 i c)
      = (Ideal.ofBits .f32 0x00000000#32
          + ∑ e ∈ Finset.univ.filter (fun e : Fin 170000 => (val_main_v7 (F := Ideal) x1 (ix1 e)).toInt = (i.val : Int)),
              (∑ k : Fin 512, val_main_v47 (F := Ideal) x0 x1 x2 x3 (ix2 ⟨(val_main_v6 (F := Ideal) x1 (ix1 e)).toInt.toNat, by have := hs e; omega⟩ k)
                  * x4 (ix2 k c))
                * val_main_v30 (F := Ideal) x1 (ix1 e))
        + x5 (ix1 c) :=
  v90_read x0 x1 x2 x3 x4 x5 hs i c

end Layer2

end Cert.ReferenceIdeal.RefRead

end
-- ==== Proof.RefFacts.lean ====
/-
  Two facts about the reference's stages, as functions of the edge array `x1 : [2, 160000]`.

  The source words `s = concat(x1[0, :], iota 10000)` and destination words `d = concat(x1[1, :], iota 10000)` (170000 entries
  each: the given edges, then one self loop per node) are nodes, `0 ≤ w < 10000`, as soon as every entry of `x1` is: an entry
  below 160000 is an entry of `x1`, an entry from 160000 on is its own offset `e - 160000 < 10000`.

  The edge weight `norm e = dinv (s e) * dinv (d e)` is a real number, whatever the indices are: the degree is a finite sum of
  ones on top of zero, `dinv = if deg > 0 then deg^(-1/2) else 0` is real at a real degree (the comparison guards the inverse
  square root away from its values at zero and below), a gather only selects entries, and a product of reals is real.
-/
import proofs.«109809_j64716567216668_1_alg».proof.Proof.RefReadP
import proofs.«109809_j64716567216668_1_alg».proof.Proof.LibHostIdx
import proofs.«109809_j64716567216668_1_alg».proof.Proof.Agg

noncomputable section

namespace Cert.ReferenceIdeal.RefFacts

open Cert.ReferenceIdeal Cert.ReferenceIdeal.Gen Cert.ReferenceIdeal.ReadP Idealize.ShloMosaic Idealize.ShloMosaic.ValueIdx Cert.Agg

/-- The f32 word of one is the real number one. -/
theorem one_real : IsR (Ideal.ofBits .f32 0x3F800000#32) := by
  have h : Ideal.ofBits .f32 0x3F800000#32 = ((8388608 * ((2 : ℝ) ^ 23)⁻¹ : ℝ) : EReal) := by
    simp [Ideal.ofBits, Ideal.ieee]
  rw [h]; exact IsR.coe _

/-- The inverse square root under its guard is real at a real argument. -/
theorem dinv_real (d : EReal) (hd : IsR d) :
    IsR (Scalar.select (Ideal.cmp .ogt d (Ideal.ofBits .f32 0x00000000#32)) (Ideal.rsqrt d) (Ideal.ofBits .f32 0x00000000#32)) := by
  obtain ⟨r, rfl⟩ := hd
  rw [Ideal.ofBits_zero_f32]
  by_cases hr : 0 < r
  · have hc : Ideal.cmp .ogt (r : EReal) 0 = 1#1 := by
      simp [Ideal.cmp, hr]
    rw [hc, select_one]
    have hs : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.2 hr.le), if_neg hr.ne']
    rw [hs]; exact IsR.coe _
  · have hc : Ideal.cmp .ogt (r : EReal) 0 = 0#1 := by
      simp [Ideal.cmp, hr]
    rw [hc, select_zero]; exact IsR.zero

section
variable (x1 : (⟨S2x160000, .i32⟩ : BufTy).Contents (Elt Ideal))

/-- The degree is real: zero plus a finite sum of ones. -/
theorem deg_real (j : S10000.Idx) : IsR (val_main_v11 (F := Ideal) x1 j) := by
  unfold val_main_v11 Host.scatterAdd
  rw [Ideal.hostScatterAdd_def]
  unfold Ideal.hostScatterAdd
  refine IsR.add ?_ (IsR.sum _ _ fun e _ => ?_)
  · rw [val_main_v9_apply, val_main_cst_0_apply, Ideal.ofBits_def, Ideal.ofBits_zero_f32]; exact IsR.zero
  · rw [val_main_v8_apply, val_main_cst_apply, Ideal.ofBits_def]; exact one_real

/-- The guarded inverse square root of the degree is real. -/
theorem dinvStage_real (j : S10000.Idx) : IsR (val_main_v15 (F := Ideal) x1 j) := by
  rw [val_main_v15_apply, val_main_v13_apply, val_main_v14_apply, val_main_v12_apply, val_main_cst_1_apply,
    val_main_call0_v1_apply, val_main_call0_v0_apply, val_main_cst_2_apply, Ideal.ofBits_def, Ideal.cmpf_def,
    Ideal.hostUnary_rsqrt_def]
  exact dinv_real _ (deg_real x1 j)

/-- The edge weight is real. -/
theorem norm_real (e : S170000.Idx) : IsR (val_main_v30 (F := Ideal) x1 e) := by
  rw [val_main_v30_apply, Ideal.mulf_def]
  have h22 : val_main_v22 (F := Ideal) x1 e
      = val_main_v15 (F := Ideal) x1 (gather_S10000_S170000x1_S170000_n_0_n_n_0_1_1.operandIdx e (val_main_v21 (F := Ideal) x1)) := rfl
  have h29 : val_main_v29 (F := Ideal) x1 e
      = val_main_v15 (F := Ideal) x1 (gather_S10000_S170000x1_S170000_n_0_n_n_0_1_1.operandIdx e (val_main_v28 (F := Ideal) x1)) := rfl
  rw [h22, h29]
  exact IsR.mul (dinvStage_real x1 _) (dinvStage_real x1 _)

/-- The source words are nodes when the edge array's entries are. -/
theorem src_node (hx1 : ∀ i, 0 ≤ (x1 i).toInt ∧ (x1 i).toInt < 10000) (e : Fin 170000) :
    0 ≤ (val_main_v6 (F := Ideal) x1 (ix1 e)).toInt ∧ (val_main_v6 (F := Ideal) x1 (ix1 e)).toInt < 10000 := by
  unfold val_main_v6
  by_cases he : e.val < 160000
  · rw [Cert.HostIdx.concat1_apply_left _ _ _ e he, val_main_v1_apply, val_main_v0_apply]; exact hx1 _
  · have he2 : e.val - 160000 < 10000 := by have := e.isLt; omega
    rw [Cert.HostIdx.concat1_apply_right _ _ _ e (by omega) he2]
    have h := Cert.HostIdx.iota1_toInt (n := 10000) (by norm_num) ⟨e.val - 160000, he2⟩
    unfold val_main_v5
    rw [h]
    constructor
    · exact Int.natCast_nonneg _
    · exact_mod_cast he2

/-- The destination words are nodes when the edge array's entries are. -/
theorem dst_node (hx1 : ∀ i, 0 ≤ (x1 i).toInt ∧ (x1 i).toInt < 10000) (e : Fin 170000) :
    0 ≤ (val_main_v7 (F := Ideal) x1 (ix1 e)).toInt ∧ (val_main_v7 (F := Ideal) x1 (ix1 e)).toInt < 10000 := by
  unfold val_main_v7
  by_cases he : e.val < 160000
  · rw [Cert.HostIdx.concat1_apply_left _ _ _ e he, val_main_v3_apply, val_main_v2_apply]; exact hx1 _
  · have he2 : e.val - 160000 < 10000 := by have := e.isLt; omega
    rw [Cert.HostIdx.concat1_apply_right _ _ _ e (by omega) he2]
    have h := Cert.HostIdx.iota1_toInt (n := 10000) (by norm_num) ⟨e.val - 160000, he2⟩
    unfold val_main_v5
    rw [h]
    constructor
    · exact Int.natCast_nonneg _
    · exact_mod_cast he2
end

end Cert.ReferenceIdeal.RefFacts

end
-- ==== Proof.RefGlue.lean ====
/-
  The reference's result is the edge-list form of the two-layer convolution.

  From the argument arrays: `xa j k`, `w1 k c`, `bb1 c`, `w2 k c`, `bb2 c` are the entries of the features, the two weight matrices
  and the two biases; edge `e`'s weight `nrm e` is the reference's own normalisation stage; its source and destination nodes
  `sN e`, `dN e` are the values of the source and destination words, which are below 10000 when the edge array's entries are
  nodes. With these the reference's first layer after its relu is `rG1` and its result is `rZ`: the stage lemmas give each layer
  as a sum over the edges whose destination word equals the row number, and a word in range equals a row number exactly when
  its node does.
-/
import proofs.«109809_j64716567216668_1_alg».proof.Proof.RefRead
import proofs.«109809_j64716567216668_1_alg».proof.Proof.RefFacts
import proofs.«109809_j64716567216668_1_alg».proof.Proof.Bridge

noncomputable section

namespace Cert.ReferenceIdeal.RefGlue

open Cert.ReferenceIdeal Cert.ReferenceIdeal.Gen Cert.ReferenceIdeal.ReadP Idealize.ShloMosaic Idealize.ShloMosaic.ValueIdx Finset

section
variable (x0 : (⟨S10000x512, .f32⟩ : BufTy).Contents (Elt Ideal)) (x1 : (⟨S2x160000, .i32⟩ : BufTy).Contents (Elt Ideal))
  (x2 : (⟨S512x512, .f32⟩ : BufTy).Contents (Elt Ideal)) (x3 : (⟨S512, .f32⟩ : BufTy).Contents (Elt Ideal))
  (x4 : (⟨S512x256, .f32⟩ : BufTy).Contents (Elt Ideal)) (x5 : (⟨S256, .f32⟩ : BufTy).Contents (Elt Ideal))
  (hx1 : ∀ i, 0 ≤ (x1 i).toInt ∧ (x1 i).toInt < 10000)

/-- Edge `e`'s source node. -/
def sN (e : Fin 170000) : Fin 10000 :=
  ⟨(val_main_v6 (F := Ideal) x1 (ix1 e)).toInt.toNat, by have := RefFacts.src_node x1 hx1 e; omega⟩
/-- Edge `e`'s destination node. -/
def dN (e : Fin 170000) : Fin 10000 :=
  ⟨(val_main_v7 (F := Ideal) x1 (ix1 e)).toInt.toNat, by have := RefFacts.dst_node x1 hx1 e; omega⟩
/-- Edge `e`'s weight. -/
def nrm (e : Fin 170000) : EReal := val_main_v30 (F := Ideal) x1 (ix1 e)
def xa (j : Fin 10000) (k : Fin 512) : EReal := x0 (ix2 j k)
def w1 (k : Fin 512) (c : Fin 512) : EReal := x2 (ix2 k c)
def bb1 (c : Fin 512) : EReal := x3 (ix1 c)
def w2 (k : Fin 512) (c : Fin 256) : EReal := x4 (ix2 k c)
def bb2 (c : Fin 256) : EReal := x5 (ix1 c)

/-- A destination word equals a row number exactly when its node is that row. -/
theorem dst_iff (e : Fin 170000) (i : Fin 10000) :
    (val_main_v7 (F := Ideal) x1 (ix1 e)).toInt = (i.val : Int) ↔ dN x1 hx1 e = i := by
  have h := RefFacts.dst_node x1 hx1 e
  constructor
  · intro he; apply Fin.ext; show (val_main_v7 (F := Ideal) x1 (ix1 e)).toInt.toNat = i.val; omega
  · intro he
    have hv : (val_main_v7 (F := Ideal) x1 (ix1 e)).toInt.toNat = i.val := congrArg Fin.val he
    omega

/-- The first layer after its relu. -/
theorem layer1 (j : Fin 10000) (k : Fin 512) :
    val_main_v47 (F := Ideal) x0 x1 x2 x3 (ix2 j k)
      = Cert.Bridge.rG1 (xa x0) (w1 x2) (bb1 x3) (nrm x1) (sN x1 hx1) (dN x1 hx1) j k := by
  rw [RefRead.v47_read, RefRead.v46_read x0 x1 x2 x3 (RefFacts.src_node x1 hx1) j k, Ideal.ofBits_zero_f32, zero_add]
  unfold Cert.Bridge.rG1 Cert.Bridge.rAgg Cert.Bridge.rH1
  rw [Finset.filter_congr (fun e _ => dst_iff x1 hx1 e j)]
  rfl

/-- The result. -/
theorem result (i : Fin 10000) (c : Fin 256) :
    val_main_v90 (F := Ideal) x0 x1 x2 x3 x4 x5 (ix2 i c)
      = Cert.Bridge.rZ (xa x0) (w1 x2) (bb1 x3) (w2 x4) (bb2 x5) (nrm x1) (sN x1 hx1) (dN x1 hx1) i c := by
  rw [RefRead.v90_read' x0 x1 x2 x3 x4 x5 (RefFacts.src_node x1 hx1) i c, Ideal.ofBits_zero_f32, zero_add]
  unfold Cert.Bridge.rZ Cert.Bridge.rAgg Cert.Bridge.rH2
  rw [Finset.filter_congr (fun e _ => dst_iff x1 hx1 e i)]
  refine congrArg (· + x5 (ix1 c)) (Finset.sum_congr rfl fun e _ => ?_)
  refine congrArg (· * val_main_v30 (F := Ideal) x1 (ix1 e)) (Finset.sum_congr rfl fun k _ => ?_)
  rw [← layer1 x0 x1 x2 x3 hx1]
  rfl

end

end Cert.ReferenceIdeal.RefGlue

end
-- ==== Proof.PreDecode.lean ====
/-
  What the precondition says, element by element.

  The precondition is one conjunction: for each of the five float inputs, every entry's absolute value is below +∞; and
  every entry `w` of the integer edge array satisfies `0 ≤ w` and `w < 10000` as a signed integer. On the extended reals
  `|x| < +∞` says exactly that `x` is a real number (it excludes both infinities), which is what the distributive law
  used later needs; the bounds on the edge array say that every source and destination is a node.
-/
import proofs.«109809_j64716567216668_1_alg».proof.Pre_finite_inputs
import proofs.«109809_j64716567216668_1_alg».proof.Proof.Gen.Pre_finite_inputs
import proofs.«109809_j64716567216668_1_alg».proof.Proof.Agg
import Idealize.ShloMosaic.Lib.ReduceAll
import Idealize.ShloMosaic.Lib.Affine
import Idealize.ShloMosaic.Lib.ValueIdx

noncomputable section

namespace Cert.PreDecode

open Idealize.ShloMosaic Cert.Pre_finite_inputs Cert.Agg

variable [Cert.Pre_finite_inputs.Facts]

instance : Subsingleton S_.Idx := ⟨fun a b => funext fun d => d.elim0⟩

/-- An extended real whose absolute value is below +∞ is a real number. -/
theorem isR_of_abs_lt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The precondition, decoded: the float inputs are real entry by entry, the edge array's entries are nodes. -/
theorem decode (x0 : FVec Ideal S10000x512 .f32) (x1 : IVec S2x160000 32) (x2 : FVec Ideal S512x512 .f32) (x3 : FVec Ideal S512 .f32)
    (x4 : FVec Ideal S512x256 .f32) (x5 : FVec Ideal S256 .f32)
    (h : fn (F := Ideal) x0 x1 x2 x3 x4 x5 = fun _ => 1#1) :
    (∀ i, IsR (x0 i)) ∧ (∀ i, IsR (x2 i)) ∧ (∀ i, IsR (x3 i)) ∧ (∀ i, IsR (x4 i)) ∧ (∀ i, IsR (x5 i))
      ∧ ∀ i, 0 ≤ (x1 i).toInt ∧ (x1 i).toInt < 10000 := by
  have h0 := congrFun h ValueIdx.ix0
  dsimp only [fn, fn_part1] at h0
  obtain ⟨h1, hE⟩ := IntOp.andi_eq_one.1 h0
  obtain ⟨h2, h5⟩ := IntOp.andi_eq_one.1 h1
  obtain ⟨h3, h4⟩ := IntOp.andi_eq_one.1 h2
  obtain ⟨h02, h3'⟩ := IntOp.andi_eq_one.1 h3
  obtain ⟨hx0, hx2⟩ := IntOp.andi_eq_one.1 h02
  refine ⟨fun i => isR_of_abs_lt _ (Host.reduce_andi_all _ _ _ _ _ hx0 i),
    fun i => isR_of_abs_lt _ (Host.reduce_andi_all _ _ _ _ _ hx2 i),
    fun i => isR_of_abs_lt _ (Host.reduce_andi_all _ _ _ _ _ h3' i),
    fun i => isR_of_abs_lt _ (Host.reduce_andi_all _ _ _ _ _ h4 i),
    fun i => isR_of_abs_lt _ (Host.reduce_andi_all _ _ _ _ _ h5 i), fun i => ?_⟩
  obtain ⟨hge, hlt⟩ := IntOp.andi_eq_one.1 (Host.reduce_andi_all _ _ _ _ _ hE i)
  have hge' : (0#32 : BitVec 32).toInt ≤ (x1 i).toInt := IntOp.cmpi_sge.1 hge
  have hlt' : (x1 i).toInt < (10000#32 : BitVec 32).toInt := IntOp.cmpi_slt.1 hlt
  have e0 : (0#32 : BitVec 32).toInt = 0 := by decide
  have e1 : (10000#32 : BitVec 32).toInt = 10000 := by decide
  rw [e0] at hge'; rw [e1] at hlt'
  exact ⟨hge', hlt'⟩

end Cert.PreDecode

end
-- ==== Proof.KHostShared.lean ====
/- The stages the kernel's host code shares with the reference program. Both programs build, from the edge array,
   the edge sources and targets with the self loops appended, the degrees by a scatter-add of ones, the inverse
   square-root degrees, and the edge weights as the product of the two end points' inverse square-root degrees — by
   the same operations in the same order. So each of the kernel's three buffers IS the reference's stage of the same
   name, as a function of the edge array: the two composed terms are the same term. -/
import proofs.«109809_j64716567216668_1_alg».proof.Proof.Gen.KernelIdeal.Frame
import proofs.«109809_j64716567216668_1_alg».proof.Proof.KHostEntry
import proofs.«109809_j64716567216668_1_alg».proof.Proof.RefReadP
import Idealize.ShloMosaic.Lib.StableHlo.Run

noncomputable section

namespace Cert.KernelIdeal.HostRead

open Idealize.ShloMosaic Idealize.ShloMosaic.TcCoe Idealize.ShloMosaic.StableHlo Idealize.ShloMosaic.ValueIdx
open Idealize.SL Idealize.SL.Sem
open Cert.KernelIdeal.Gen

/-! ## Over any contents the fold starts from -/

section Terms
variable (X : Valuation τ sig (Elt Ideal))

set_option maxHeartbeats 4000000 in
/-- The edge sources followed by the self-loop sources 0 … 9999. -/
theorem entry_v5 : (entry X (Proc.devRef .tc main_v5) : S170000.Idx → BitVec 32)
    = Cert.ReferenceIdeal.ReadP.val_main_v6 (F := Ideal) (X (Proc.devRef .tc main_arg1)) := by
  dsimp only [entry, Gen.hostOps0, Gen.hostOps0_1, Gen.hostOps0_2, Gen.hostOps0_3, Gen.hostOps0_4]
  simp (disch := decide) only [↓concat2_intro, after_cons, after_nil, TRef.toBuf, TRef.ofBuf, cast_eq,
      nullary_result', unary_result', binary_result', ternary_result', quaternary_result', reshape_result',
      nullary_result_ne', unary_result_ne', binary_result_ne', ternary_result_ne', quaternary_result_ne', reshape_result_ne']
  rfl

set_option maxHeartbeats 4000000 in
/-- The edge targets followed by the self-loop targets 0 … 9999. -/
theorem entry_v6 : (entry X (Proc.devRef .tc main_v6) : S170000.Idx → BitVec 32)
    = Cert.ReferenceIdeal.ReadP.val_main_v7 (F := Ideal) (X (Proc.devRef .tc main_arg1)) := by
  dsimp only [entry, Gen.hostOps0, Gen.hostOps0_1, Gen.hostOps0_2, Gen.hostOps0_3, Gen.hostOps0_4]
  simp (disch := decide) only [↓concat2_intro, after_cons, after_nil, TRef.toBuf, TRef.ofBuf, cast_eq,
      nullary_result', unary_result', binary_result', ternary_result', quaternary_result', reshape_result',
      nullary_result_ne', unary_result_ne', binary_result_ne', ternary_result_ne', quaternary_result_ne', reshape_result_ne']
  rfl

set_option maxHeartbeats 4000000 in
/-- The edge weights: the product of the two end points' inverse square-root degrees. -/
theorem entry_v29 : (entry X (Proc.devRef .tc main_v29) : S170000.Idx → EReal)
    = Cert.ReferenceIdeal.ReadP.val_main_v30 (F := Ideal) (X (Proc.devRef .tc main_arg1)) := by
  dsimp only [entry, Gen.hostOps0, Gen.hostOps0_1, Gen.hostOps0_2, Gen.hostOps0_3, Gen.hostOps0_4]
  simp (disch := decide) only [↓concat2_intro, after_cons, after_nil, TRef.toBuf, TRef.ofBuf, cast_eq,
      nullary_result', unary_result', binary_result', ternary_result', quaternary_result', reshape_result',
      nullary_result_ne', unary_result_ne', binary_result_ne', ternary_result_ne', quaternary_result_ne', reshape_result_ne']
  rfl

end Terms

/-! ## At the first region's entry -/

section AtEntry
variable (m : (ℓ : Loc nD τ sig) → Buf (Elt Ideal) ℓ) (ρ : Dev nD → PrngReg) (c : Dev nD)

theorem src_eq : (Gen.V5 m ρ c main_v5 : S170000.Idx → BitVec 32)
    = Cert.ReferenceIdeal.ReadP.val_main_v6 (F := Ideal) (m ((c : Thread nD τ).loc main_arg1)) :=
  entry_v5 (Gen.W0 m ρ c)

theorem dst_eq : (Gen.V5 m ρ c main_v6 : S170000.Idx → BitVec 32)
    = Cert.ReferenceIdeal.ReadP.val_main_v7 (F := Ideal) (m ((c : Thread nD τ).loc main_arg1)) :=
  entry_v6 (Gen.W0 m ρ c)

theorem norm_eq : (Gen.V5 m ρ c main_v29 : S170000.Idx → EReal)
    = Cert.ReferenceIdeal.ReadP.val_main_v30 (F := Ideal) (m ((c : Thread nD τ).loc main_arg1)) :=
  entry_v29 (Gen.W0 m ρ c)

end AtEntry

end Cert.KernelIdeal.HostRead
-- ==== Proof.KHostAdj.lean ====
/- The padded adjacency matrix the kernel's regions read. The host code scatter-adds the edge weights into a
   10240 × 10240 array of zeros at the pairs (target, source), each index wrapped against the padded extent, and then
   changes the float format, which is the identity at the extended reals. Read at (i, j) this is the sum of the weights
   of the edges e whose wrapped target is i and whose wrapped source is j. -/
import proofs.«109809_j64716567216668_1_alg».proof.Proof.Gen.KernelIdeal.Frame
import proofs.«109809_j64716567216668_1_alg».proof.Proof.KHostEntry
import proofs.«109809_j64716567216668_1_alg».proof.Proof.LibHostIdx
import Idealize.ShloMosaic.Lib.Pipeline.Value
import Idealize.ShloMosaic.Lib.ValueIdx
import Idealize.ShloMosaic.Lib.IdealHost
import Idealize.ShloMosaic.Lib.StableHlo.Run
import Idealize.ShloMosaic.PureOps.Ideal.Laws

noncomputable section

namespace Cert.KernelIdeal.HostRead

open Idealize.ShloMosaic Idealize.ShloMosaic.TcCoe Idealize.ShloMosaic.StableHlo Idealize.ShloMosaic.ValueIdx
open Idealize.SL Idealize.SL.Sem
open Cert.KernelIdeal.Gen
open scoped BigOperators

/-- An index word read against the padded extent: a negative word has 10240 added (the host's wrap of negative
    indices), any other is kept. -/
def wrapIdx (w : IVec S170000 32) : IVec S170000 32 :=
  select (cmpi .slt w (broadcastInDim S170000 ![] bcast_S_S170000 (constantI S_ 32 0#32)))
    (addi w (broadcastInDim S170000 ![] bcast_S_S170000 (constantI S_ 32 10240#32))) w

/-- The padded adjacency matrix as a function of the edge sources `s`, the edge targets `d` and the edge weights
    `nrm`: zeros with `nrm e` added at the pair (wrap (d e), wrap (s e)), then the change of float format. -/
def adjOf (s d : IVec S170000 32) (nrm : FVec Ideal S170000 .f32) : S10240x10240.Idx → EReal :=
  truncf .bf16 (Host.scatterAdd scatter_S10240x10240_S170000x2_S170000_n_01_01_1
    (broadcastInDim S10240x10240 ![] bcast_S_S10240x10240 (constant (F := Ideal) S_ .f32 0x00000000#32))
    (concatenate S170000x2 1
      [⟨S170000x1, broadcastInDim S170000x1 ![0] bcast_S170000_S170000x1_0 (wrapIdx d)⟩,
       ⟨S170000x1, broadcastInDim S170000x1 ![0] bcast_S170000_S170000x1_0 (wrapIdx s)⟩]
      concatenates_S170000x1_S170000x1_S170000x2_d1)
    nrm) bitsLt_bf16_f32

/-- A vector made a one-column matrix reads the vector's entry in its column. -/
theorem column_apply {α : Type} (x : S170000.Idx → α) (e : Fin 170000) :
    broadcastInDim S170000x1 ![0] bcast_S170000_S170000x1_0 x (ix2 e (0 : Fin 1)) = x (ix1 e) :=
  broadcastInDim_apply (s := S170000) (t := S170000x1) ![0] bcast_S170000_S170000x1_0 x (ix2 e (0 : Fin 1)) (ix1 e)
    (fun a => match a with
      | ⟨0, _⟩ => by
        rw [if_neg (show ¬ S170000.size ⟨0, by decide⟩ = 1 by decide)]
        rfl)

/-- Entry (i, j) of the padded adjacency matrix: the zero it starts from plus the weights of the edges whose
    wrapped target is i and whose wrapped source is j. -/
theorem adjOf_apply (s d : IVec S170000 32) (nrm : FVec Ideal S170000 .f32) (i j : Fin 10240) :
    adjOf s d nrm (ix2 i j)
      = Ideal.ofBits .f32 0x00000000#32
        + ∑ e ∈ Finset.univ.filter (fun e : Fin 170000 =>
            (wrapIdx d (ix1 e)).toInt = (i.val : Int) ∧ (wrapIdx s (ix1 e)).toInt = (j.val : Int)), nrm (ix1 e) := by
  unfold adjOf
  rw [truncf_apply]
  unfold Host.scatterAdd
  rw [Ideal.hostScatterAdd_def]
  have hd : scatter_S10240x10240_S170000x2_S170000_n_01_01_1
      = Cert.HostIdx.scatterPairDims 10240 10240 170000 scatter_S10240x10240_S170000x2_S170000_n_01_01_1_wf := rfl
  rw [hd, Cert.HostIdx.scatterAdd_pair_apply]
  refine congrArg₂ (fun a b : EReal => a + b) ?_ ?_
  · rw [broadcastInDim_scalar_apply, constant_apply]
  · refine Finset.sum_congr (Finset.filter_congr (fun e _ => ?_)) (fun _ _ => rfl)
    rw [Cert.HostIdx.concatCols_apply0, Cert.HostIdx.concatCols_apply1, column_apply, column_apply]

/-- The wrap at an entry, spelt out: a word below zero (read signed) has 10240 added. -/
theorem wrapIdx_apply (w : IVec S170000 32) (e : Fin 170000) :
    wrapIdx w (ix1 e)
      = Scalar.select (IntOp.cmpi .slt (w (ix1 e)) 0#32) (IntOp.addi (w (ix1 e)) 10240#32) (w (ix1 e)) := rfl

section Fold
variable (X : Valuation τ sig (Elt Ideal))

set_option maxHeartbeats 4000000 in
/-- The padded adjacency matrix the regions read, as the function `adjOf` of the edge sources, the edge targets and
    the edge weights that the same fold leaves in their buffers. -/
theorem entry_v45 : (entry X (Proc.devRef .tc main_v45) : S10240x10240.Idx → EReal)
    = adjOf (entry X (Proc.devRef .tc main_v5)) (entry X (Proc.devRef .tc main_v6)) (entry X (Proc.devRef .tc main_v29)) := by
  unfold adjOf wrapIdx
  dsimp only [entry, Gen.hostOps0, Gen.hostOps0_1, Gen.hostOps0_2, Gen.hostOps0_3, Gen.hostOps0_4]
  simp (disch := decide) only [↓concat2_intro, after_cons, after_nil, TRef.toBuf, TRef.ofBuf, cast_eq,
      nullary_result', unary_result', binary_result', ternary_result', quaternary_result', reshape_result',
      nullary_result_ne', unary_result_ne', binary_result_ne', ternary_result_ne', quaternary_result_ne', reshape_result_ne']

end Fold

section AtEntry
variable (m : (ℓ : Loc nD τ sig) → Buf (Elt Ideal) ℓ) (ρ : Dev nD → PrngReg) (c : Dev nD)

/-- The padded adjacency matrix at the first region's entry is `adjOf` of the three edge buffers there. -/
theorem adj_eq :
    (Gen.V5 m ρ c main_v45 : S10240x10240.Idx → EReal)
      = adjOf (Gen.V5 m ρ c main_v5) (Gen.V5 m ρ c main_v6) (Gen.V5 m ρ c main_v29) :=
  entry_v45 (Gen.W0 m ρ c)

/-- Entry (i, j) of the padded adjacency matrix at the first region's entry: the zero it starts from plus the weights
    of the edges whose wrapped target is i and whose wrapped source is j. -/
theorem adj_apply (i j : Fin 10240) :
    (Gen.V5 m ρ c main_v45 : S10240x10240.Idx → EReal) (ix2 i j)
      = (Ideal.ofBits .f32 0x00000000#32 : EReal)
        + Finset.sum (M := EReal) (Finset.univ.filter (fun e : Fin 170000 =>
            (wrapIdx (Gen.V5 m ρ c main_v6) (ix1 e)).toInt = (i.val : Int)
              ∧ (wrapIdx (Gen.V5 m ρ c main_v5) (ix1 e)).toInt = (j.val : Int)))
            (fun e => (Gen.V5 m ρ c main_v29 : S170000.Idx → EReal) (ix1 e)) :=
  (congrFun (adj_eq m ρ c) (ix2 i j)).trans (adjOf_apply _ _ _ i j)

/-- The same with the zero dropped. -/
theorem adj_apply_sum (i j : Fin 10240) :
    (Gen.V5 m ρ c main_v45 : S10240x10240.Idx → EReal) (ix2 i j)
      = Finset.sum (M := EReal) (Finset.univ.filter (fun e : Fin 170000 =>
            (wrapIdx (Gen.V5 m ρ c main_v6) (ix1 e)).toInt = (i.val : Int)
              ∧ (wrapIdx (Gen.V5 m ρ c main_v5) (ix1 e)).toInt = (j.val : Int)))
            (fun e => (Gen.V5 m ρ c main_v29 : S170000.Idx → EReal) (ix1 e)) := by
  rw [adj_apply, Ideal.ofBits_zero_f32, zero_add]

end AtEntry

end Cert.KernelIdeal.HostRead
-- ==== Proof.Final.lean ====
/-
  The two programs' results are equal.

  The kernel's result buffer holds rows 0 … 9999 of the dense two-layer form over the padded nodes (the four regions, then the
  final slice); the reference's result is the edge-list two-layer form; and the two forms agree on those rows when every input
  entry is a real number and every edge weight is real. The precondition gives the first (each float input is finite) and makes
  every source and destination word a node; the edge weight is real by its construction. The adjacency the kernel scatters is
  `∑ {e | dN e = i ∧ sN e = j} n e` because for a word that is a node the negative-index wrap is the identity and the word
  lands in row `i` exactly when its node is `i`.
-/
import proofs.«109809_j64716567216668_1_alg».proof.Defs
import proofs.«109809_j64716567216668_1_alg».proof.Proof.Gen.Pre_finite_inputs
import proofs.«109809_j64716567216668_1_alg».proof.Proof.KGlue
import proofs.«109809_j64716567216668_1_alg».proof.Proof.KHostTail
import proofs.«109809_j64716567216668_1_alg».proof.Proof.RefGlue
import proofs.«109809_j64716567216668_1_alg».proof.Proof.PreDecode
import proofs.«109809_j64716567216668_1_alg».proof.Proof.KHostShared
import proofs.«109809_j64716567216668_1_alg».proof.Proof.KHostAdj
import proofs.«109809_j64716567216668_1_alg».proof.Proof.RefRead

set_option maxRecDepth 16384

noncomputable section

namespace Cert.Final

open Idealize.ShloMosaic Idealize.ShloMosaic.TcCoe Idealize.SL.Sem Idealize.ShloMosaic.ValueIdx Finset
open Cert.KernelIdeal Cert.KernelIdeal.Gen

variable (m : (ℓ : Loc nD τ sig) → Buf (Elt Ideal) ℓ) (ρ : Dev nD → PrngReg) (c : Dev nD)

/-- The kernel's argument arrays, typed as the reference's stage lemmas take them. -/
abbrev X0 : (⟨Cert.ReferenceIdeal.S10000x512, .f32⟩ : BufTy).Contents (Elt Ideal) := m ((c.tc : Thread nD τ).loc main_arg0)
abbrev X1 : (⟨Cert.ReferenceIdeal.S2x160000, .i32⟩ : BufTy).Contents (Elt Ideal) := m ((c.tc : Thread nD τ).loc main_arg1)
abbrev X2 : (⟨Cert.ReferenceIdeal.S512x512, .f32⟩ : BufTy).Contents (Elt Ideal) := m ((c.tc : Thread nD τ).loc main_arg2)
abbrev X3 : (⟨Cert.ReferenceIdeal.S512, .f32⟩ : BufTy).Contents (Elt Ideal) := m ((c.tc : Thread nD τ).loc main_arg3)
abbrev X4 : (⟨Cert.ReferenceIdeal.S512x256, .f32⟩ : BufTy).Contents (Elt Ideal) := m ((c.tc : Thread nD τ).loc main_arg4)
abbrev X5 : (⟨Cert.ReferenceIdeal.S256, .f32⟩ : BufTy).Contents (Elt Ideal) := m ((c.tc : Thread nD τ).loc main_arg5)

section
variable (hx1 : ∀ i, 0 ≤ (X1 m c i).toInt ∧ (X1 m c i).toInt < 10000)

/-- The adjacency buffer holds the edge weights added up by destination and source node. -/
theorem adj_eq : ∀ i j : Fin 10240, Cert.KernelIdeal.KGlue.adjK m ρ c (ix2 i j)
    = Cert.Bridge.adj (Cert.ReferenceIdeal.RefGlue.nrm (X1 m c)) (Cert.ReferenceIdeal.RefGlue.sN (X1 m c) hx1) (Cert.ReferenceIdeal.RefGlue.dN (X1 m c) hx1) i j := by
  intro i j
  have e1 : Cert.KernelIdeal.KGlue.adjK m ρ c
      = Cert.KernelIdeal.HostRead.adjOf (Cert.ReferenceIdeal.ReadP.val_main_v6 (F := Ideal) (X1 m c))
          (Cert.ReferenceIdeal.ReadP.val_main_v7 (F := Ideal) (X1 m c)) (Cert.ReferenceIdeal.ReadP.val_main_v30 (F := Ideal) (X1 m c)) :=
    (Cert.KernelIdeal.HostRead.adj_eq m ρ c).trans (by
      rw [Cert.KernelIdeal.HostRead.src_eq m ρ c, Cert.KernelIdeal.HostRead.dst_eq m ρ c, Cert.KernelIdeal.HostRead.norm_eq m ρ c])
  rw [congrFun e1 (ix2 i j), Cert.KernelIdeal.HostRead.adjOf_apply, Ideal.ofBits_zero_f32, zero_add]
  unfold Cert.Bridge.adj
  refine Finset.sum_congr (Finset.filter_congr fun e _ => ?_) (fun e _ => rfl)
  have hd := Cert.ReferenceIdeal.RefFacts.dst_node (X1 m c) hx1 e
  have hs := Cert.ReferenceIdeal.RefFacts.src_node (X1 m c) hx1 e
  rw [Cert.KernelIdeal.HostRead.wrapIdx_apply, Cert.KernelIdeal.HostRead.wrapIdx_apply,
    Cert.ReferenceIdeal.RefRead.wrap_of_nonneg _ _ hd.1, Cert.ReferenceIdeal.RefRead.wrap_of_nonneg _ _ hs.1]
  show _ ↔ (Cert.ReferenceIdeal.ReadP.val_main_v7 (F := Ideal) (X1 m c) (ix1 e)).toInt.toNat = i.val
      ∧ (Cert.ReferenceIdeal.ReadP.val_main_v6 (F := Ideal) (X1 m c) (ix1 e)).toInt.toNat = j.val
  omega

/-- The kernel's result at row `i`, column `q` is the edge-list form. -/
theorem kernel_result (hx0 : ∀ i, Cert.Agg.IsR (X0 m c i)) (hx2 : ∀ i, Cert.Agg.IsR (X2 m c i)) (hx3 : ∀ i, Cert.Agg.IsR (X3 m c i))
    (hx4 : ∀ i, Cert.Agg.IsR (X4 m c i)) (i : Fin 10000) (q : Fin 256) :
    (W10 m ρ c (Proc.devRef .tc main_v58) : S10000x256.Idx → EReal) (ix2 i q)
      = Cert.Bridge.rZ (Cert.ReferenceIdeal.RefGlue.xa (X0 m c)) (Cert.ReferenceIdeal.RefGlue.w1 (X2 m c)) (Cert.ReferenceIdeal.RefGlue.bb1 (X3 m c))
          (Cert.ReferenceIdeal.RefGlue.w2 (X4 m c)) (Cert.ReferenceIdeal.RefGlue.bb2 (X5 m c)) (Cert.ReferenceIdeal.RefGlue.nrm (X1 m c))
          (Cert.ReferenceIdeal.RefGlue.sN (X1 m c) hx1) (Cert.ReferenceIdeal.RefGlue.dN (X1 m c) hx1) i q := by
  rw [Cert.KernelIdeal.HostRead.result_apply m ρ c i q]
  refine (Cert.KernelIdeal.KGlue.lvl4 m ρ c _ _ _ (adj_eq m ρ c hx1) (Cert.Bridge.up i) q).trans ?_
  exact Cert.Bridge.bridge (Cert.ReferenceIdeal.RefGlue.xa (X0 m c)) (Cert.ReferenceIdeal.RefGlue.w1 (X2 m c)) (Cert.ReferenceIdeal.RefGlue.bb1 (X3 m c))
    (Cert.ReferenceIdeal.RefGlue.w2 (X4 m c)) (Cert.ReferenceIdeal.RefGlue.bb2 (X5 m c)) (Cert.ReferenceIdeal.RefGlue.nrm (X1 m c))
    (Cert.ReferenceIdeal.RefGlue.sN (X1 m c) hx1) (Cert.ReferenceIdeal.RefGlue.dN (X1 m c) hx1)
    (fun j k => hx0 _) (fun k q => hx2 _) (fun q => hx3 _) (fun k q => hx4 _)
    (fun e => Cert.ReferenceIdeal.RefFacts.norm_real (X1 m c) _) i q
end

/-- The reference's result term is what the kernel leaves in its result buffer. -/
theorem central (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hpre : @Cert.Pre_KernelIdeal Cert.Pre_finite_inputs.Gen.facts m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.ReferenceIdeal.nD) :
    Cert.ReferenceIdeal.ValueP.res_main_v90 (F := Ideal) m' c = W10 m ρ c (Proc.devRef .tc main_v58) := by
  obtain ⟨h0, h2, h3, h4, _, hx1⟩ := @Cert.PreDecode.decode Cert.Pre_finite_inputs.Gen.facts _ _ _ _ _ _ (hpre c)
  rw [Cert.ReferenceIdeal.ReadP.val_main_v90_eq]
  obtain ⟨a0, a1, a2, a3, a4, a5⟩ := hagree c
  rw [a0, a1, a2, a3, a4, a5]
  show (Cert.ReferenceIdeal.ReadP.val_main_v90 (F := Ideal) (X0 m c) (X1 m c) (X2 m c) (X3 m c) (X4 m c) (X5 m c) : S10000x256.Idx → EReal)
    = (W10 m ρ c (Proc.devRef .tc main_v58) : S10000x256.Idx → EReal)
  funext idx
  obtain ⟨i, q, rfl⟩ : ∃ (i : Fin 10000) (q : Fin 256), idx = ix2 i q := ⟨idx 0, idx 1, eq_ix2 idx⟩
  rw [Cert.ReferenceIdeal.RefGlue.result (X0 m c) (X1 m c) (X2 m c) (X3 m c) (X4 m c) (X5 m c) hx1 i q]
  exact (kernel_result m ρ c hx1 h0 h2 h3 h4 i q).symm

end Cert.Final

end
-- ==== Proof.lean ====
/-
  The certificate: a two-layer graph convolution as four matrix-product kernels over a dense, padded adjacency, against the
  edge-list reference that gathers source rows, scales them by the edge weight and adds them up at the destination.

  Both programs compute the same degrees, inverse square roots and edge weights `n e` from the edge array. The kernel scatters the
  weights into `A i j = ∑ {e | dst e = i ∧ src e = j} n e` over 10240 padded nodes and computes
  `A · (relu (A · (x_pad · W1) + b1) · W2) + b2`, keeping rows 0 … 9999; the reference computes, per layer,
  `∑ {e | dst e = i} (x · W) (src e) c · n e + b c`. They agree by distributing each product over the scattered sum and exchanging
  the two sums — a law of the real numbers, used here for finite inputs — and because no edge has a padded node as its source,
  so the padded rows never contribute. The claim is stated for edge arrays whose entries are nodes, `0 ≤ w < 10000`: outside that
  range the two programs index differently (the kernel pads to 10240, the reference clamps against 10000).

  The three frame claims are the generated frames and the reference's run with its result dropped; the idealization rewrote
  nothing, so the kernel's idealization claim is trivial; the value claim is `Cert.Final.central`.
-/
import proofs.«109809_j64716567216668_1_alg».proof.Defs
import proofs.«109809_j64716567216668_1_alg».proof.Proof.Gen.Kernel
import proofs.«109809_j64716567216668_1_alg».proof.Proof.Gen.Kernel.Skeleton
import proofs.«109809_j64716567216668_1_alg».proof.Proof.Gen.Kernel.Launch
import proofs.«109809_j64716567216668_1_alg».proof.Proof.Gen.Kernel.Points
import proofs.«109809_j64716567216668_1_alg».proof.Proof.Gen.Kernel.Frame
import proofs.«109809_j64716567216668_1_alg».proof.Proof.Gen.KernelIdeal
import proofs.«109809_j64716567216668_1_alg».proof.Proof.Gen.KernelIdeal.Skeleton
import proofs.«109809_j64716567216668_1_alg».proof.Proof.Gen.KernelIdeal.Launch
import proofs.«109809_j64716567216668_1_alg».proof.Proof.Gen.KernelIdeal.Points
import proofs.«109809_j64716567216668_1_alg».proof.Proof.Gen.KernelIdeal.Frame
import proofs.«109809_j64716567216668_1_alg».proof.Proof.Gen.ReferenceIdeal
import proofs.«109809_j64716567216668_1_alg».proof.Proof.RefRunP
import proofs.«109809_j64716567216668_1_alg».proof.Proof.RefReadP
import proofs.«109809_j64716567216668_1_alg».proof.Proof.Gen.Pre_finite_inputs
import proofs.«109809_j64716567216668_1_alg».proof.Proof.KernelRun
import proofs.«109809_j64716567216668_1_alg».proof.Proof.Final
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : @Cert.frame_Kernel Cert.Kernel.Gen.facts Cert.Pre_finite_inputs.Gen.facts :=
  fun m ρ _ => Cert.Kernel.Gen.frame m ρ
/-- So does its idealization. -/
theorem frame_ki : @Cert.frame_KernelIdeal Cert.KernelIdeal.Gen.facts Cert.Pre_finite_inputs.Gen.facts :=
  fun m ρ _ => Cert.KernelIdeal.Gen.frame m ρ
/-- The reference's run, its result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- The two idealized programs, from memories agreeing on the arguments, end with equal results: the common value is what the
    kernel's last segment leaves in its result buffer, and the reference's result term equals it. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W10 m ρ c (Proc.devRef .tc Cert.KernelIdeal.main_v58), Cert.KernelIdeal.RunValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Final.central m ρ m' hpre hagree c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
